-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S256x10 : Shape := ⟨2, ![256, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S3x64x64 .f32) (main_arg10 : FVec F S3x64 .f32) (main_arg11 : FVec F S256x10 .f32) (main_arg12 : FVec F S10 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S256x10 .f32 := Host.absf main_arg11
  let main_cst_16 : FVec F S_ .f32 := constant S_ .f32 0x7F800000#32
  let main_v45 : FVec F S256x10 .f32 := broadcastInDim S256x10 ![] bcast_S_S256x10 main_cst_16
  let main_v46 : IVec S256x10 1 := cmpf .olt main_v44 main_v45
  let main_c_17 : IVec S_ 1 := constantI S_ 1 1#1
  let main_v47 : IVec S_ 1 := (fun x v => Host.reduce IntOp.andi x v reducesTo_S256x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S64 .f32) (main_arg7 : FVec F S3x64x64 .f32) (main_arg8 : FVec F S3x64 .f32) (main_arg9 : FVec F S3x64x64 .f32) (main_arg10 : FVec F S3x64 .f32) (main_arg11 : FVec F S256x10 .f32) (main_arg12 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S3x64x64 .f32) (main_arg8 : FVec F S3x64 .f32) (main_arg9 : FVec F S3x64x64 .f32) (main_arg10 : FVec F S3x64 .f32) (main_arg11 : FVec F S256x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S1x64x64 : Shape := ⟨3, ![1, 64, 64]⟩
abbrev S800000x64 : Shape := ⟨2, ![800000, 64]⟩
abbrev S50000x256 : Shape := ⟨2, ![50000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 130
  | .vmem => 37
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S3x64x64, .f32⟩
  | 8 => ⟨S3x64, .f32⟩
  | 9 => ⟨S3x64x64, .f32⟩
  | 10 => ⟨S3x64, .f32⟩
  | 11 => ⟨S256x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x128, .f32⟩
  | 31 => ⟨S1x64, .f32⟩
  | 32 => ⟨S1x64, .f32⟩
  | 33 => ⟨S50000x64, .f32⟩
  | 34 => ⟨S1x64x64, .f32⟩
  | 35 => ⟨S64x64, .f32⟩
  | 36 => ⟨S1x64, .f32⟩
  | 37 => ⟨S64, .f32⟩
  | 38 => ⟨S1x64x64, .f32⟩
  | 39 => ⟨S64x64, .f32⟩
  | 40 => ⟨S1x64, .f32⟩
  | 41 => ⟨S64, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S_, .f32⟩
  | 52 => ⟨S50000x64, .f32⟩
  | 53 => ⟨S800000x1, .i32⟩
  | 54 => ⟨S50000x64, .f32⟩
  | 55 => ⟨S50000x64, .f32⟩
  | 56 => ⟨S1x64, .f32⟩
  | 57 => ⟨S1x64, .f32⟩
  | 58 => ⟨S50000x64, .f32⟩
  | 59 => ⟨S1x64x64, .f32⟩
  | 60 => ⟨S64x64, .f32⟩
  | 61 => ⟨S1x64, .f32⟩
  | 62 => ⟨S64, .f32⟩
  | 63 => ⟨S1x64x64, .f32⟩
  | 64 => ⟨S64x64, .f32⟩
  | 65 => ⟨S1x64, .f32⟩
  | 66 => ⟨S64, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x64, .f32⟩
  | 76 => ⟨S_, .f32⟩
  | 77 => ⟨S50000x64, .f32⟩
  | 78 => ⟨S800000x1, .i32⟩
  | 79 => ⟨S50000x64, .f32⟩
  | 80 => ⟨S50000x64, .f32⟩
  | 81 => ⟨S1x64, .f32⟩
  | 82 => ⟨S1x64, .f32⟩
  | 83 => ⟨S50000x64, .f32⟩
  | 84 => ⟨S1x64x64, .f32⟩
  | 85 => ⟨S64x64, .f32⟩
  | 86 => ⟨S1x64, .f32⟩
  | 87 => ⟨S64, .f32⟩
  | 88 => ⟨S1x64x64, .f32⟩
  | 89 => ⟨S64x64, .f32⟩
  | 90 => ⟨S1x64, .f32⟩
  | 91 => ⟨S64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S50000x64, .f32⟩
  | 106 => ⟨S1x64, .f32⟩
  | 107 => ⟨S1x64, .f32⟩
  | 108 => ⟨S50000x64, .f32⟩
  | 109 => ⟨S50000x256, .f32⟩
  | 110 => ⟨S_, .f32⟩
  | 111 => ⟨S512x256, .f32⟩
  | 112 => ⟨S50000x1, .i32⟩
  | 113 => ⟨S512x256, .f32⟩
  | 114 => ⟨S_, .f32⟩
  | 115 => ⟨S50000, .f32⟩
  | 116 => ⟨S_, .f32⟩
  | 117 => ⟨S512, .f32⟩
  | 118 => ⟨S50000x1, .i32⟩
  | 119 => ⟨S512, .f32⟩
  | 120 => ⟨S_, .f32⟩
  | 121 => ⟨S_, .f32⟩
  | 122 => ⟨S512, .f32⟩
  | 123 => ⟨S512, .f32⟩
  | 124 => ⟨S_, .f32⟩
  | 125 => ⟨S512, .f32⟩
  | 126 => ⟨S512, .f32⟩
  | 127 => ⟨S512x1, .f32⟩
  | _ => ⟨S50000x128, .f32⟩

abbrev hbmTy0_1 (i : Nat) : BufTy := match i % 128 with
  | 0 => ⟨S1x10, .f32⟩
  | 1 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S512x256, .f32⟩
  | .local _ .vmem, ⟨33, _⟩ => ⟨S512x1, .f32⟩
  | .local _ .vmem, ⟨34, _⟩ => ⟨S256x10, .f32⟩
  | .local _ .vmem, ⟨35, _⟩ => ⟨S1x10, .f32⟩
  | .local _ .vmem, ⟨36, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_1 : Ref sig .tc := ⟨.hbm, 42, rfl⟩
abbrev main_v26 : Ref sig .tc := ⟨.hbm, 43, rfl⟩
abbrev main_v27 : Ref sig .tc := ⟨.hbm, 44, rfl⟩
abbrev main_c_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_4 : Ref sig .tc := ⟨.hbm, 67, rfl⟩
abbrev main_v48 : Ref sig .tc := ⟨.hbm, 68, rfl⟩
abbrev main_v49 : Ref sig .tc := ⟨.hbm, 69, rfl⟩
abbrev main_c_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_c_7 : Ref sig .tc := ⟨.hbm, 92, rfl⟩
abbrev main_v70 : Ref sig .tc := ⟨.hbm, 93, rfl⟩
abbrev main_v71 : Ref sig .tc := ⟨.hbm, 94, rfl⟩
abbrev main_c_8 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_9 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_10 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_11 : Ref sig .tc := ⟨.hbm, 114, rfl⟩
abbrev main_v88 : Ref sig .tc := ⟨.hbm, 115, rfl⟩
abbrev main_cst_12 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_13 : Ref sig .tc := ⟨.hbm, 120, rfl⟩
abbrev main_call0_v0 : Ref sig .tc := ⟨.hbm, 121, rfl⟩
abbrev main_call0_v1 : Ref sig .tc := ⟨.hbm, 122, rfl⟩
abbrev main_v92 : Ref sig .tc := ⟨.hbm, 123, rfl⟩
abbrev main_cst_14 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S50000x64 : S_.BroadcastsInDim S50000x64 (![] : Fin 0 → Fin S50000x64.rank)
  shapeCasts_S5000x64_S5000x64 : S5000x64.ShapeCasts S5000x64
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S50000x64_S50000x64_S50000x64_S50000x64_S50000x256_d1 : Shape.Concatenates [S50000x64, S50000x64, S50000x64, S50000x64] S50000x256 1
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  shapeCasts_S10_S1x10 : S10.ShapeCasts S1x10
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x10_S512x10_1_0_0_1_n_n_wf : DotDims.WF S512x256 S256x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x256.size a ≤ S512x256.size a
  hwx4_0 : ∀ i : grid4.Coords, EltTy.bits .f32 = 32 ∨ (Rect.block (s := S512x256) S512x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S512x1.size a
  hwx4_1 : ∀ i : grid4.Coords, EltTy.bits .f32 = 32 ∨ (Rect.block (s := S512x1) S512x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x10.size a ≤ S256x10.size a
  hwx4_2 : ∀ i : grid4.Coords, EltTy.bits .f32 = 32 ∨ (Rect.block (s := S256x10) S256x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x10.size a ≤ S1x10.size a
  hwx4_3 : ∀ i : grid4.Coords, EltTy.bits .f32 = 32 ∨ (Rect.block (s := S1x10) S1x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S512x10.size a ≤ S512x10.size a
  hwx4_4 : ∀ i : grid4.Coords, EltTy.bits .f32 = 32 ∨ (Rect.block (s := S512x10) S512x10.size (cc4_transform_4 i) (hinb4_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x10_S512x10_1_0_0_1_n_n : DotDims S512x256 S256x10 S512x10 where
  lhsContracting := [1]
  rhsContracting := [0]
  lhsNonContracting := [0]
  rhsNonContracting := [1]
  lhsBatch := []
  rhsBatch := []
  wf := dot_S512x256_S256x10_S512x10_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v80) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v87) S512x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v95) S512x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S256x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S1x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S512x10.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S1x64x64 : Shape := ⟨3, ![1, 64, 64]⟩
abbrev S800000x64 : Shape := ⟨2, ![800000, 64]⟩
abbrev S50000x256 : Shape := ⟨2, ![50000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 190
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S3x64x64, .f32⟩
  | 8 => ⟨S3x64, .f32⟩
  | 9 => ⟨S3x64x64, .f32⟩
  | 10 => ⟨S3x64, .f32⟩
  | 11 => ⟨S256x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S50000x128, .f32⟩
  | 31 => ⟨S50000x64, .f32⟩
  | 32 => ⟨S1x64, .f32⟩
  | 33 => ⟨S50000x64, .f32⟩
  | 34 => ⟨S50000x64, .f32⟩
  | 35 => ⟨S_, .f32⟩
  | 36 => ⟨S50000x64, .f32⟩
  | 37 => ⟨S50000x64, .f32⟩
  | 38 => ⟨S50000x64, .f32⟩
  | 39 => ⟨S1x64, .f32⟩
  | 40 => ⟨S50000x64, .f32⟩
  | 41 => ⟨S50000x64, .f32⟩
  | 42 => ⟨S_, .f32⟩
  | 43 => ⟨S50000x64, .f32⟩
  | 44 => ⟨S50000x64, .f32⟩
  | 45 => ⟨S1x64x64, .f32⟩
  | 46 => ⟨S64x64, .f32⟩
  | 47 => ⟨S1x64, .f32⟩
  | 48 => ⟨S64, .f32⟩
  | 49 => ⟨S1x64x64, .f32⟩
  | 50 => ⟨S64x64, .f32⟩
  | 51 => ⟨S1x64, .f32⟩
  | 52 => ⟨S64, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S_, .f32⟩
  | 63 => ⟨S50000x64, .f32⟩
  | 64 => ⟨S800000x1, .i32⟩
  | 65 => ⟨S50000x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S1x64x64, .f32⟩
  | 82 => ⟨S64x64, .f32⟩
  | 83 => ⟨S1x64, .f32⟩
  | 84 => ⟨S64, .f32⟩
  | 85 => ⟨S1x64x64, .f32⟩
  | 86 => ⟨S64x64, .f32⟩
  | 87 => ⟨S1x64, .f32⟩
  | 88 => ⟨S64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S50000x64, .f32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S1x64, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S1x64x64, .f32⟩
  | 118 => ⟨S64x64, .f32⟩
  | 119 => ⟨S1x64, .f32⟩
  | 120 => ⟨S64, .f32⟩
  | 121 => ⟨S1x64x64, .f32⟩
  | 122 => ⟨S64x64, .f32⟩
  | 123 => ⟨S1x64, .f32⟩
  | 124 => ⟨S64, .f32⟩
  | 125 => ⟨S_, .i32⟩
  | 126 => ⟨S800000, .i32⟩
  | 127 => ⟨S800000, .i1⟩
  | _ => ⟨S50000x128, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S_, .f32⟩
  | 7 => ⟨S50000x64, .f32⟩
  | 8 => ⟨S800000x1, .i32⟩
  | 9 => ⟨S50000x64, .f32⟩
  | 10 => ⟨S50000x64, .f32⟩
  | 11 => ⟨S50000x64, .f32⟩
  | 12 => ⟨S1x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x64, .f32⟩
  | 19 => ⟨S1x64, .f32⟩
  | 20 => ⟨S50000x64, .f32⟩
  | 21 => ⟨S50000x64, .f32⟩
  | 22 => ⟨S_, .f32⟩
  | 23 => ⟨S50000x64, .f32⟩
  | 24 => ⟨S50000x64, .f32⟩
  | 25 => ⟨S50000x256, .f32⟩
  | 26 => ⟨S_, .f32⟩
  | 27 => ⟨S512x256, .f32⟩
  | 28 => ⟨S50000x1, .i32⟩
  | 29 => ⟨S512x256, .f32⟩
  | 30 => ⟨S_, .f32⟩
  | 31 => ⟨S50000, .f32⟩
  | 32 => ⟨S_, .f32⟩
  | 33 => ⟨S512, .f32⟩
  | 34 => ⟨S50000x1, .i32⟩
  | 35 => ⟨S512, .f32⟩
  | 36 => ⟨S_, .f32⟩
  | 37 => ⟨S_, .f32⟩
  | 38 => ⟨S512, .f32⟩
  | 39 => ⟨S512, .f32⟩
  | 40 => ⟨S512x1, .f32⟩
  | 41 => ⟨S512x256, .f32⟩
  | 42 => ⟨S512x256, .f32⟩
  | 43 => ⟨S512x10, .f32⟩
  | 44 => ⟨S1x10, .f32⟩
  | 45 => ⟨S512x10, .f32⟩
  | 46 => ⟨S512x10, .f32⟩
  | 47 => ⟨S_, .f32⟩
  | 48 => ⟨S512, .f32⟩
  | 49 => ⟨S_, .f32⟩
  | 50 => ⟨S512, .f32⟩
  | 51 => ⟨S512, .f32⟩
  | 52 => ⟨S512x1, .f32⟩
  | 53 => ⟨S512x10, .f32⟩
  | 54 => ⟨S512x10, .f32⟩
  | 55 => ⟨S512x10, .f32⟩
  | 56 => ⟨S_, .f32⟩
  | 57 => ⟨S512, .f32⟩
  | 58 => ⟨S512x1, .f32⟩
  | 59 => ⟨S512x1, .f32⟩
  | 60 => ⟨S512x10, .f32⟩
  | 61 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_1 : Ref sig .tc := ⟨.hbm, 53, rfl⟩
abbrev main_v33 : Ref sig .tc := ⟨.hbm, 54, rfl⟩
abbrev main_v34 : Ref sig .tc := ⟨.hbm, 55, rfl⟩
abbrev main_c_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call2_cst : Ref sig .tc := ⟨.hbm, 71, rfl⟩
abbrev main_call2_v0 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call3_cst : Ref sig .tc := ⟨.hbm, 78, rfl⟩
abbrev main_call3_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_4 : Ref sig .tc := ⟨.hbm, 89, rfl⟩
abbrev main_v62 : Ref sig .tc := ⟨.hbm, 90, rfl⟩
abbrev main_v63 : Ref sig .tc := ⟨.hbm, 91, rfl⟩
abbrev main_c_5 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_6 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call4_cst : Ref sig .tc := ⟨.hbm, 107, rfl⟩
abbrev main_call4_v0 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call5_cst : Ref sig .tc := ⟨.hbm, 114, rfl⟩
abbrev main_call5_v0 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_7 : Ref sig .tc := ⟨.hbm, 125, rfl⟩
abbrev main_v91 : Ref sig .tc := ⟨.hbm, 126, rfl⟩
abbrev main_v92 : Ref sig .tc := ⟨.hbm, 127, rfl⟩
abbrev main_c_8 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_9 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_call6_cst : Ref sig .tc := ⟨.hbm, 143, rfl⟩
abbrev main_call6_v0 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_call7_cst : Ref sig .tc := ⟨.hbm, 150, rfl⟩
abbrev main_call7_v0 : Ref sig .tc := ⟨.hbm, 151, rfl⟩
abbrev main_v111 : Ref sig .tc := ⟨.hbm, 152, rfl⟩
abbrev main_v112 : Ref sig .tc := ⟨.hbm, 153, rfl⟩
abbrev main_cst_10 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_11 : Ref sig .tc := ⟨.hbm, 158, rfl⟩
abbrev main_v116 : Ref sig .tc := ⟨.hbm, 159, rfl⟩
abbrev main_cst_12 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_13 : Ref sig .tc := ⟨.hbm, 164, rfl⟩
abbrev main_call8_v0 : Ref sig .tc := ⟨.hbm, 165, rfl⟩
abbrev main_call8_v1 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_call9_cst : Ref sig .tc := ⟨.hbm, 175, rfl⟩
abbrev main_call9_v0 : Ref sig .tc := ⟨.hbm, 176, rfl⟩
abbrev main_call9_cst_0 : Ref sig .tc := ⟨.hbm, 177, rfl⟩
abbrev main_call9_v1 : Ref sig .tc := ⟨.hbm, 178, rfl⟩
abbrev main_call9_v2 : Ref sig .tc := ⟨.hbm, 179, rfl⟩
abbrev main_call9_v3 : Ref sig .tc := ⟨.hbm, 180, rfl⟩
abbrev main_call9_v4 : Ref sig .tc := ⟨.hbm, 181, rfl⟩
abbrev main_call9_v5 : Ref sig .tc := ⟨.hbm, 182, rfl⟩
abbrev main_call9_v6 : Ref sig .tc := ⟨.hbm, 183, rfl⟩
abbrev main_call9_cst_1 : Ref sig .tc := ⟨.hbm, 184, rfl⟩
abbrev main_call9_v7 : Ref sig .tc := ⟨.hbm, 185, rfl⟩
abbrev main_call9_v8 : Ref sig .tc := ⟨.hbm, 186, rfl⟩
abbrev main_call9_v9 : Ref sig .tc := ⟨.hbm, 187, rfl⟩
abbrev main_call9_v10 : Ref sig .tc := ⟨.hbm, 188, rfl⟩
abbrev main_v128 : Ref sig .tc := ⟨.hbm, 189, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S50000x64_S50000x64_S50000x64_S50000x64_S50000x256_d1 : Shape.Concatenates [S50000x64, S50000x64, S50000x64, S50000x64] S50000x256 1
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x256_S256x10_S512x10_1_0_0_1_n_n_wf : DotDims.WF S512x256 S256x10 S512x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x256_S256x10_S512x10_1_0_0_1_n_n : DotDims S512x256 S256x10 S512x10 where
  lhsContracting := [1]
  rhsContracting := [0]
  lhsNonContracting := [0]
  rhsNonContracting := [1]
  lhsBatch := []
  rhsBatch := []
  wf := dot_S512x256_S256x10_S512x10_1_0_0_1_n_n_wf

class Facts : Prop extends Facts₀ where

variable [Facts]
-- ==== Proof.K.Region0.lean ====
/-
  Region 0 of the program's five kernel regions, at any float instance and at any contents `V` of the buffers when
  the region is entered. The body reads each input window's block whole and writes its output block whole with ONE
  pure value of those blocks (one layer's node network: a block of 5000 rows of the aggregated features, times the first weight matrix, plus the first bias, clamped below at zero, times the second weight matrix, plus the second bias, clamped below at zero). Stated here: what a window's block at a grid point is (`iblk0`), what the
  body leaves in the output's block (`out0_5`), the body's triple, and the pipeline's data — every input block
  left as found, the output block at `out0_5` of the input blocks — with its obligation at every grid point.
-/
import proofs.«135148_j25074019074551_1_alg».proof.Proof.Gen.Kernel.Launch
import proofs.«135148_j25074019074551_1_alg».proof.Proof.Gen.Kernel.Skeleton
import proofs.«135148_j25074019074551_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map
    selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether the point fetched it or an earlier one did
    (the block's index has not moved since), for any data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether the point fetched it or an earlier one did
    (the block's index has not moved since), for any data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether the point fetched it or an earlier one did
    (the block's index has not moved since), for any data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, whether the point fetched it or an earlier one did
    (the block's index has not moved since), for any data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, whether the point fetched it or an earlier one did
    (the block's index has not moved since), for any data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangles the body reads and writes -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S1x64 := Rect.unit (s := S1x64) ![0, 0] S1x64.size inb_S1x64_S1x64_0_0
abbrev r0_5 : Rect S5000x64 := Rect.unit (s := S5000x64) ![0, 0] S5000x64.size inb_S5000x64_S5000x64_0_0

/-- The output block after the body: the one stored value, a pure function of the input blocks, written over the whole
    block. -/
def out0_5 (x0 : Vec F S5000x128 .f32) (x1 : Vec F S128x64 .f32) (x2 : Vec F S1x64 .f32) (x3 : Vec F S64x64 .f32) (x4 : Vec F S1x64 .f32) : Vec F S5000x64 .f32 :=
  View.canon [⟨r0_5, k0_pay1 (View.ld x0 r0_0) (View.ld x1 r0_1) (View.ld x2 r0_2) (View.ld x3 r0_3) (View.ld x4 r0_4)⟩]

/-- The one store covers the block. -/
theorem cover0_5 (p0 : Vec F S5000x64 .f32) (y : S5000x64.Idx) :
    ∃ pc ∈ ([⟨r0_5, p0⟩] : List (View.Piece (Elt F) S5000x64 .f32)), y ∈ pc.1.set :=
  View.cover_of_tiled [⟨r0_5, p0⟩] S5000x64.size (by rfl) y

set_option maxHeartbeats 1000000 in
/-- The body's triple: on whole buffers, the inputs' holding `x0 …` and the output's holding anything, it ends with
    the inputs' as they were and the output's at `out0_5` of them. -/
theorem sound_kernel0 (c : Dev nD) (E : Set ℕ) (i : grid0.Coords) (arg0 : Memref sig .tc .vmem S5000x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x128 .f32) (x1 : Vec F S128x64 .f32) (x2 : Vec F S1x64 .f32) (x3 : Vec F S64x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__mlp_kernel i arg0 harg0 arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's data on core `c`: the arrays as the region finds them; after the body at point `t` every input's buffer
    at its block and the output's at `out0_5` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Region1.lean ====
/-
  Region 1 of the program's five kernel regions, at any float instance and at any contents `V` of the buffers when
  the region is entered. The body reads each input window's block whole and writes its output block whole with ONE
  pure value of those blocks (one layer's node network: a block of 5000 rows of the aggregated features, times the first weight matrix, plus the first bias, clamped below at zero, times the second weight matrix, plus the second bias, clamped below at zero). Stated here: what a window's block at a grid point is (`iblk1`), what the
  body leaves in the output's block (`out1_5`), the body's triple, and the pipeline's data — every input block
  left as found, the output block at `out1_5` of the input blocks — with its obligation at every grid point.
-/
import proofs.«135148_j25074019074551_1_alg».proof.Proof.Gen.Kernel.Launch
import proofs.«135148_j25074019074551_1_alg».proof.Proof.Gen.Kernel.Skeleton
import proofs.«135148_j25074019074551_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map
    selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether the point fetched it or an earlier one did
    (the block's index has not moved since), for any data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether the point fetched it or an earlier one did
    (the block's index has not moved since), for any data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether the point fetched it or an earlier one did
    (the block's index has not moved since), for any data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether the point fetched it or an earlier one did
    (the block's index has not moved since), for any data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, whether the point fetched it or an earlier one did
    (the block's index has not moved since), for any data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The whole-block rectangles the body reads and writes -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0
abbrev r1_4 : Rect S1x64 := Rect.unit (s := S1x64) ![0, 0] S1x64.size inb_S1x64_S1x64_0_0
abbrev r1_5 : Rect S5000x64 := Rect.unit (s := S5000x64) ![0, 0] S5000x64.size inb_S5000x64_S5000x64_0_0

/-- The output block after the body: the one stored value, a pure function of the input blocks, written over the whole
    block. -/
def out1_5 (x0 : Vec F S5000x64 .f32) (x1 : Vec F S64x64 .f32) (x2 : Vec F S1x64 .f32) (x3 : Vec F S64x64 .f32) (x4 : Vec F S1x64 .f32) : Vec F S5000x64 .f32 :=
  View.canon [⟨r1_5, k1_pay1 (View.ld x0 r1_0) (View.ld x1 r1_1) (View.ld x2 r1_2) (View.ld x3 r1_3) (View.ld x4 r1_4)⟩]

/-- The one store covers the block. -/
theorem cover1_5 (p0 : Vec F S5000x64 .f32) (y : S5000x64.Idx) :
    ∃ pc ∈ ([⟨r1_5, p0⟩] : List (View.Piece (Elt F) S5000x64 .f32)), y ∈ pc.1.set :=
  View.cover_of_tiled [⟨r1_5, p0⟩] S5000x64.size (by rfl) y

set_option maxHeartbeats 1000000 in
/-- The body's triple: on whole buffers, the inputs' holding `x0 …` and the output's holding anything, it ends with
    the inputs' as they were and the output's at `out1_5` of them. -/
theorem sound_kernel1 (c : Dev nD) (E : Set ℕ) (i : grid1.Coords) (arg0 : Memref sig .tc .vmem S5000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__mlp_kernel i arg0 harg0 arg1 harg1 arg2 harg2 arg3 harg3 arg4 harg4 arg5 harg5) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's data on core `c`: the arrays as the region finds them; after the body at point `t` every input's buffer
    at its block and the output's at `out1_5` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline asks of the body, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Region2.lean ====
/-
  Region 2 of the program's five kernel regions, at any float instance and at any contents `V` of the buffers when
  the region is entered. The body reads each input window's block whole and writes its output block whole with ONE
  pure value of those blocks (one layer's node network: a block of 5000 rows of the aggregated features, times the first weight matrix, plus the first bias, clamped below at zero, times the second weight matrix, plus the second bias, clamped below at zero). Stated here: what a window's block at a grid point is (`iblk2`), what the
  body leaves in the output's block (`out2_5`), the body's triple, and the pipeline's data — every input block
  left as found, the output block at `out2_5` of the input blocks — with its obligation at every grid point.
-/
import proofs.«135148_j25074019074551_1_alg».proof.Proof.Gen.Kernel.Launch
import proofs.«135148_j25074019074551_1_alg».proof.Proof.Gen.Kernel.Skeleton
import proofs.«135148_j25074019074551_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map
    selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, whether the point fetched it or an earlier one did
    (the block's index has not moved since), for any data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, whether the point fetched it or an earlier one did
    (the block's index has not moved since), for any data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, whether the point fetched it or an earlier one did
    (the block's index has not moved since), for any data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, whether the point fetched it or an earlier one did
    (the block's index has not moved since), for any data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, whether the point fetched it or an earlier one did
    (the block's index has not moved since), for any data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The whole-block rectangles the body reads and writes -/

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0
abbrev r2_4 : Rect S1x64 := Rect.unit (s := S1x64) ![0, 0] S1x64.size inb_S1x64_S1x64_0_0
abbrev r2_5 : Rect S5000x64 := Rect.unit (s := S5000x64) ![0, 0] S5000x64.size inb_S5000x64_S5000x64_0_0

/-- The output block after the body: the one stored value, a pure function of the input blocks, written over the whole
    block. -/
def out2_5 (x0 : Vec F S5000x64 .f32) (x1 : Vec F S64x64 .f32) (x2 : Vec F S1x64 .f32) (x3 : Vec F S64x64 .f32) (x4 : Vec F S1x64 .f32) : Vec F S5000x64 .f32 :=
  View.canon [⟨r2_5, k2_pay1 (View.ld x0 r2_0) (View.ld x1 r2_1) (View.ld x2 r2_2) (View.ld x3 r2_3) (View.ld x4 r2_4)⟩]

/-- The one store covers the block. -/
theorem cover2_5 (p0 : Vec F S5000x64 .f32) (y : S5000x64.Idx) :
    ∃ pc ∈ ([⟨r2_5, p0⟩] : List (View.Piece (Elt F) S5000x64 .f32)), y ∈ pc.1.set :=
  View.cover_of_tiled [⟨r2_5, p0⟩] S5000x64.size (by rfl) y

set_option maxHeartbeats 1000000 in
/-- The body's triple: on whole buffers, the inputs' holding `x0 …` and the output's holding anything, it ends with
    the inputs' as they were and the output's at `out2_5` of them. -/
theorem sound_kernel2 (c : Dev nD) (E : Set ℕ) (i : grid2.Coords) (arg0 : Memref sig .tc .vmem S5000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__mlp_kernel i arg0 harg0 arg1 harg1 arg2 harg2 arg3 harg3 arg4 harg4 arg5 harg5) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The pipeline's data on core `c`: the arrays as the region finds them; after the body at point `t` every input's buffer
    at its block and the output's at `out2_5` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline asks of the body, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Region3.lean ====
/-
  Region 3 of the program's five kernel regions, at any float instance and at any contents `V` of the buffers when
  the region is entered. The body reads each input window's block whole and writes its output block whole with ONE
  pure value of those blocks (one layer's node network: a block of 5000 rows of the aggregated features, times the first weight matrix, plus the first bias, clamped below at zero, times the second weight matrix, plus the second bias, clamped below at zero). Stated here: what a window's block at a grid point is (`iblk3`), what the
  body leaves in the output's block (`out3_5`), the body's triple, and the pipeline's data — every input block
  left as found, the output block at `out3_5` of the input blocks — with its obligation at every grid point.
-/
import proofs.«135148_j25074019074551_1_alg».proof.Proof.Gen.Kernel.Launch
import proofs.«135148_j25074019074551_1_alg».proof.Proof.Gen.Kernel.Skeleton
import proofs.«135148_j25074019074551_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map
    selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, whether the point fetched it or an earlier one did
    (the block's index has not moved since), for any data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, whether the point fetched it or an earlier one did
    (the block's index has not moved since), for any data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, whether the point fetched it or an earlier one did
    (the block's index has not moved since), for any data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, whether the point fetched it or an earlier one did
    (the block's index has not moved since), for any data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds its block at every point, whether the point fetched it or an earlier one did
    (the block's index has not moved since), for any data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The whole-block rectangles the body reads and writes -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S64x64 := Rect.unit (s := S64x64) ![0, 0] S64x64.size inb_S64x64_S64x64_0_0
abbrev r3_4 : Rect S1x64 := Rect.unit (s := S1x64) ![0, 0] S1x64.size inb_S1x64_S1x64_0_0
abbrev r3_5 : Rect S5000x64 := Rect.unit (s := S5000x64) ![0, 0] S5000x64.size inb_S5000x64_S5000x64_0_0

/-- The output block after the body: the one stored value, a pure function of the input blocks, written over the whole
    block. -/
def out3_5 (x0 : Vec F S5000x64 .f32) (x1 : Vec F S64x64 .f32) (x2 : Vec F S1x64 .f32) (x3 : Vec F S64x64 .f32) (x4 : Vec F S1x64 .f32) : Vec F S5000x64 .f32 :=
  View.canon [⟨r3_5, k3_pay1 (View.ld x0 r3_0) (View.ld x1 r3_1) (View.ld x2 r3_2) (View.ld x3 r3_3) (View.ld x4 r3_4)⟩]

/-- The one store covers the block. -/
theorem cover3_5 (p0 : Vec F S5000x64 .f32) (y : S5000x64.Idx) :
    ∃ pc ∈ ([⟨r3_5, p0⟩] : List (View.Piece (Elt F) S5000x64 .f32)), y ∈ pc.1.set :=
  View.cover_of_tiled [⟨r3_5, p0⟩] S5000x64.size (by rfl) y

set_option maxHeartbeats 1000000 in
/-- The body's triple: on whole buffers, the inputs' holding `x0 …` and the output's holding anything, it ends with
    the inputs' as they were and the output's at `out3_5` of them. -/
theorem sound_kernel3 (c : Dev nD) (E : Set ℕ) (i : grid3.Coords) (arg0 : Memref sig .tc .vmem S5000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__mlp_kernel i arg0 harg0 arg1 harg1 arg2 harg2 arg3 harg3 arg4 harg4 arg5 harg5) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The pipeline's data on core `c`: the arrays as the region finds them; after the body at point `t` every input's buffer
    at its block and the output's at `out3_5` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline asks of the body, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.Region4.lean ====
/-
  Region 4 of the program's five kernel regions, at any float instance and at any contents `V` of the buffers when
  the region is entered. The body reads each input window's block whole and writes its output block whole with ONE
  pure value of those blocks (the classifier head: the pooled sums times the reciprocal counts, times the classifier matrix, plus its bias, then each row minus its maximum minus the logarithm of the sum of the exponentials of that difference). Stated here: what a window's block at a grid point is (`iblk4`), what the
  body leaves in the output's block (`out4_4`), the body's triple, and the pipeline's data — every input block
  left as found, the output block at `out4_4` of the input blocks — with its obligation at every grid point.
-/
import proofs.«135148_j25074019074551_1_alg».proof.Proof.Gen.Kernel.Launch
import proofs.«135148_j25074019074551_1_alg».proof.Proof.Gen.Kernel.Skeleton
import proofs.«135148_j25074019074551_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map
    selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, whether the point fetched it or an earlier one did
    (the block's index has not moved since), for any data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current buffer holds its block at every point, whether the point fetched it or an earlier one did
    (the block's index has not moved since), for any data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current buffer holds its block at every point, whether the point fetched it or an earlier one did
    (the block's index has not moved since), for any data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current buffer holds its block at every point, whether the point fetched it or an earlier one did
    (the block's index has not moved since), for any data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The whole-block rectangles the body reads and writes -/

abbrev r4_0 : Rect S512x256 := Rect.unit (s := S512x256) ![0, 0] S512x256.size inb_S512x256_S512x256_0_0
abbrev r4_1 : Rect S512x1 := Rect.unit (s := S512x1) ![0, 0] S512x1.size inb_S512x1_S512x1_0_0
abbrev r4_2 : Rect S256x10 := Rect.unit (s := S256x10) ![0, 0] S256x10.size inb_S256x10_S256x10_0_0
abbrev r4_3 : Rect S1x10 := Rect.unit (s := S1x10) ![0, 0] S1x10.size inb_S1x10_S1x10_0_0
abbrev r4_4 : Rect S512x10 := Rect.unit (s := S512x10) ![0, 0] S512x10.size inb_S512x10_S512x10_0_0

/-- The output block after the body: the one stored value, a pure function of the input blocks, written over the whole
    block. -/
def out4_4 (x0 : Vec F S512x256 .f32) (x1 : Vec F S512x1 .f32) (x2 : Vec F S256x10 .f32) (x3 : Vec F S1x10 .f32) : Vec F S512x10 .f32 :=
  View.canon [⟨r4_4, k4_pay1 (View.ld x0 r4_0) (View.ld x1 r4_1) (View.ld x2 r4_2) (View.ld x3 r4_3)⟩]

/-- The one store covers the block. -/
theorem cover4_4 (p0 : Vec F S512x10 .f32) (y : S512x10.Idx) :
    ∃ pc ∈ ([⟨r4_4, p0⟩] : List (View.Piece (Elt F) S512x10 .f32)), y ∈ pc.1.set :=
  View.cover_of_tiled [⟨r4_4, p0⟩] S512x10.size (by rfl) y

set_option maxHeartbeats 1000000 in
/-- The body's triple: on whole buffers, the inputs' holding `x0 …` and the output's holding anything, it ends with
    the inputs' as they were and the output's at `out4_4` of them. -/
theorem sound_kernel4 (c : Dev nD) (E : Set ℕ) (i : grid4.Coords) (arg0 : Memref sig .tc .vmem S512x256 .f32) (harg0 : arg0.IsWhole) (arg1 : Memref sig .tc .vmem S512x1 .f32) (harg1 : arg1.IsWhole) (arg2 : Memref sig .tc .vmem S256x10 .f32) (harg2 : arg2.IsWhole) (arg3 : Memref sig .tc .vmem S1x10 .f32) (harg3 : arg3.IsWhole) (arg4 : Memref sig .tc .vmem S512x10 .f32) (harg4 : arg4.IsWhole)
    (x0 : Vec F S512x256 .f32) (x1 : Vec F S512x1 .f32) (x2 : Vec F S256x10 .f32) (x3 : Vec F S1x10 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4__pool_kernel i arg0 harg0 arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The pipeline's data on core `c`: the arrays as the region finds them; after the body at point `t` every input's buffer
    at its block and the output's at `out4_4` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so the triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline asks of the body, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Run.lean ====
/-
  The whole run of the program, at any float instance: @main is twelve items in a row — a stretch of host operations,
  then a kernel region, four times over, then three more host stretches and the last region. The contents of the
  unscoped buffers at each boundary are a fold from the launch memory: a host stretch leaves what its operations
  compute; a region leaves each of its windows' arrays at what its write-backs leave (an input's array as found, the
  output's array at the blocks the grid points wrote) and every other buffer as found. Every weakly fair execution
  terminates, nothing faulting, and the final memory holds every unscoped buffer at the last of these contents
  (`run_main`); the argument arrays are among the buffers nothing writes (`W12_main_arg…`).
-/
import proofs.«135148_j25074019074551_1_alg».proof.Proof.K.Region0
import proofs.«135148_j25074019074551_1_alg».proof.Proof.K.Region1
import proofs.«135148_j25074019074551_1_alg».proof.Proof.K.Region2
import proofs.«135148_j25074019074551_1_alg».proof.Proof.K.Region3
import proofs.«135148_j25074019074551_1_alg».proof.Proof.K.Region4

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- The same contents read at the TensorCore's references: what region 0 is entered at. -/
abbrev V1 : (c : Dev nD) → (b : Ref sig .tc) → Buf (Elt F) ((c : Thread nD τ).loc b) := fun c b => W1 m c b
/-- At region 0's exit: its windows' arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- The same contents read at the TensorCore's references: what region 1 is entered at. -/
abbrev V3 : (c : Dev nD) → (b : Ref sig .tc) → Buf (Elt F) ((c : Thread nD τ).loc b) := fun c b => W3 m c b
/-- At region 1's exit: its windows' arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
/-- The same contents read at the TensorCore's references: what region 2 is entered at. -/
abbrev V5 : (c : Dev nD) → (b : Ref sig .tc) → Buf (Elt F) ((c : Thread nD τ).loc b) := fun c b => W5 m c b
/-- At region 2's exit: its windows' arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the host stretch `hostOps3`. -/
abbrev W7 : Dev nD → Valuation τ sig (Elt F) := fun c => StableHlo.after hostOps3 (W6 m c)
/-- The same contents read at the TensorCore's references: what region 3 is entered at. -/
abbrev V7 : (c : Dev nD) → (b : Ref sig .tc) → Buf (Elt F) ((c : Thread nD τ).loc b) := fun c b => W7 m c b
/-- At region 3's exit: its windows' arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After the host stretch `hostOps4`. -/
abbrev W9 : Dev nD → Valuation τ sig (Elt F) := fun c => StableHlo.after hostOps4 (W8 m c)
/-- After the host stretch `hostOps4_1`. -/
abbrev W10 : Dev nD → Valuation τ sig (Elt F) := fun c => StableHlo.after hostOps4_1 (W9 m c)
/-- After the host stretch `hostOps4_2`. -/
abbrev W11 : Dev nD → Valuation τ sig (Elt F) := fun c => StableHlo.after hostOps4_2 (W10 m c)
/-- The same contents read at the TensorCore's references: what region 4 is entered at. -/
abbrev V11 : (c : Dev nD) → (b : Ref sig .tc) → Buf (Elt F) ((c : Thread nD τ).loc b) := fun c b => W11 m c b
/-- At region 4's exit: its windows' arrays at what the pipeline leaves, every other buffer as entered. -/
def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev V12 : (c : Dev nD) → (b : Ref sig .tc) → Buf (Elt F) ((c : Thread nD τ).loc b) := fun c b => W12 m c b
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)

/-! ## No host operation allocates a buffer -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps4_1_fresh : (hostOps4_1 : List (HloOp τ sig (Elt F))).Forall fun op => op.fresh = ∅ := by
  simp only [List.Forall]; repeat' constructor
theorem hostOps4_2_fresh : (hostOps4_2 : List (HloOp τ sig (Elt F))).Forall fun op => op.fresh = ∅ := by
  simp only [List.Forall]; repeat' constructor

/-! ## The proof data of every pipeline, and what rides beside the buffers -/

abbrev adm : (p : Fin 5) → (pcfgs (F := F) p).Adm := fun p => (cfgs p).toPCfg_adm
/-- Every pipeline's data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V11 m) c
abbrev 𝒱₀ : Variants := Variants.none
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the register at some state. -/
abbrev Tₙ (c : Dev nD) : sProp 𝕄 := iprop(StableHlo.held (c : Thread nD τ) (Pipeline.ucRefs τ sig) (W12 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the register goes into the pipeline's invariant and
    comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the register goes into the pipeline's invariant and
    comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the register goes into the pipeline's invariant and
    comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the register goes into the pipeline's invariant and
    comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W11`, left at `W12`. Its arrays are split
    out of the unscoped buffers and put back at the exit contents; the register goes into the pipeline's invariant and
    comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its twelve items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .host (hseg hostOps4_1 hostOps4_1_sub hostOps4_1_fresh (W9 m)),
    .host (hseg hostOps4_2 hostOps4_2_sub hostOps4_2_fresh (W10 m)),
    .region (reg4 m) ]

/-- @main is the run of its items. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and the final memory holds every unscoped buffer at the last boundary's contents `W12`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.Kernel.Fr

end
-- ==== Proof.K.Args.lean ====
/-
  The argument arrays end as launched. No host operation writes an argument, and a region leaves every buffer that is
  not one of its windows' arrays as found and an INPUT window's array as found too (three arguments are input windows:
  the first layer's two weight matrices and the classifier matrix). So the last boundary's contents at an argument's
  buffer walk back, boundary by boundary, to the launch memory; with the run this is the frame claim, at any float
  instance, and beside it the run's reading of the result buffer.
-/
import proofs.«135148_j25074019074551_1_alg».proof.Proof.K.Run
import proofs.«135148_j25074019074551_1_alg».proof.Proof.Gen.Kernel.Regions

set_option maxRecDepth 16384

noncomputable section

namespace Cert.Kernel.Fr

open Cert.Kernel
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem W12_main_arg0 (c : Dev nD) : W12 m c (Proc.devRef .tc main_arg0) = m ((c : Thread nD τ).loc main_arg0) :=
  (W12_of_ne m c main_arg0 (by decide)).trans <|
  (StableHlo.after_of_writes_sub (r := main_arg0) Gen.hostOps4_2 (W10 m c) Gen.hostOps4_2_writes (by decide)).trans <|
  (StableHlo.after_of_writes_sub (r := main_arg0) Gen.hostOps4_1 (W9 m c) Gen.hostOps4_1_writes (by decide)).trans <|
  (StableHlo.after_of_writes_sub (r := main_arg0) Gen.hostOps4 (W8 m c) Gen.hostOps4_writes (by decide)).trans <|
  (W8_of_ne m c main_arg0 (by decide)).trans <|
  (StableHlo.after_of_writes_sub (r := main_arg0) Gen.hostOps3 (W6 m c) Gen.hostOps3_writes (by decide)).trans <|
  (W6_of_ne m c main_arg0 (by decide)).trans <|
  (StableHlo.after_of_writes_sub (r := main_arg0) Gen.hostOps2 (W4 m c) Gen.hostOps2_writes (by decide)).trans <|
  (W4_of_ne m c main_arg0 (by decide)).trans <|
  (StableHlo.after_of_writes_sub (r := main_arg0) Gen.hostOps1 (W2 m c) Gen.hostOps1_writes (by decide)).trans <|
  (W2_of_ne m c main_arg0 (by decide)).trans <|
  (StableHlo.after_of_writes_sub (r := main_arg0) Gen.hostOps0 (W0 m c) Gen.hostOps0_writes (by decide)).trans <|
  rfl

theorem W12_main_arg1 (c : Dev nD) : W12 m c (Proc.devRef .tc main_arg1) = m ((c : Thread nD τ).loc main_arg1) :=
  (W12_of_ne m c main_arg1 (by decide)).trans <|
  (StableHlo.after_of_writes_sub (r := main_arg1) Gen.hostOps4_2 (W10 m c) Gen.hostOps4_2_writes (by decide)).trans <|
  (StableHlo.after_of_writes_sub (r := main_arg1) Gen.hostOps4_1 (W9 m c) Gen.hostOps4_1_writes (by decide)).trans <|
  (StableHlo.after_of_writes_sub (r := main_arg1) Gen.hostOps4 (W8 m c) Gen.hostOps4_writes (by decide)).trans <|
  (W8_of_ne m c main_arg1 (by decide)).trans <|
  (StableHlo.after_of_writes_sub (r := main_arg1) Gen.hostOps3 (W6 m c) Gen.hostOps3_writes (by decide)).trans <|
  (W6_of_ne m c main_arg1 (by decide)).trans <|
  (StableHlo.after_of_writes_sub (r := main_arg1) Gen.hostOps2 (W4 m c) Gen.hostOps2_writes (by decide)).trans <|
  (W4_of_ne m c main_arg1 (by decide)).trans <|
  (StableHlo.after_of_writes_sub (r := main_arg1) Gen.hostOps1 (W2 m c) Gen.hostOps1_writes (by decide)).trans <|
  (W2_of_ne m c main_arg1 (by decide)).trans <|
  (StableHlo.after_of_writes_sub (r := main_arg1) Gen.hostOps0 (W0 m c) Gen.hostOps0_writes (by decide)).trans <|
  rfl

theorem W12_main_arg2 (c : Dev nD) : W12 m c (Proc.devRef .tc main_arg2) = m ((c : Thread nD τ).loc main_arg2) :=
  (W12_of_ne m c main_arg2 (by decide)).trans <|
  (StableHlo.after_of_writes_sub (r := main_arg2) Gen.hostOps4_2 (W10 m c) Gen.hostOps4_2_writes (by decide)).trans <|
  (StableHlo.after_of_writes_sub (r := main_arg2) Gen.hostOps4_1 (W9 m c) Gen.hostOps4_1_writes (by decide)).trans <|
  (StableHlo.after_of_writes_sub (r := main_arg2) Gen.hostOps4 (W8 m c) Gen.hostOps4_writes (by decide)).trans <|
  (W8_of_ne m c main_arg2 (by decide)).trans <|
  (StableHlo.after_of_writes_sub (r := main_arg2) Gen.hostOps3 (W6 m c) Gen.hostOps3_writes (by decide)).trans <|
  (W6_of_ne m c main_arg2 (by decide)).trans <|
  (StableHlo.after_of_writes_sub (r := main_arg2) Gen.hostOps2 (W4 m c) Gen.hostOps2_writes (by decide)).trans <|
  (W4_of_ne m c main_arg2 (by decide)).trans <|
  (StableHlo.after_of_writes_sub (r := main_arg2) Gen.hostOps1 (W2 m c) Gen.hostOps1_writes (by decide)).trans <|
  (W2_of_ne m c main_arg2 (by decide)).trans <|
  (StableHlo.after_of_writes_sub (r := main_arg2) Gen.hostOps0 (W0 m c) Gen.hostOps0_writes (by decide)).trans <|
  rfl

theorem W12_main_arg3 (c : Dev nD) : W12 m c (Proc.devRef .tc main_arg3) = m ((c : Thread nD τ).loc main_arg3) :=
  (W12_of_ne m c main_arg3 (by decide)).trans <|
  (StableHlo.after_of_writes_sub (r := main_arg3) Gen.hostOps4_2 (W10 m c) Gen.hostOps4_2_writes (by decide)).trans <|
  (StableHlo.after_of_writes_sub (r := main_arg3) Gen.hostOps4_1 (W9 m c) Gen.hostOps4_1_writes (by decide)).trans <|
  (StableHlo.after_of_writes_sub (r := main_arg3) Gen.hostOps4 (W8 m c) Gen.hostOps4_writes (by decide)).trans <|
  (W8_of_ne m c main_arg3 (by decide)).trans <|
  (StableHlo.after_of_writes_sub (r := main_arg3) Gen.hostOps3 (W6 m c) Gen.hostOps3_writes (by decide)).trans <|
  (W6_of_ne m c main_arg3 (by decide)).trans <|
  (StableHlo.after_of_writes_sub (r := main_arg3) Gen.hostOps2 (W4 m c) Gen.hostOps2_writes (by decide)).trans <|
  (W4_of_ne m c main_arg3 (by decide)).trans <|
  (StableHlo.after_of_writes_sub (r := main_arg3) Gen.hostOps1 (W2 m c) Gen.hostOps1_writes (by decide)).trans <|
  ((W2_arr m c 1).trans (((dat0 (V1 m) c).arrAt_in 1 rfl _).trans (A_eq0 (V1 m) c 1))).trans <|
  (StableHlo.after_of_writes_sub (r := main_arg3) Gen.hostOps0 (W0 m c) Gen.hostOps0_writes (by decide)).trans <|
  rfl

theorem W12_main_arg4 (c : Dev nD) : W12 m c (Proc.devRef .tc main_arg4) = m ((c : Thread nD τ).loc main_arg4) :=
  (W12_of_ne m c main_arg4 (by decide)).trans <|
  (StableHlo.after_of_writes_sub (r := main_arg4) Gen.hostOps4_2 (W10 m c) Gen.hostOps4_2_writes (by decide)).trans <|
  (StableHlo.after_of_writes_sub (r := main_arg4) Gen.hostOps4_1 (W9 m c) Gen.hostOps4_1_writes (by decide)).trans <|
  (StableHlo.after_of_writes_sub (r := main_arg4) Gen.hostOps4 (W8 m c) Gen.hostOps4_writes (by decide)).trans <|
  (W8_of_ne m c main_arg4 (by decide)).trans <|
  (StableHlo.after_of_writes_sub (r := main_arg4) Gen.hostOps3 (W6 m c) Gen.hostOps3_writes (by decide)).trans <|
  (W6_of_ne m c main_arg4 (by decide)).trans <|
  (StableHlo.after_of_writes_sub (r := main_arg4) Gen.hostOps2 (W4 m c) Gen.hostOps2_writes (by decide)).trans <|
  (W4_of_ne m c main_arg4 (by decide)).trans <|
  (StableHlo.after_of_writes_sub (r := main_arg4) Gen.hostOps1 (W2 m c) Gen.hostOps1_writes (by decide)).trans <|
  (W2_of_ne m c main_arg4 (by decide)).trans <|
  (StableHlo.after_of_writes_sub (r := main_arg4) Gen.hostOps0 (W0 m c) Gen.hostOps0_writes (by decide)).trans <|
  rfl

theorem W12_main_arg5 (c : Dev nD) : W12 m c (Proc.devRef .tc main_arg5) = m ((c : Thread nD τ).loc main_arg5) :=
  (W12_of_ne m c main_arg5 (by decide)).trans <|
  (StableHlo.after_of_writes_sub (r := main_arg5) Gen.hostOps4_2 (W10 m c) Gen.hostOps4_2_writes (by decide)).trans <|
  (StableHlo.after_of_writes_sub (r := main_arg5) Gen.hostOps4_1 (W9 m c) Gen.hostOps4_1_writes (by decide)).trans <|
  (StableHlo.after_of_writes_sub (r := main_arg5) Gen.hostOps4 (W8 m c) Gen.hostOps4_writes (by decide)).trans <|
  (W8_of_ne m c main_arg5 (by decide)).trans <|
  (StableHlo.after_of_writes_sub (r := main_arg5) Gen.hostOps3 (W6 m c) Gen.hostOps3_writes (by decide)).trans <|
  (W6_of_ne m c main_arg5 (by decide)).trans <|
  (StableHlo.after_of_writes_sub (r := main_arg5) Gen.hostOps2 (W4 m c) Gen.hostOps2_writes (by decide)).trans <|
  (W4_of_ne m c main_arg5 (by decide)).trans <|
  (StableHlo.after_of_writes_sub (r := main_arg5) Gen.hostOps1 (W2 m c) Gen.hostOps1_writes (by decide)).trans <|
  ((W2_arr m c 3).trans (((dat0 (V1 m) c).arrAt_in 3 rfl _).trans (A_eq0 (V1 m) c 3))).trans <|
  (StableHlo.after_of_writes_sub (r := main_arg5) Gen.hostOps0 (W0 m c) Gen.hostOps0_writes (by decide)).trans <|
  rfl

theorem W12_main_arg6 (c : Dev nD) : W12 m c (Proc.devRef .tc main_arg6) = m ((c : Thread nD τ).loc main_arg6) :=
  (W12_of_ne m c main_arg6 (by decide)).trans <|
  (StableHlo.after_of_writes_sub (r := main_arg6) Gen.hostOps4_2 (W10 m c) Gen.hostOps4_2_writes (by decide)).trans <|
  (StableHlo.after_of_writes_sub (r := main_arg6) Gen.hostOps4_1 (W9 m c) Gen.hostOps4_1_writes (by decide)).trans <|
  (StableHlo.after_of_writes_sub (r := main_arg6) Gen.hostOps4 (W8 m c) Gen.hostOps4_writes (by decide)).trans <|
  (W8_of_ne m c main_arg6 (by decide)).trans <|
  (StableHlo.after_of_writes_sub (r := main_arg6) Gen.hostOps3 (W6 m c) Gen.hostOps3_writes (by decide)).trans <|
  (W6_of_ne m c main_arg6 (by decide)).trans <|
  (StableHlo.after_of_writes_sub (r := main_arg6) Gen.hostOps2 (W4 m c) Gen.hostOps2_writes (by decide)).trans <|
  (W4_of_ne m c main_arg6 (by decide)).trans <|
  (StableHlo.after_of_writes_sub (r := main_arg6) Gen.hostOps1 (W2 m c) Gen.hostOps1_writes (by decide)).trans <|
  (W2_of_ne m c main_arg6 (by decide)).trans <|
  (StableHlo.after_of_writes_sub (r := main_arg6) Gen.hostOps0 (W0 m c) Gen.hostOps0_writes (by decide)).trans <|
  rfl

theorem W12_main_arg7 (c : Dev nD) : W12 m c (Proc.devRef .tc main_arg7) = m ((c : Thread nD τ).loc main_arg7) :=
  (W12_of_ne m c main_arg7 (by decide)).trans <|
  (StableHlo.after_of_writes_sub (r := main_arg7) Gen.hostOps4_2 (W10 m c) Gen.hostOps4_2_writes (by decide)).trans <|
  (StableHlo.after_of_writes_sub (r := main_arg7) Gen.hostOps4_1 (W9 m c) Gen.hostOps4_1_writes (by decide)).trans <|
  (StableHlo.after_of_writes_sub (r := main_arg7) Gen.hostOps4 (W8 m c) Gen.hostOps4_writes (by decide)).trans <|
  (W8_of_ne m c main_arg7 (by decide)).trans <|
  (StableHlo.after_of_writes_sub (r := main_arg7) Gen.hostOps3 (W6 m c) Gen.hostOps3_writes (by decide)).trans <|
  (W6_of_ne m c main_arg7 (by decide)).trans <|
  (StableHlo.after_of_writes_sub (r := main_arg7) Gen.hostOps2 (W4 m c) Gen.hostOps2_writes (by decide)).trans <|
  (W4_of_ne m c main_arg7 (by decide)).trans <|
  (StableHlo.after_of_writes_sub (r := main_arg7) Gen.hostOps1 (W2 m c) Gen.hostOps1_writes (by decide)).trans <|
  (W2_of_ne m c main_arg7 (by decide)).trans <|
  (StableHlo.after_of_writes_sub (r := main_arg7) Gen.hostOps0 (W0 m c) Gen.hostOps0_writes (by decide)).trans <|
  rfl

theorem W12_main_arg8 (c : Dev nD) : W12 m c (Proc.devRef .tc main_arg8) = m ((c : Thread nD τ).loc main_arg8) :=
  (W12_of_ne m c main_arg8 (by decide)).trans <|
  (StableHlo.after_of_writes_sub (r := main_arg8) Gen.hostOps4_2 (W10 m c) Gen.hostOps4_2_writes (by decide)).trans <|
  (StableHlo.after_of_writes_sub (r := main_arg8) Gen.hostOps4_1 (W9 m c) Gen.hostOps4_1_writes (by decide)).trans <|
  (StableHlo.after_of_writes_sub (r := main_arg8) Gen.hostOps4 (W8 m c) Gen.hostOps4_writes (by decide)).trans <|
  (W8_of_ne m c main_arg8 (by decide)).trans <|
  (StableHlo.after_of_writes_sub (r := main_arg8) Gen.hostOps3 (W6 m c) Gen.hostOps3_writes (by decide)).trans <|
  (W6_of_ne m c main_arg8 (by decide)).trans <|
  (StableHlo.after_of_writes_sub (r := main_arg8) Gen.hostOps2 (W4 m c) Gen.hostOps2_writes (by decide)).trans <|
  (W4_of_ne m c main_arg8 (by decide)).trans <|
  (StableHlo.after_of_writes_sub (r := main_arg8) Gen.hostOps1 (W2 m c) Gen.hostOps1_writes (by decide)).trans <|
  (W2_of_ne m c main_arg8 (by decide)).trans <|
  (StableHlo.after_of_writes_sub (r := main_arg8) Gen.hostOps0 (W0 m c) Gen.hostOps0_writes (by decide)).trans <|
  rfl

theorem W12_main_arg9 (c : Dev nD) : W12 m c (Proc.devRef .tc main_arg9) = m ((c : Thread nD τ).loc main_arg9) :=
  (W12_of_ne m c main_arg9 (by decide)).trans <|
  (StableHlo.after_of_writes_sub (r := main_arg9) Gen.hostOps4_2 (W10 m c) Gen.hostOps4_2_writes (by decide)).trans <|
  (StableHlo.after_of_writes_sub (r := main_arg9) Gen.hostOps4_1 (W9 m c) Gen.hostOps4_1_writes (by decide)).trans <|
  (StableHlo.after_of_writes_sub (r := main_arg9) Gen.hostOps4 (W8 m c) Gen.hostOps4_writes (by decide)).trans <|
  (W8_of_ne m c main_arg9 (by decide)).trans <|
  (StableHlo.after_of_writes_sub (r := main_arg9) Gen.hostOps3 (W6 m c) Gen.hostOps3_writes (by decide)).trans <|
  (W6_of_ne m c main_arg9 (by decide)).trans <|
  (StableHlo.after_of_writes_sub (r := main_arg9) Gen.hostOps2 (W4 m c) Gen.hostOps2_writes (by decide)).trans <|
  (W4_of_ne m c main_arg9 (by decide)).trans <|
  (StableHlo.after_of_writes_sub (r := main_arg9) Gen.hostOps1 (W2 m c) Gen.hostOps1_writes (by decide)).trans <|
  (W2_of_ne m c main_arg9 (by decide)).trans <|
  (StableHlo.after_of_writes_sub (r := main_arg9) Gen.hostOps0 (W0 m c) Gen.hostOps0_writes (by decide)).trans <|
  rfl

theorem W12_main_arg10 (c : Dev nD) : W12 m c (Proc.devRef .tc main_arg10) = m ((c : Thread nD τ).loc main_arg10) :=
  (W12_of_ne m c main_arg10 (by decide)).trans <|
  (StableHlo.after_of_writes_sub (r := main_arg10) Gen.hostOps4_2 (W10 m c) Gen.hostOps4_2_writes (by decide)).trans <|
  (StableHlo.after_of_writes_sub (r := main_arg10) Gen.hostOps4_1 (W9 m c) Gen.hostOps4_1_writes (by decide)).trans <|
  (StableHlo.after_of_writes_sub (r := main_arg10) Gen.hostOps4 (W8 m c) Gen.hostOps4_writes (by decide)).trans <|
  (W8_of_ne m c main_arg10 (by decide)).trans <|
  (StableHlo.after_of_writes_sub (r := main_arg10) Gen.hostOps3 (W6 m c) Gen.hostOps3_writes (by decide)).trans <|
  (W6_of_ne m c main_arg10 (by decide)).trans <|
  (StableHlo.after_of_writes_sub (r := main_arg10) Gen.hostOps2 (W4 m c) Gen.hostOps2_writes (by decide)).trans <|
  (W4_of_ne m c main_arg10 (by decide)).trans <|
  (StableHlo.after_of_writes_sub (r := main_arg10) Gen.hostOps1 (W2 m c) Gen.hostOps1_writes (by decide)).trans <|
  (W2_of_ne m c main_arg10 (by decide)).trans <|
  (StableHlo.after_of_writes_sub (r := main_arg10) Gen.hostOps0 (W0 m c) Gen.hostOps0_writes (by decide)).trans <|
  rfl

theorem W12_main_arg11 (c : Dev nD) : W12 m c (Proc.devRef .tc main_arg11) = m ((c : Thread nD τ).loc main_arg11) :=
  ((W12_arr m c 2).trans (((dat4 (V11 m) c).arrAt_in 2 rfl _).trans (A_eq4 (V11 m) c 2))).trans <|
  (StableHlo.after_of_writes_sub (r := main_arg11) Gen.hostOps4_2 (W10 m c) Gen.hostOps4_2_writes (by decide)).trans <|
  (StableHlo.after_of_writes_sub (r := main_arg11) Gen.hostOps4_1 (W9 m c) Gen.hostOps4_1_writes (by decide)).trans <|
  (StableHlo.after_of_writes_sub (r := main_arg11) Gen.hostOps4 (W8 m c) Gen.hostOps4_writes (by decide)).trans <|
  (W8_of_ne m c main_arg11 (by decide)).trans <|
  (StableHlo.after_of_writes_sub (r := main_arg11) Gen.hostOps3 (W6 m c) Gen.hostOps3_writes (by decide)).trans <|
  (W6_of_ne m c main_arg11 (by decide)).trans <|
  (StableHlo.after_of_writes_sub (r := main_arg11) Gen.hostOps2 (W4 m c) Gen.hostOps2_writes (by decide)).trans <|
  (W4_of_ne m c main_arg11 (by decide)).trans <|
  (StableHlo.after_of_writes_sub (r := main_arg11) Gen.hostOps1 (W2 m c) Gen.hostOps1_writes (by decide)).trans <|
  (W2_of_ne m c main_arg11 (by decide)).trans <|
  (StableHlo.after_of_writes_sub (r := main_arg11) Gen.hostOps0 (W0 m c) Gen.hostOps0_writes (by decide)).trans <|
  rfl

theorem W12_main_arg12 (c : Dev nD) : W12 m c (Proc.devRef .tc main_arg12) = m ((c : Thread nD τ).loc main_arg12) :=
  (W12_of_ne m c main_arg12 (by decide)).trans <|
  (StableHlo.after_of_writes_sub (r := main_arg12) Gen.hostOps4_2 (W10 m c) Gen.hostOps4_2_writes (by decide)).trans <|
  (StableHlo.after_of_writes_sub (r := main_arg12) Gen.hostOps4_1 (W9 m c) Gen.hostOps4_1_writes (by decide)).trans <|
  (StableHlo.after_of_writes_sub (r := main_arg12) Gen.hostOps4 (W8 m c) Gen.hostOps4_writes (by decide)).trans <|
  (W8_of_ne m c main_arg12 (by decide)).trans <|
  (StableHlo.after_of_writes_sub (r := main_arg12) Gen.hostOps3 (W6 m c) Gen.hostOps3_writes (by decide)).trans <|
  (W6_of_ne m c main_arg12 (by decide)).trans <|
  (StableHlo.after_of_writes_sub (r := main_arg12) Gen.hostOps2 (W4 m c) Gen.hostOps2_writes (by decide)).trans <|
  (W4_of_ne m c main_arg12 (by decide)).trans <|
  (StableHlo.after_of_writes_sub (r := main_arg12) Gen.hostOps1 (W2 m c) Gen.hostOps1_writes (by decide)).trans <|
  (W2_of_ne m c main_arg12 (by decide)).trans <|
  (StableHlo.after_of_writes_sub (r := main_arg12) Gen.hostOps0 (W0 m c) Gen.hostOps0_writes (by decide)).trans <|
  rfl

/-- THE FRAME, at any float instance: every weakly fair execution of @main terminates, nothing faulting, and the final
    memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W12_main_arg0 m c),
      (h c _ (mem_uc main_arg1 (by decide))).trans (W12_main_arg1 m c),
      (h c _ (mem_uc main_arg2 (by decide))).trans (W12_main_arg2 m c),
      (h c _ (mem_uc main_arg3 (by decide))).trans (W12_main_arg3 m c),
      (h c _ (mem_uc main_arg4 (by decide))).trans (W12_main_arg4 m c),
      (h c _ (mem_uc main_arg5 (by decide))).trans (W12_main_arg5 m c),
      (h c _ (mem_uc main_arg6 (by decide))).trans (W12_main_arg6 m c),
      (h c _ (mem_uc main_arg7 (by decide))).trans (W12_main_arg7 m c),
      (h c _ (mem_uc main_arg8 (by decide))).trans (W12_main_arg8 m c),
      (h c _ (mem_uc main_arg9 (by decide))).trans (W12_main_arg9 m c),
      (h c _ (mem_uc main_arg10 (by decide))).trans (W12_main_arg10 m c),
      (h c _ (mem_uc main_arg11 (by decide))).trans (W12_main_arg11 m c),
      (h c _ (mem_uc main_arg12 (by decide))).trans (W12_main_arg12 m c)⟩)
    (run_main m ρ)

/-- The same run, with the result buffer read too: it ends at the last boundary's contents, which are what the last
    region's pipeline leaves in its output window's array. -/
theorem run_result : θ_run defs (onTc (τ := τ) (main (F := F))) ⟨m, fun _ => 0, ρ⟩ (fun r => ∀ c : Dev nD,
      r.2.mem ((c.tc : Thread nD τ).loc main_v97) = (dat4 (V11 m) c).arrAt 4 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v97 (by decide))).trans (W12_arr m c 4),
      (h c _ (mem_uc main_arg0 (by decide))).trans (W12_main_arg0 m c),
      (h c _ (mem_uc main_arg1 (by decide))).trans (W12_main_arg1 m c),
      (h c _ (mem_uc main_arg2 (by decide))).trans (W12_main_arg2 m c),
      (h c _ (mem_uc main_arg3 (by decide))).trans (W12_main_arg3 m c),
      (h c _ (mem_uc main_arg4 (by decide))).trans (W12_main_arg4 m c),
      (h c _ (mem_uc main_arg5 (by decide))).trans (W12_main_arg5 m c),
      (h c _ (mem_uc main_arg6 (by decide))).trans (W12_main_arg6 m c),
      (h c _ (mem_uc main_arg7 (by decide))).trans (W12_main_arg7 m c),
      (h c _ (mem_uc main_arg8 (by decide))).trans (W12_main_arg8 m c),
      (h c _ (mem_uc main_arg9 (by decide))).trans (W12_main_arg9 m c),
      (h c _ (mem_uc main_arg10 (by decide))).trans (W12_main_arg10 m c),
      (h c _ (mem_uc main_arg11 (by decide))).trans (W12_main_arg11 m c),
      (h c _ (mem_uc main_arg12 (by decide))).trans (W12_main_arg12 m c)⟩)
    (run_main m ρ)

end Cert.Kernel.Fr

end
-- ==== Proof.KI.Region0.lean ====
/-
  Region 0 of the program's five kernel regions, at any float instance and at any contents `V` of the buffers when
  the region is entered. The body reads each input window's block whole and writes its output block whole with ONE
  pure value of those blocks (one layer's node network: a block of 5000 rows of the aggregated features, times the first weight matrix, plus the first bias, clamped below at zero, times the second weight matrix, plus the second bias, clamped below at zero). Stated here: what a window's block at a grid point is (`iblk0`), what the
  body leaves in the output's block (`out0_5`), the body's triple, and the pipeline's data — every input block
  left as found, the output block at `out0_5` of the input blocks — with its obligation at every grid point.
-/
import proofs.«135148_j25074019074551_1_alg».proof.Proof.Gen.KernelIdeal.Launch
import proofs.«135148_j25074019074551_1_alg».proof.Proof.Gen.KernelIdeal.Skeleton
import proofs.«135148_j25074019074551_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map
    selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether the point fetched it or an earlier one did
    (the block's index has not moved since), for any data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether the point fetched it or an earlier one did
    (the block's index has not moved since), for any data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether the point fetched it or an earlier one did
    (the block's index has not moved since), for any data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, whether the point fetched it or an earlier one did
    (the block's index has not moved since), for any data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, whether the point fetched it or an earlier one did
    (the block's index has not moved since), for any data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The whole-block rectangles the body reads and writes -/

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S1x64 := Rect.unit (s := S1x64) ![0, 0] S1x64.size inb_S1x64_S1x64_0_0
abbrev r0_5 : Rect S5000x64 := Rect.unit (s := S5000x64) ![0, 0] S5000x64.size inb_S5000x64_S5000x64_0_0

/-- The output block after the body: the one stored value, a pure function of the input blocks, written over the whole
    block. -/
def out0_5 (x0 : Vec F S5000x128 .f32) (x1 : Vec F S128x64 .f32) (x2 : Vec F S1x64 .f32) (x3 : Vec F S64x64 .f32) (x4 : Vec F S1x64 .f32) : Vec F S5000x64 .f32 :=
  View.canon [⟨r0_5, k0_pay1 (View.ld x0 r0_0) (View.ld x1 r0_1) (View.ld x2 r0_2) (View.ld x3 r0_3) (View.ld x4 r0_4)⟩]

/-- The one store covers the block. -/
theorem cover0_5 (p0 : Vec F S5000x64 .f32) (y : S5000x64.Idx) :
    ∃ pc ∈ ([⟨r0_5, p0⟩] : List (View.Piece (Elt F) S5000x64 .f32)), y ∈ pc.1.set :=
  View.cover_of_tiled [⟨r0_5, p0⟩] S5000x64.size (by rfl) y

set_option maxHeartbeats 1000000 in
/-- The body's triple: on whole buffers, the inputs' holding `x0 …` and the output's holding anything, it ends with
    the inputs' as they were and the output's at `out0_5` of them. -/
theorem sound_kernel0 (c : Dev nD) (E : Set ℕ) (i : grid0.Coords) (arg0 : Memref sig .tc .vmem S5000x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x128 .f32) (x1 : Vec F S128x64 .f32) (x2 : Vec F S1x64 .f32) (x3 : Vec F S64x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__mlp_kernel i arg0 harg0 arg1 harg1 arg2 harg2 arg3 harg3 arg4 harg4 arg5 harg5) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The pipeline's data on core `c`: the arrays as the region finds them; after the body at point `t` every input's buffer
    at its block and the output's at `out0_5` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/-
  Region 1 of the program's five kernel regions, at any float instance and at any contents `V` of the buffers when
  the region is entered. The body reads each input window's block whole and writes its output block whole with ONE
  pure value of those blocks (one layer's node network: a block of 5000 rows of the aggregated features, times the first weight matrix, plus the first bias, clamped below at zero, times the second weight matrix, plus the second bias, clamped below at zero). Stated here: what a window's block at a grid point is (`iblk1`), what the
  body leaves in the output's block (`out1_5`), the body's triple, and the pipeline's data — every input block
  left as found, the output block at `out1_5` of the input blocks — with its obligation at every grid point.
-/
import proofs.«135148_j25074019074551_1_alg».proof.Proof.Gen.KernelIdeal.Launch
import proofs.«135148_j25074019074551_1_alg».proof.Proof.Gen.KernelIdeal.Skeleton
import proofs.«135148_j25074019074551_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map
    selects. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether the point fetched it or an earlier one did
    (the block's index has not moved since), for any data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether the point fetched it or an earlier one did
    (the block's index has not moved since), for any data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether the point fetched it or an earlier one did
    (the block's index has not moved since), for any data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether the point fetched it or an earlier one did
    (the block's index has not moved since), for any data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, whether the point fetched it or an earlier one did
    (the block's index has not moved since), for any data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The whole-block rectangles the body reads and writes -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S64x64 := Rect.unit (s := S64x64) ![0, 0] S64x64.size inb_S64x64_S64x64_0_0
abbrev r1_4 : Rect S1x64 := Rect.unit (s := S1x64) ![0, 0] S1x64.size inb_S1x64_S1x64_0_0
abbrev r1_5 : Rect S5000x64 := Rect.unit (s := S5000x64) ![0, 0] S5000x64.size inb_S5000x64_S5000x64_0_0

/-- The output block after the body: the one stored value, a pure function of the input blocks, written over the whole
    block. -/
def out1_5 (x0 : Vec F S5000x64 .f32) (x1 : Vec F S64x64 .f32) (x2 : Vec F S1x64 .f32) (x3 : Vec F S64x64 .f32) (x4 : Vec F S1x64 .f32) : Vec F S5000x64 .f32 :=
  View.canon [⟨r1_5, k1_pay1 (View.ld x0 r1_0) (View.ld x1 r1_1) (View.ld x2 r1_2) (View.ld x3 r1_3) (View.ld x4 r1_4)⟩]

/-- The one store covers the block. -/
theorem cover1_5 (p0 : Vec F S5000x64 .f32) (y : S5000x64.Idx) :
    ∃ pc ∈ ([⟨r1_5, p0⟩] : List (View.Piece (Elt F) S5000x64 .f32)), y ∈ pc.1.set :=
  View.cover_of_tiled [⟨r1_5, p0⟩] S5000x64.size (by rfl) y

set_option maxHeartbeats 1000000 in
/-- The body's triple: on whole buffers, the inputs' holding `x0 …` and the output's holding anything, it ends with
    the inputs' as they were and the output's at `out1_5` of them. -/
theorem sound_kernel1 (c : Dev nD) (E : Set ℕ) (i : grid1.Coords) (arg0 : Memref sig .tc .vmem S5000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__mlp_kernel i arg0 harg0 arg1 harg1 arg2 harg2 arg3 harg3 arg4 harg4 arg5 harg5) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The pipeline's data on core `c`: the arrays as the region finds them; after the body at point `t` every input's buffer
    at its block and the output's at `out1_5` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline asks of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
/-
  Region 2 of the program's five kernel regions, at any float instance and at any contents `V` of the buffers when
  the region is entered. The body reads each input window's block whole and writes its output block whole with ONE
  pure value of those blocks (one layer's node network: a block of 5000 rows of the aggregated features, times the first weight matrix, plus the first bias, clamped below at zero, times the second weight matrix, plus the second bias, clamped below at zero). Stated here: what a window's block at a grid point is (`iblk2`), what the
  body leaves in the output's block (`out2_5`), the body's triple, and the pipeline's data — every input block
  left as found, the output block at `out2_5` of the input blocks — with its obligation at every grid point.
-/
import proofs.«135148_j25074019074551_1_alg».proof.Proof.Gen.KernelIdeal.Launch
import proofs.«135148_j25074019074551_1_alg».proof.Proof.Gen.KernelIdeal.Skeleton
import proofs.«135148_j25074019074551_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map
    selects. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, whether the point fetched it or an earlier one did
    (the block's index has not moved since), for any data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, whether the point fetched it or an earlier one did
    (the block's index has not moved since), for any data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, whether the point fetched it or an earlier one did
    (the block's index has not moved since), for any data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, whether the point fetched it or an earlier one did
    (the block's index has not moved since), for any data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, whether the point fetched it or an earlier one did
    (the block's index has not moved since), for any data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The whole-block rectangles the body reads and writes -/

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0
abbrev r2_4 : Rect S1x64 := Rect.unit (s := S1x64) ![0, 0] S1x64.size inb_S1x64_S1x64_0_0
abbrev r2_5 : Rect S5000x64 := Rect.unit (s := S5000x64) ![0, 0] S5000x64.size inb_S5000x64_S5000x64_0_0

/-- The output block after the body: the one stored value, a pure function of the input blocks, written over the whole
    block. -/
def out2_5 (x0 : Vec F S5000x64 .f32) (x1 : Vec F S64x64 .f32) (x2 : Vec F S1x64 .f32) (x3 : Vec F S64x64 .f32) (x4 : Vec F S1x64 .f32) : Vec F S5000x64 .f32 :=
  View.canon [⟨r2_5, k2_pay1 (View.ld x0 r2_0) (View.ld x1 r2_1) (View.ld x2 r2_2) (View.ld x3 r2_3) (View.ld x4 r2_4)⟩]

/-- The one store covers the block. -/
theorem cover2_5 (p0 : Vec F S5000x64 .f32) (y : S5000x64.Idx) :
    ∃ pc ∈ ([⟨r2_5, p0⟩] : List (View.Piece (Elt F) S5000x64 .f32)), y ∈ pc.1.set :=
  View.cover_of_tiled [⟨r2_5, p0⟩] S5000x64.size (by rfl) y

set_option maxHeartbeats 1000000 in
/-- The body's triple: on whole buffers, the inputs' holding `x0 …` and the output's holding anything, it ends with
    the inputs' as they were and the output's at `out2_5` of them. -/
theorem sound_kernel2 (c : Dev nD) (E : Set ℕ) (i : grid2.Coords) (arg0 : Memref sig .tc .vmem S5000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__mlp_kernel i arg0 harg0 arg1 harg1 arg2 harg2 arg3 harg3 arg4 harg4 arg5 harg5) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The pipeline's data on core `c`: the arrays as the region finds them; after the body at point `t` every input's buffer
    at its block and the output's at `out2_5` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline asks of the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Region3.lean ====
/-
  Region 3 of the program's five kernel regions, at any float instance and at any contents `V` of the buffers when
  the region is entered. The body reads each input window's block whole and writes its output block whole with ONE
  pure value of those blocks (one layer's node network: a block of 5000 rows of the aggregated features, times the first weight matrix, plus the first bias, clamped below at zero, times the second weight matrix, plus the second bias, clamped below at zero). Stated here: what a window's block at a grid point is (`iblk3`), what the
  body leaves in the output's block (`out3_5`), the body's triple, and the pipeline's data — every input block
  left as found, the output block at `out3_5` of the input blocks — with its obligation at every grid point.
-/
import proofs.«135148_j25074019074551_1_alg».proof.Proof.Gen.KernelIdeal.Launch
import proofs.«135148_j25074019074551_1_alg».proof.Proof.Gen.KernelIdeal.Skeleton
import proofs.«135148_j25074019074551_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map
    selects. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, whether the point fetched it or an earlier one did
    (the block's index has not moved since), for any data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, whether the point fetched it or an earlier one did
    (the block's index has not moved since), for any data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, whether the point fetched it or an earlier one did
    (the block's index has not moved since), for any data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current buffer holds its block at every point, whether the point fetched it or an earlier one did
    (the block's index has not moved since), for any data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current buffer holds its block at every point, whether the point fetched it or an earlier one did
    (the block's index has not moved since), for any data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The whole-block rectangles the body reads and writes -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0
abbrev r3_3 : Rect S64x64 := Rect.unit (s := S64x64) ![0, 0] S64x64.size inb_S64x64_S64x64_0_0
abbrev r3_4 : Rect S1x64 := Rect.unit (s := S1x64) ![0, 0] S1x64.size inb_S1x64_S1x64_0_0
abbrev r3_5 : Rect S5000x64 := Rect.unit (s := S5000x64) ![0, 0] S5000x64.size inb_S5000x64_S5000x64_0_0

/-- The output block after the body: the one stored value, a pure function of the input blocks, written over the whole
    block. -/
def out3_5 (x0 : Vec F S5000x64 .f32) (x1 : Vec F S64x64 .f32) (x2 : Vec F S1x64 .f32) (x3 : Vec F S64x64 .f32) (x4 : Vec F S1x64 .f32) : Vec F S5000x64 .f32 :=
  View.canon [⟨r3_5, k3_pay1 (View.ld x0 r3_0) (View.ld x1 r3_1) (View.ld x2 r3_2) (View.ld x3 r3_3) (View.ld x4 r3_4)⟩]

/-- The one store covers the block. -/
theorem cover3_5 (p0 : Vec F S5000x64 .f32) (y : S5000x64.Idx) :
    ∃ pc ∈ ([⟨r3_5, p0⟩] : List (View.Piece (Elt F) S5000x64 .f32)), y ∈ pc.1.set :=
  View.cover_of_tiled [⟨r3_5, p0⟩] S5000x64.size (by rfl) y

set_option maxHeartbeats 1000000 in
/-- The body's triple: on whole buffers, the inputs' holding `x0 …` and the output's holding anything, it ends with
    the inputs' as they were and the output's at `out3_5` of them. -/
theorem sound_kernel3 (c : Dev nD) (E : Set ℕ) (i : grid3.Coords) (arg0 : Memref sig .tc .vmem S5000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S64x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__mlp_kernel i arg0 harg0 arg1 harg1 arg2 harg2 arg3 harg3 arg4 harg4 arg5 harg5) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The pipeline's data on core `c`: the arrays as the region finds them; after the body at point `t` every input's buffer
    at its block and the output's at `out3_5` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline asks of the body, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Region4.lean ====
/-
  Region 4 of the program's five kernel regions, at any float instance and at any contents `V` of the buffers when
  the region is entered. The body reads each input window's block whole and writes its output block whole with ONE
  pure value of those blocks (the classifier head: the pooled sums times the reciprocal counts, times the classifier matrix, plus its bias, then each row minus its maximum minus the logarithm of the sum of the exponentials of that difference). Stated here: what a window's block at a grid point is (`iblk4`), what the
  body leaves in the output's block (`out4_4`), the body's triple, and the pipeline's data — every input block
  left as found, the output block at `out4_4` of the input blocks — with its obligation at every grid point.
-/
import proofs.«135148_j25074019074551_1_alg».proof.Proof.Gen.KernelIdeal.Launch
import proofs.«135148_j25074019074551_1_alg».proof.Proof.Gen.KernelIdeal.Skeleton
import proofs.«135148_j25074019074551_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array, as the region finds it, that the point's index map
    selects. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, whether the point fetched it or an earlier one did
    (the block's index has not moved since), for any data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current buffer holds its block at every point, whether the point fetched it or an earlier one did
    (the block's index has not moved since), for any data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current buffer holds its block at every point, whether the point fetched it or an earlier one did
    (the block's index has not moved since), for any data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current buffer holds its block at every point, whether the point fetched it or an earlier one did
    (the block's index has not moved since), for any data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The whole-block rectangles the body reads and writes -/

abbrev r4_0 : Rect S512x256 := Rect.unit (s := S512x256) ![0, 0] S512x256.size inb_S512x256_S512x256_0_0
abbrev r4_1 : Rect S512x1 := Rect.unit (s := S512x1) ![0, 0] S512x1.size inb_S512x1_S512x1_0_0
abbrev r4_2 : Rect S256x10 := Rect.unit (s := S256x10) ![0, 0] S256x10.size inb_S256x10_S256x10_0_0
abbrev r4_3 : Rect S1x10 := Rect.unit (s := S1x10) ![0, 0] S1x10.size inb_S1x10_S1x10_0_0
abbrev r4_4 : Rect S512x10 := Rect.unit (s := S512x10) ![0, 0] S512x10.size inb_S512x10_S512x10_0_0

/-- The output block after the body: the one stored value, a pure function of the input blocks, written over the whole
    block. -/
def out4_4 (x0 : Vec F S512x256 .f32) (x1 : Vec F S512x1 .f32) (x2 : Vec F S256x10 .f32) (x3 : Vec F S1x10 .f32) : Vec F S512x10 .f32 :=
  View.canon [⟨r4_4, k4_pay1 (View.ld x0 r4_0) (View.ld x1 r4_1) (View.ld x2 r4_2) (View.ld x3 r4_3)⟩]

/-- The one store covers the block. -/
theorem cover4_4 (p0 : Vec F S512x10 .f32) (y : S512x10.Idx) :
    ∃ pc ∈ ([⟨r4_4, p0⟩] : List (View.Piece (Elt F) S512x10 .f32)), y ∈ pc.1.set :=
  View.cover_of_tiled [⟨r4_4, p0⟩] S512x10.size (by rfl) y

set_option maxHeartbeats 1000000 in
/-- The body's triple: on whole buffers, the inputs' holding `x0 …` and the output's holding anything, it ends with
    the inputs' as they were and the output's at `out4_4` of them. -/
theorem sound_kernel4 (c : Dev nD) (E : Set ℕ) (i : grid4.Coords) (arg0 : Memref sig .tc .vmem S512x256 .f32) (harg0 : arg0.IsWhole) (arg1 : Memref sig .tc .vmem S512x1 .f32) (harg1 : arg1.IsWhole) (arg2 : Memref sig .tc .vmem S256x10 .f32) (harg2 : arg2.IsWhole) (arg3 : Memref sig .tc .vmem S1x10 .f32) (harg3 : arg3.IsWhole) (arg4 : Memref sig .tc .vmem S512x10 .f32) (harg4 : arg4.IsWhole)
    (x0 : Vec F S512x256 .f32) (x1 : Vec F S512x1 .f32) (x2 : Vec F S256x10 .f32) (x3 : Vec F S1x10 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4__pool_kernel i arg0 harg0 arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The pipeline's data on core `c`: the arrays as the region finds them; after the body at point `t` every input's buffer
    at its block and the output's at `out4_4` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' buffers hold their blocks, so the triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline asks of the body, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Run.lean ====
/-
  The whole run of the program, at any float instance: @main is twelve items in a row — a stretch of host operations,
  then a kernel region, four times over, then three more host stretches and the last region. The contents of the
  unscoped buffers at each boundary are a fold from the launch memory: a host stretch leaves what its operations
  compute; a region leaves each of its windows' arrays at what its write-backs leave (an input's array as found, the
  output's array at the blocks the grid points wrote) and every other buffer as found. Every weakly fair execution
  terminates, nothing faulting, and the final memory holds every unscoped buffer at the last of these contents
  (`run_main`); the argument arrays are among the buffers nothing writes (`W12_main_arg…`).
-/
import proofs.«135148_j25074019074551_1_alg».proof.Proof.KI.Region0
import proofs.«135148_j25074019074551_1_alg».proof.Proof.KI.Region1
import proofs.«135148_j25074019074551_1_alg».proof.Proof.KI.Region2
import proofs.«135148_j25074019074551_1_alg».proof.Proof.KI.Region3
import proofs.«135148_j25074019074551_1_alg».proof.Proof.KI.Region4

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- The same contents read at the TensorCore's references: what region 0 is entered at. -/
abbrev V1 : (c : Dev nD) → (b : Ref sig .tc) → Buf (Elt F) ((c : Thread nD τ).loc b) := fun c b => W1 m c b
/-- At region 0's exit: its windows' arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host stretch `hostOps1`. -/
abbrev W3 : Dev nD → Valuation τ sig (Elt F) := fun c => StableHlo.after hostOps1 (W2 m c)
/-- The same contents read at the TensorCore's references: what region 1 is entered at. -/
abbrev V3 : (c : Dev nD) → (b : Ref sig .tc) → Buf (Elt F) ((c : Thread nD τ).loc b) := fun c b => W3 m c b
/-- At region 1's exit: its windows' arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the host stretch `hostOps2`. -/
abbrev W5 : Dev nD → Valuation τ sig (Elt F) := fun c => StableHlo.after hostOps2 (W4 m c)
/-- The same contents read at the TensorCore's references: what region 2 is entered at. -/
abbrev V5 : (c : Dev nD) → (b : Ref sig .tc) → Buf (Elt F) ((c : Thread nD τ).loc b) := fun c b => W5 m c b
/-- At region 2's exit: its windows' arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After the host stretch `hostOps3`. -/
abbrev W7 : Dev nD → Valuation τ sig (Elt F) := fun c => StableHlo.after hostOps3 (W6 m c)
/-- The same contents read at the TensorCore's references: what region 3 is entered at. -/
abbrev V7 : (c : Dev nD) → (b : Ref sig .tc) → Buf (Elt F) ((c : Thread nD τ).loc b) := fun c b => W7 m c b
/-- At region 3's exit: its windows' arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After the host stretch `hostOps4`. -/
abbrev W9 : Dev nD → Valuation τ sig (Elt F) := fun c => StableHlo.after hostOps4 (W8 m c)
/-- After the host stretch `hostOps4_1`. -/
abbrev W10 : Dev nD → Valuation τ sig (Elt F) := fun c => StableHlo.after hostOps4_1 (W9 m c)
/-- After the host stretch `hostOps4_2`. -/
abbrev W11 : Dev nD → Valuation τ sig (Elt F) := fun c => StableHlo.after hostOps4_2 (W10 m c)
/-- The same contents read at the TensorCore's references: what region 4 is entered at. -/
abbrev V11 : (c : Dev nD) → (b : Ref sig .tc) → Buf (Elt F) ((c : Thread nD τ).loc b) := fun c b => W11 m c b
/-- At region 4's exit: its windows' arrays at what the pipeline leaves, every other buffer as entered. -/
def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev V12 : (c : Dev nD) → (b : Ref sig .tc) → Buf (Elt F) ((c : Thread nD τ).loc b) := fun c b => W12 m c b
theorem hF4 (c : Dev nD) (w : Fin cfg4.W) : (dat4 (V11 m) c).arrAt w cfg4.N = V12 m c (Pipeline.arrRef spec4 w) :=
  (W12_arr m c w).symm
theorem hrest4 (c : Dev nD) : ∀ b, b ∉ Finset.univ.image (Pipeline.arrRef spec4) → V12 m c b = V11 m c b :=
  fun b hb => W12_of_ne m c b fun w e => hb (Finset.mem_image.mpr ⟨w, Finset.mem_univ _, e⟩)

/-! ## No host operation allocates a buffer -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps4_1_fresh : (hostOps4_1 : List (HloOp τ sig (Elt F))).Forall fun op => op.fresh = ∅ := by
  simp only [List.Forall]; repeat' constructor
theorem hostOps4_2_fresh : (hostOps4_2 : List (HloOp τ sig (Elt F))).Forall fun op => op.fresh = ∅ := by
  simp only [List.Forall]; repeat' constructor

/-! ## The proof data of every pipeline, and what rides beside the buffers -/

abbrev adm : (p : Fin 5) → (pcfgs (F := F) p).Adm := fun p => (cfgs p).toPCfg_adm
/-- Every pipeline's data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V11 m) c
abbrev 𝒱₀ : Variants := Variants.none
abbrev L : GSem nD τ sig → Finset Unit := fun _ => ∅
abbrev lv : GSem nD τ sig → Unit → ℕ := fun _ _ => 0
/-- Beside the buffers through every item: the core's generator register at some state, and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the register at some state. -/
abbrev Tₙ (c : Dev nD) : sProp 𝕄 := iprop(StableHlo.held (c : Thread nD τ) (Pipeline.ucRefs τ sig) (W12 m c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the register goes into the pipeline's invariant and
    comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the register goes into the pipeline's invariant and
    comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the register goes into the pipeline's invariant and
    comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split
    out of the unscoped buffers and put back at the exit contents; the register goes into the pipeline's invariant and
    comes out; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W11`, left at `W12`. Its arrays are split
    out of the unscoped buffers and put back at the exit contents; the register goes into the pipeline's invariant and
    comes out; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V11 m c) (V12 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its twelve items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .host (hseg hostOps4_1 hostOps4_1_sub hostOps4_1_fresh (W9 m)),
    .host (hseg hostOps4_2 hostOps4_2_sub hostOps4_2_fresh (W10 m)),
    .region (reg4 m) ]

/-- @main is the run of its items. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and the final memory holds every unscoped buffer at the last boundary's contents `W12`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.KernelIdeal.Fr

end
-- ==== Proof.KI.Args.lean ====
/-
  The argument arrays end as launched. No host operation writes an argument, and a region leaves every buffer that is
  not one of its windows' arrays as found and an INPUT window's array as found too (three arguments are input windows:
  the first layer's two weight matrices and the classifier matrix). So the last boundary's contents at an argument's
  buffer walk back, boundary by boundary, to the launch memory; with the run this is the frame claim, at any float
  instance, and beside it the run's reading of the result buffer.
-/
import proofs.«135148_j25074019074551_1_alg».proof.Proof.KI.Run
import proofs.«135148_j25074019074551_1_alg».proof.Proof.Gen.KernelIdeal.Regions

set_option maxRecDepth 16384

noncomputable section

namespace Cert.KernelIdeal.Fr

open Cert.KernelIdeal
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem W12_main_arg0 (c : Dev nD) : W12 m c (Proc.devRef .tc main_arg0) = m ((c : Thread nD τ).loc main_arg0) :=
  (W12_of_ne m c main_arg0 (by decide)).trans <|
  (StableHlo.after_of_writes_sub (r := main_arg0) Gen.hostOps4_2 (W10 m c) Gen.hostOps4_2_writes (by decide)).trans <|
  (StableHlo.after_of_writes_sub (r := main_arg0) Gen.hostOps4_1 (W9 m c) Gen.hostOps4_1_writes (by decide)).trans <|
  (StableHlo.after_of_writes_sub (r := main_arg0) Gen.hostOps4 (W8 m c) Gen.hostOps4_writes (by decide)).trans <|
  (W8_of_ne m c main_arg0 (by decide)).trans <|
  (StableHlo.after_of_writes_sub (r := main_arg0) Gen.hostOps3 (W6 m c) Gen.hostOps3_writes (by decide)).trans <|
  (W6_of_ne m c main_arg0 (by decide)).trans <|
  (StableHlo.after_of_writes_sub (r := main_arg0) Gen.hostOps2 (W4 m c) Gen.hostOps2_writes (by decide)).trans <|
  (W4_of_ne m c main_arg0 (by decide)).trans <|
  (StableHlo.after_of_writes_sub (r := main_arg0) Gen.hostOps1 (W2 m c) Gen.hostOps1_writes (by decide)).trans <|
  (W2_of_ne m c main_arg0 (by decide)).trans <|
  (StableHlo.after_of_writes_sub (r := main_arg0) Gen.hostOps0 (W0 m c) Gen.hostOps0_writes (by decide)).trans <|
  rfl

theorem W12_main_arg1 (c : Dev nD) : W12 m c (Proc.devRef .tc main_arg1) = m ((c : Thread nD τ).loc main_arg1) :=
  (W12_of_ne m c main_arg1 (by decide)).trans <|
  (StableHlo.after_of_writes_sub (r := main_arg1) Gen.hostOps4_2 (W10 m c) Gen.hostOps4_2_writes (by decide)).trans <|
  (StableHlo.after_of_writes_sub (r := main_arg1) Gen.hostOps4_1 (W9 m c) Gen.hostOps4_1_writes (by decide)).trans <|
  (StableHlo.after_of_writes_sub (r := main_arg1) Gen.hostOps4 (W8 m c) Gen.hostOps4_writes (by decide)).trans <|
  (W8_of_ne m c main_arg1 (by decide)).trans <|
  (StableHlo.after_of_writes_sub (r := main_arg1) Gen.hostOps3 (W6 m c) Gen.hostOps3_writes (by decide)).trans <|
  (W6_of_ne m c main_arg1 (by decide)).trans <|
  (StableHlo.after_of_writes_sub (r := main_arg1) Gen.hostOps2 (W4 m c) Gen.hostOps2_writes (by decide)).trans <|
  (W4_of_ne m c main_arg1 (by decide)).trans <|
  (StableHlo.after_of_writes_sub (r := main_arg1) Gen.hostOps1 (W2 m c) Gen.hostOps1_writes (by decide)).trans <|
  (W2_of_ne m c main_arg1 (by decide)).trans <|
  (StableHlo.after_of_writes_sub (r := main_arg1) Gen.hostOps0 (W0 m c) Gen.hostOps0_writes (by decide)).trans <|
  rfl

theorem W12_main_arg2 (c : Dev nD) : W12 m c (Proc.devRef .tc main_arg2) = m ((c : Thread nD τ).loc main_arg2) :=
  (W12_of_ne m c main_arg2 (by decide)).trans <|
  (StableHlo.after_of_writes_sub (r := main_arg2) Gen.hostOps4_2 (W10 m c) Gen.hostOps4_2_writes (by decide)).trans <|
  (StableHlo.after_of_writes_sub (r := main_arg2) Gen.hostOps4_1 (W9 m c) Gen.hostOps4_1_writes (by decide)).trans <|
  (StableHlo.after_of_writes_sub (r := main_arg2) Gen.hostOps4 (W8 m c) Gen.hostOps4_writes (by decide)).trans <|
  (W8_of_ne m c main_arg2 (by decide)).trans <|
  (StableHlo.after_of_writes_sub (r := main_arg2) Gen.hostOps3 (W6 m c) Gen.hostOps3_writes (by decide)).trans <|
  (W6_of_ne m c main_arg2 (by decide)).trans <|
  (StableHlo.after_of_writes_sub (r := main_arg2) Gen.hostOps2 (W4 m c) Gen.hostOps2_writes (by decide)).trans <|
  (W4_of_ne m c main_arg2 (by decide)).trans <|
  (StableHlo.after_of_writes_sub (r := main_arg2) Gen.hostOps1 (W2 m c) Gen.hostOps1_writes (by decide)).trans <|
  (W2_of_ne m c main_arg2 (by decide)).trans <|
  (StableHlo.after_of_writes_sub (r := main_arg2) Gen.hostOps0 (W0 m c) Gen.hostOps0_writes (by decide)).trans <|
  rfl

theorem W12_main_arg3 (c : Dev nD) : W12 m c (Proc.devRef .tc main_arg3) = m ((c : Thread nD τ).loc main_arg3) :=
  (W12_of_ne m c main_arg3 (by decide)).trans <|
  (StableHlo.after_of_writes_sub (r := main_arg3) Gen.hostOps4_2 (W10 m c) Gen.hostOps4_2_writes (by decide)).trans <|
  (StableHlo.after_of_writes_sub (r := main_arg3) Gen.hostOps4_1 (W9 m c) Gen.hostOps4_1_writes (by decide)).trans <|
  (StableHlo.after_of_writes_sub (r := main_arg3) Gen.hostOps4 (W8 m c) Gen.hostOps4_writes (by decide)).trans <|
  (W8_of_ne m c main_arg3 (by decide)).trans <|
  (StableHlo.after_of_writes_sub (r := main_arg3) Gen.hostOps3 (W6 m c) Gen.hostOps3_writes (by decide)).trans <|
  (W6_of_ne m c main_arg3 (by decide)).trans <|
  (StableHlo.after_of_writes_sub (r := main_arg3) Gen.hostOps2 (W4 m c) Gen.hostOps2_writes (by decide)).trans <|
  (W4_of_ne m c main_arg3 (by decide)).trans <|
  (StableHlo.after_of_writes_sub (r := main_arg3) Gen.hostOps1 (W2 m c) Gen.hostOps1_writes (by decide)).trans <|
  ((W2_arr m c 1).trans (((dat0 (V1 m) c).arrAt_in 1 rfl _).trans (A_eq0 (V1 m) c 1))).trans <|
  (StableHlo.after_of_writes_sub (r := main_arg3) Gen.hostOps0 (W0 m c) Gen.hostOps0_writes (by decide)).trans <|
  rfl

theorem W12_main_arg4 (c : Dev nD) : W12 m c (Proc.devRef .tc main_arg4) = m ((c : Thread nD τ).loc main_arg4) :=
  (W12_of_ne m c main_arg4 (by decide)).trans <|
  (StableHlo.after_of_writes_sub (r := main_arg4) Gen.hostOps4_2 (W10 m c) Gen.hostOps4_2_writes (by decide)).trans <|
  (StableHlo.after_of_writes_sub (r := main_arg4) Gen.hostOps4_1 (W9 m c) Gen.hostOps4_1_writes (by decide)).trans <|
  (StableHlo.after_of_writes_sub (r := main_arg4) Gen.hostOps4 (W8 m c) Gen.hostOps4_writes (by decide)).trans <|
  (W8_of_ne m c main_arg4 (by decide)).trans <|
  (StableHlo.after_of_writes_sub (r := main_arg4) Gen.hostOps3 (W6 m c) Gen.hostOps3_writes (by decide)).trans <|
  (W6_of_ne m c main_arg4 (by decide)).trans <|
  (StableHlo.after_of_writes_sub (r := main_arg4) Gen.hostOps2 (W4 m c) Gen.hostOps2_writes (by decide)).trans <|
  (W4_of_ne m c main_arg4 (by decide)).trans <|
  (StableHlo.after_of_writes_sub (r := main_arg4) Gen.hostOps1 (W2 m c) Gen.hostOps1_writes (by decide)).trans <|
  (W2_of_ne m c main_arg4 (by decide)).trans <|
  (StableHlo.after_of_writes_sub (r := main_arg4) Gen.hostOps0 (W0 m c) Gen.hostOps0_writes (by decide)).trans <|
  rfl

theorem W12_main_arg5 (c : Dev nD) : W12 m c (Proc.devRef .tc main_arg5) = m ((c : Thread nD τ).loc main_arg5) :=
  (W12_of_ne m c main_arg5 (by decide)).trans <|
  (StableHlo.after_of_writes_sub (r := main_arg5) Gen.hostOps4_2 (W10 m c) Gen.hostOps4_2_writes (by decide)).trans <|
  (StableHlo.after_of_writes_sub (r := main_arg5) Gen.hostOps4_1 (W9 m c) Gen.hostOps4_1_writes (by decide)).trans <|
  (StableHlo.after_of_writes_sub (r := main_arg5) Gen.hostOps4 (W8 m c) Gen.hostOps4_writes (by decide)).trans <|
  (W8_of_ne m c main_arg5 (by decide)).trans <|
  (StableHlo.after_of_writes_sub (r := main_arg5) Gen.hostOps3 (W6 m c) Gen.hostOps3_writes (by decide)).trans <|
  (W6_of_ne m c main_arg5 (by decide)).trans <|
  (StableHlo.after_of_writes_sub (r := main_arg5) Gen.hostOps2 (W4 m c) Gen.hostOps2_writes (by decide)).trans <|
  (W4_of_ne m c main_arg5 (by decide)).trans <|
  (StableHlo.after_of_writes_sub (r := main_arg5) Gen.hostOps1 (W2 m c) Gen.hostOps1_writes (by decide)).trans <|
  ((W2_arr m c 3).trans (((dat0 (V1 m) c).arrAt_in 3 rfl _).trans (A_eq0 (V1 m) c 3))).trans <|
  (StableHlo.after_of_writes_sub (r := main_arg5) Gen.hostOps0 (W0 m c) Gen.hostOps0_writes (by decide)).trans <|
  rfl

theorem W12_main_arg6 (c : Dev nD) : W12 m c (Proc.devRef .tc main_arg6) = m ((c : Thread nD τ).loc main_arg6) :=
  (W12_of_ne m c main_arg6 (by decide)).trans <|
  (StableHlo.after_of_writes_sub (r := main_arg6) Gen.hostOps4_2 (W10 m c) Gen.hostOps4_2_writes (by decide)).trans <|
  (StableHlo.after_of_writes_sub (r := main_arg6) Gen.hostOps4_1 (W9 m c) Gen.hostOps4_1_writes (by decide)).trans <|
  (StableHlo.after_of_writes_sub (r := main_arg6) Gen.hostOps4 (W8 m c) Gen.hostOps4_writes (by decide)).trans <|
  (W8_of_ne m c main_arg6 (by decide)).trans <|
  (StableHlo.after_of_writes_sub (r := main_arg6) Gen.hostOps3 (W6 m c) Gen.hostOps3_writes (by decide)).trans <|
  (W6_of_ne m c main_arg6 (by decide)).trans <|
  (StableHlo.after_of_writes_sub (r := main_arg6) Gen.hostOps2 (W4 m c) Gen.hostOps2_writes (by decide)).trans <|
  (W4_of_ne m c main_arg6 (by decide)).trans <|
  (StableHlo.after_of_writes_sub (r := main_arg6) Gen.hostOps1 (W2 m c) Gen.hostOps1_writes (by decide)).trans <|
  (W2_of_ne m c main_arg6 (by decide)).trans <|
  (StableHlo.after_of_writes_sub (r := main_arg6) Gen.hostOps0 (W0 m c) Gen.hostOps0_writes (by decide)).trans <|
  rfl

theorem W12_main_arg7 (c : Dev nD) : W12 m c (Proc.devRef .tc main_arg7) = m ((c : Thread nD τ).loc main_arg7) :=
  (W12_of_ne m c main_arg7 (by decide)).trans <|
  (StableHlo.after_of_writes_sub (r := main_arg7) Gen.hostOps4_2 (W10 m c) Gen.hostOps4_2_writes (by decide)).trans <|
  (StableHlo.after_of_writes_sub (r := main_arg7) Gen.hostOps4_1 (W9 m c) Gen.hostOps4_1_writes (by decide)).trans <|
  (StableHlo.after_of_writes_sub (r := main_arg7) Gen.hostOps4 (W8 m c) Gen.hostOps4_writes (by decide)).trans <|
  (W8_of_ne m c main_arg7 (by decide)).trans <|
  (StableHlo.after_of_writes_sub (r := main_arg7) Gen.hostOps3 (W6 m c) Gen.hostOps3_writes (by decide)).trans <|
  (W6_of_ne m c main_arg7 (by decide)).trans <|
  (StableHlo.after_of_writes_sub (r := main_arg7) Gen.hostOps2 (W4 m c) Gen.hostOps2_writes (by decide)).trans <|
  (W4_of_ne m c main_arg7 (by decide)).trans <|
  (StableHlo.after_of_writes_sub (r := main_arg7) Gen.hostOps1 (W2 m c) Gen.hostOps1_writes (by decide)).trans <|
  (W2_of_ne m c main_arg7 (by decide)).trans <|
  (StableHlo.after_of_writes_sub (r := main_arg7) Gen.hostOps0 (W0 m c) Gen.hostOps0_writes (by decide)).trans <|
  rfl

theorem W12_main_arg8 (c : Dev nD) : W12 m c (Proc.devRef .tc main_arg8) = m ((c : Thread nD τ).loc main_arg8) :=
  (W12_of_ne m c main_arg8 (by decide)).trans <|
  (StableHlo.after_of_writes_sub (r := main_arg8) Gen.hostOps4_2 (W10 m c) Gen.hostOps4_2_writes (by decide)).trans <|
  (StableHlo.after_of_writes_sub (r := main_arg8) Gen.hostOps4_1 (W9 m c) Gen.hostOps4_1_writes (by decide)).trans <|
  (StableHlo.after_of_writes_sub (r := main_arg8) Gen.hostOps4 (W8 m c) Gen.hostOps4_writes (by decide)).trans <|
  (W8_of_ne m c main_arg8 (by decide)).trans <|
  (StableHlo.after_of_writes_sub (r := main_arg8) Gen.hostOps3 (W6 m c) Gen.hostOps3_writes (by decide)).trans <|
  (W6_of_ne m c main_arg8 (by decide)).trans <|
  (StableHlo.after_of_writes_sub (r := main_arg8) Gen.hostOps2 (W4 m c) Gen.hostOps2_writes (by decide)).trans <|
  (W4_of_ne m c main_arg8 (by decide)).trans <|
  (StableHlo.after_of_writes_sub (r := main_arg8) Gen.hostOps1 (W2 m c) Gen.hostOps1_writes (by decide)).trans <|
  (W2_of_ne m c main_arg8 (by decide)).trans <|
  (StableHlo.after_of_writes_sub (r := main_arg8) Gen.hostOps0 (W0 m c) Gen.hostOps0_writes (by decide)).trans <|
  rfl

theorem W12_main_arg9 (c : Dev nD) : W12 m c (Proc.devRef .tc main_arg9) = m ((c : Thread nD τ).loc main_arg9) :=
  (W12_of_ne m c main_arg9 (by decide)).trans <|
  (StableHlo.after_of_writes_sub (r := main_arg9) Gen.hostOps4_2 (W10 m c) Gen.hostOps4_2_writes (by decide)).trans <|
  (StableHlo.after_of_writes_sub (r := main_arg9) Gen.hostOps4_1 (W9 m c) Gen.hostOps4_1_writes (by decide)).trans <|
  (StableHlo.after_of_writes_sub (r := main_arg9) Gen.hostOps4 (W8 m c) Gen.hostOps4_writes (by decide)).trans <|
  (W8_of_ne m c main_arg9 (by decide)).trans <|
  (StableHlo.after_of_writes_sub (r := main_arg9) Gen.hostOps3 (W6 m c) Gen.hostOps3_writes (by decide)).trans <|
  (W6_of_ne m c main_arg9 (by decide)).trans <|
  (StableHlo.after_of_writes_sub (r := main_arg9) Gen.hostOps2 (W4 m c) Gen.hostOps2_writes (by decide)).trans <|
  (W4_of_ne m c main_arg9 (by decide)).trans <|
  (StableHlo.after_of_writes_sub (r := main_arg9) Gen.hostOps1 (W2 m c) Gen.hostOps1_writes (by decide)).trans <|
  (W2_of_ne m c main_arg9 (by decide)).trans <|
  (StableHlo.after_of_writes_sub (r := main_arg9) Gen.hostOps0 (W0 m c) Gen.hostOps0_writes (by decide)).trans <|
  rfl

theorem W12_main_arg10 (c : Dev nD) : W12 m c (Proc.devRef .tc main_arg10) = m ((c : Thread nD τ).loc main_arg10) :=
  (W12_of_ne m c main_arg10 (by decide)).trans <|
  (StableHlo.after_of_writes_sub (r := main_arg10) Gen.hostOps4_2 (W10 m c) Gen.hostOps4_2_writes (by decide)).trans <|
  (StableHlo.after_of_writes_sub (r := main_arg10) Gen.hostOps4_1 (W9 m c) Gen.hostOps4_1_writes (by decide)).trans <|
  (StableHlo.after_of_writes_sub (r := main_arg10) Gen.hostOps4 (W8 m c) Gen.hostOps4_writes (by decide)).trans <|
  (W8_of_ne m c main_arg10 (by decide)).trans <|
  (StableHlo.after_of_writes_sub (r := main_arg10) Gen.hostOps3 (W6 m c) Gen.hostOps3_writes (by decide)).trans <|
  (W6_of_ne m c main_arg10 (by decide)).trans <|
  (StableHlo.after_of_writes_sub (r := main_arg10) Gen.hostOps2 (W4 m c) Gen.hostOps2_writes (by decide)).trans <|
  (W4_of_ne m c main_arg10 (by decide)).trans <|
  (StableHlo.after_of_writes_sub (r := main_arg10) Gen.hostOps1 (W2 m c) Gen.hostOps1_writes (by decide)).trans <|
  (W2_of_ne m c main_arg10 (by decide)).trans <|
  (StableHlo.after_of_writes_sub (r := main_arg10) Gen.hostOps0 (W0 m c) Gen.hostOps0_writes (by decide)).trans <|
  rfl

theorem W12_main_arg11 (c : Dev nD) : W12 m c (Proc.devRef .tc main_arg11) = m ((c : Thread nD τ).loc main_arg11) :=
  ((W12_arr m c 2).trans (((dat4 (V11 m) c).arrAt_in 2 rfl _).trans (A_eq4 (V11 m) c 2))).trans <|
  (StableHlo.after_of_writes_sub (r := main_arg11) Gen.hostOps4_2 (W10 m c) Gen.hostOps4_2_writes (by decide)).trans <|
  (StableHlo.after_of_writes_sub (r := main_arg11) Gen.hostOps4_1 (W9 m c) Gen.hostOps4_1_writes (by decide)).trans <|
  (StableHlo.after_of_writes_sub (r := main_arg11) Gen.hostOps4 (W8 m c) Gen.hostOps4_writes (by decide)).trans <|
  (W8_of_ne m c main_arg11 (by decide)).trans <|
  (StableHlo.after_of_writes_sub (r := main_arg11) Gen.hostOps3 (W6 m c) Gen.hostOps3_writes (by decide)).trans <|
  (W6_of_ne m c main_arg11 (by decide)).trans <|
  (StableHlo.after_of_writes_sub (r := main_arg11) Gen.hostOps2 (W4 m c) Gen.hostOps2_writes (by decide)).trans <|
  (W4_of_ne m c main_arg11 (by decide)).trans <|
  (StableHlo.after_of_writes_sub (r := main_arg11) Gen.hostOps1 (W2 m c) Gen.hostOps1_writes (by decide)).trans <|
  (W2_of_ne m c main_arg11 (by decide)).trans <|
  (StableHlo.after_of_writes_sub (r := main_arg11) Gen.hostOps0 (W0 m c) Gen.hostOps0_writes (by decide)).trans <|
  rfl

theorem W12_main_arg12 (c : Dev nD) : W12 m c (Proc.devRef .tc main_arg12) = m ((c : Thread nD τ).loc main_arg12) :=
  (W12_of_ne m c main_arg12 (by decide)).trans <|
  (StableHlo.after_of_writes_sub (r := main_arg12) Gen.hostOps4_2 (W10 m c) Gen.hostOps4_2_writes (by decide)).trans <|
  (StableHlo.after_of_writes_sub (r := main_arg12) Gen.hostOps4_1 (W9 m c) Gen.hostOps4_1_writes (by decide)).trans <|
  (StableHlo.after_of_writes_sub (r := main_arg12) Gen.hostOps4 (W8 m c) Gen.hostOps4_writes (by decide)).trans <|
  (W8_of_ne m c main_arg12 (by decide)).trans <|
  (StableHlo.after_of_writes_sub (r := main_arg12) Gen.hostOps3 (W6 m c) Gen.hostOps3_writes (by decide)).trans <|
  (W6_of_ne m c main_arg12 (by decide)).trans <|
  (StableHlo.after_of_writes_sub (r := main_arg12) Gen.hostOps2 (W4 m c) Gen.hostOps2_writes (by decide)).trans <|
  (W4_of_ne m c main_arg12 (by decide)).trans <|
  (StableHlo.after_of_writes_sub (r := main_arg12) Gen.hostOps1 (W2 m c) Gen.hostOps1_writes (by decide)).trans <|
  (W2_of_ne m c main_arg12 (by decide)).trans <|
  (StableHlo.after_of_writes_sub (r := main_arg12) Gen.hostOps0 (W0 m c) Gen.hostOps0_writes (by decide)).trans <|
  rfl

/-- THE FRAME, at any float instance: every weakly fair execution of @main terminates, nothing faulting, and the final
    memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_arg0 (by decide))).trans (W12_main_arg0 m c),
      (h c _ (mem_uc main_arg1 (by decide))).trans (W12_main_arg1 m c),
      (h c _ (mem_uc main_arg2 (by decide))).trans (W12_main_arg2 m c),
      (h c _ (mem_uc main_arg3 (by decide))).trans (W12_main_arg3 m c),
      (h c _ (mem_uc main_arg4 (by decide))).trans (W12_main_arg4 m c),
      (h c _ (mem_uc main_arg5 (by decide))).trans (W12_main_arg5 m c),
      (h c _ (mem_uc main_arg6 (by decide))).trans (W12_main_arg6 m c),
      (h c _ (mem_uc main_arg7 (by decide))).trans (W12_main_arg7 m c),
      (h c _ (mem_uc main_arg8 (by decide))).trans (W12_main_arg8 m c),
      (h c _ (mem_uc main_arg9 (by decide))).trans (W12_main_arg9 m c),
      (h c _ (mem_uc main_arg10 (by decide))).trans (W12_main_arg10 m c),
      (h c _ (mem_uc main_arg11 (by decide))).trans (W12_main_arg11 m c),
      (h c _ (mem_uc main_arg12 (by decide))).trans (W12_main_arg12 m c)⟩)
    (run_main m ρ)

/-- The same run, with the result buffer read too: it ends at the last boundary's contents, which are what the last
    region's pipeline leaves in its output window's array. -/
theorem run_result : θ_run defs (onTc (τ := τ) (main (F := F))) ⟨m, fun _ => 0, ρ⟩ (fun r => ∀ c : Dev nD,
      r.2.mem ((c.tc : Thread nD τ).loc main_v97) = (dat4 (V11 m) c).arrAt 4 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c _ (mem_uc main_v97 (by decide))).trans (W12_arr m c 4),
      (h c _ (mem_uc main_arg0 (by decide))).trans (W12_main_arg0 m c),
      (h c _ (mem_uc main_arg1 (by decide))).trans (W12_main_arg1 m c),
      (h c _ (mem_uc main_arg2 (by decide))).trans (W12_main_arg2 m c),
      (h c _ (mem_uc main_arg3 (by decide))).trans (W12_main_arg3 m c),
      (h c _ (mem_uc main_arg4 (by decide))).trans (W12_main_arg4 m c),
      (h c _ (mem_uc main_arg5 (by decide))).trans (W12_main_arg5 m c),
      (h c _ (mem_uc main_arg6 (by decide))).trans (W12_main_arg6 m c),
      (h c _ (mem_uc main_arg7 (by decide))).trans (W12_main_arg7 m c),
      (h c _ (mem_uc main_arg8 (by decide))).trans (W12_main_arg8 m c),
      (h c _ (mem_uc main_arg9 (by decide))).trans (W12_main_arg9 m c),
      (h c _ (mem_uc main_arg10 (by decide))).trans (W12_main_arg10 m c),
      (h c _ (mem_uc main_arg11 (by decide))).trans (W12_main_arg11 m c),
      (h c _ (mem_uc main_arg12 (by decide))).trans (W12_main_arg12 m c)⟩)
    (run_main m ρ)

end Cert.KernelIdeal.Fr

end
-- ==== Proof.Val.Spec.lean ====
/-
  The two formulas both programs compute, on the extended reals, and the reads of the small layout operations around
  them. `mlpRow`: one node's feature row through a layer's network — the row times the first weight matrix plus the
  first bias, clamped below at zero, times the second weight matrix plus the second bias, clamped below at zero.
  A row vector broadcast down the rows reads its one row; a column vector broadcast across the columns reads its one
  column; a vector reshaped to a one-row matrix reads the vector.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Spec

open Idealize.ShloMosaic Idealize.ShloMosaic.ValueIdx

/-- Zero, as both programs spell it: the word of all zero bits. -/
abbrev z32 : EReal := Ideal.ofBits .f32 0x00000000#32

/-- One row through a layer's two-layer network, both layers clamped below at zero. -/
def mlpRow {FI : ℕ} (z : Fin FI → EReal) (w1 : Fin FI → Fin 64 → EReal) (b1 : Fin 64 → EReal)
    (w2 : Fin 64 → Fin 64 → EReal) (b2 : Fin 64 → EReal) (q : Fin 64) : EReal :=
  max ((∑ k : Fin 64, max ((∑ a : Fin FI, z a * w1 a k) + b1 k) z32 * w2 k q) + b2 q) z32

/-- A layer as one function of whole arrays: node `i 0`'s row of `Z` through the network, at feature `i 1`. -/
def layerFun {FI : ℕ} (Z : (⟨2, ![50000, FI]⟩ : Shape).Idx → EReal) (W1 : (⟨2, ![FI, 64]⟩ : Shape).Idx → EReal)
    (B1 : (⟨1, ![64]⟩ : Shape).Idx → EReal) (W2 : (⟨2, ![64, 64]⟩ : Shape).Idx → EReal) (B2 : (⟨1, ![64]⟩ : Shape).Idx → EReal) :
    (⟨2, ![50000, 64]⟩ : Shape).Idx → EReal :=
  fun i => mlpRow (fun a => Z (ix2 (i 0) a)) (fun a k => W1 (ix2 a k)) (fun k => B1 (ix1 k)) (fun k q => W2 (ix2 k q))
    (fun q => B2 (ix1 q)) (i 1)

variable {α : Type}

/-- A one-row matrix broadcast down `M` rows, read at `(p, q)`, is its entry `(0, q)`. -/
theorem broadcastTo_row_apply {M N : ℕ} (hN : N ≠ 1) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 (0 : Fin 1) q) :=
  broadcastTo_apply b h _ _ fun a => by
    match a with
    | ⟨0, _⟩ => exact (if_pos rfl).symm
    | ⟨1, _⟩ => exact (if_neg hN).symm

/-- A one-column matrix broadcast across `N` columns, read at `(p, q)`, is its entry `(p, 0)`. -/
theorem broadcastTo_col_apply {M N : ℕ} (hM : M ≠ 1) (b : (⟨2, ![M, 1]⟩ : Shape).Idx → α)
    (h : (⟨2, ![M, 1]⟩ : Shape).Broadcasts ⟨2, ![M, N]⟩) (p : Fin M) (q : Fin N) :
    broadcastTo ⟨2, ![M, N]⟩ b h (ix2 p q) = b (ix2 p (0 : Fin 1)) :=
  broadcastTo_apply b h _ _ fun a => by
    match a with
    | ⟨0, _⟩ => exact (if_neg hM).symm
    | ⟨1, _⟩ => exact (if_pos rfl).symm

/-- A vector reshaped to a one-column matrix, read at `(g, 0)`, is its entry `g`. -/
theorem shapeCast_col_apply {M : ℕ} (u : (⟨1, ![M]⟩ : Shape).Idx → α) (h : (⟨1, ![M]⟩ : Shape).ShapeCasts ⟨2, ![M, 1]⟩)
    (g : Fin M) (z : Fin 1) : shapeCast ⟨2, ![M, 1]⟩ u h (ix2 g z) = u (ix1 g) :=
  shapeCast_apply u h _ _ (by
    have hz : z.val = 0 := by omega
    rw [Shape.rowMajor_val_two, Shape.rowMajor_val_one]
    show g.val = g.val * 1 + z.val
    rw [hz, Nat.mul_one, Nat.add_zero])

/-- Minus infinity, as both programs spell it: the word of the negative infinity. -/
abbrev ninf32 : EReal := Ideal.ofBits .f32 0xFF800000#32

/-- One graph's logits: its pooled row times the classifier matrix plus the classifier's bias. -/
def logitRow (pl : Fin 256 → EReal) (w : Fin 256 → Fin 10 → EReal) (b : Fin 10 → EReal) (c' : Fin 10) : EReal :=
  (∑ f : Fin 256, pl f * w f c') + b c'

/-- One graph's log-probabilities: each logit minus the row's maximum, minus the logarithm of the sum of the
    exponentials of those differences. -/
def headRow (pl : Fin 256 → EReal) (w : Fin 256 → Fin 10 → EReal) (b : Fin 10 → EReal) (cls : Fin 10) : EReal :=
  (logitRow pl w b cls - (Finset.univ : Finset (Fin 10)).fold max ninf32 (logitRow pl w b))
    - Ideal.log (∑ c' : Fin 10, Ideal.exp (logitRow pl w b c' - (Finset.univ : Finset (Fin 10)).fold max ninf32 (logitRow pl w b)))

/-- The classifier head as one function of whole arrays: graph `i 0`'s summed features times its reciprocal count,
    through the classifier and the log-softmax, at class `i 1`. -/
def headFun (S : (⟨2, ![512, 256]⟩ : Shape).Idx → EReal) (IC : (⟨2, ![512, 1]⟩ : Shape).Idx → EReal)
    (W : (⟨2, ![256, 10]⟩ : Shape).Idx → EReal) (B : (⟨1, ![10]⟩ : Shape).Idx → EReal) : (⟨2, ![512, 10]⟩ : Shape).Idx → EReal :=
  fun i => headRow (fun f => S (ix2 (i 0) f) * IC (ix2 (i 0) (0 : Fin 1))) (fun f c' => W (ix2 f c')) (fun c' => B (ix1 c')) (i 1)

end Cert.Spec

end
-- ==== Proof.Val.Pay.lean ====
/-
  What each kernel region stores, read at an index, on the extended reals. A matrix product into a zero accumulator
  is the plain sum over the contracted coordinate of the products; so a layer's stored block, at row `p` and column `q`,
  is row `p` of its input block through the layer's network (`Cert.Spec.mlpRow`).
-/
import proofs.«135148_j25074019074551_1_alg».proof.Proof.Gen.KernelIdeal.Skeleton
import proofs.«135148_j25074019074551_1_alg».proof.Proof.Val.Spec

set_option maxRecDepth 16384

noncomputable section

namespace Cert.KernelIdeal.Val

open Cert.KernelIdeal Cert.KernelIdeal.Gen
open Idealize.ShloMosaic Idealize.ShloMosaic.ValueIdx

theorem mmA_lhs0 (i : S5000x64.Idx) (k : dot_S5000x128_S128x64_S5000x64_1_0_0_1_n_n.contr.Idx) : (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem mmA_rhs1 (i : S5000x64.Idx) (k : dot_S5000x128_S128x64_S5000x64_1_0_0_1_n_n.contr.Idx) : (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix product into a zero accumulator, read at `(p, q)`: the sum over `k` of `x (p, k) · w (k, q)`. -/
theorem mmA_apply {φ₁ φ₂ : FTy} (x : FVec Ideal S5000x128 φ₁) (w : FVec Ideal S128x64 φ₂) (p : Fin 5000) (q : Fin 64) :
    matmul dot_S5000x128_S128x64_S5000x64_1_0_0_1_n_n none x w (constant S5000x64 .f32 0x00000000#32) (ix2 p q) = ∑ k : Fin 128, x (ix2 p k) * w (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact mmA_lhs0 _ _
    | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (dot_S5000x128_S128x64_S5000x64_1_0_0_1_n_n.rhsIdx_val_of_single rfl _ _).trans hk
    | ⟨1, _⟩ => exact mmA_rhs1 _ _)
  rw [el, er]

theorem mmB_lhs0 (i : S5000x64.Idx) (k : dot_S5000x64_S64x64_S5000x64_1_0_0_1_n_n.contr.Idx) : (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mmB_rhs1 (i : S5000x64.Idx) (k : dot_S5000x64_S64x64_S5000x64_1_0_0_1_n_n.contr.Idx) : (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix product into a zero accumulator, read at `(p, q)`: the sum over `k` of `x (p, k) · w (k, q)`. -/
theorem mmB_apply {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q) = ∑ k : Fin 64, x (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mmB_lhs0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact mmB_rhs1 _ _)
  rw [el, er]

/-- Region 0's stored value at row `p`, column `q` of the block is the row `p` of the input block through the layer's
    network (the format changes are the identity on extended reals; the biases are one-row matrices read at their row). -/
theorem pay0_apply (x : Vec Ideal S5000x128 .f32) (w1 : Vec Ideal S128x64 .f32) (b1 : Vec Ideal S1x64 .f32) (w2 : Vec Ideal S64x64 .f32)
    (b2 : Vec Ideal S1x64 .f32) (p : Fin 5000) (q : Fin 64) :
    k0_pay1 (F := Ideal) x w1 b1 w2 b2 (ix2 p q)
      = Cert.Spec.mlpRow (fun a => x (ix2 p a)) (fun a k => w1 (ix2 a k)) (fun k => b1 (ix2 (0 : Fin 1) k))
          (fun k q => w2 (ix2 k q)) (fun q => b2 (ix2 (0 : Fin 1) q)) q := by
  unfold k0_pay1 Cert.Spec.mlpRow
  simp only [shapeCast_self, maximumf_apply, addf_apply, broadcast_apply, mmA_apply, mmB_apply, truncf_apply,
    Cert.Spec.broadcastTo_row_apply (by decide : (64 : ℕ) ≠ 1)]
  rfl

/-- Region 1's stored value at row `p`, column `q` of the block is the row `p` of the input block through the layer's
    network (the format changes are the identity on extended reals; the biases are one-row matrices read at their row). -/
theorem pay1_apply (x : Vec Ideal S5000x64 .f32) (w1 : Vec Ideal S64x64 .f32) (b1 : Vec Ideal S1x64 .f32) (w2 : Vec Ideal S64x64 .f32)
    (b2 : Vec Ideal S1x64 .f32) (p : Fin 5000) (q : Fin 64) :
    k1_pay1 (F := Ideal) x w1 b1 w2 b2 (ix2 p q)
      = Cert.Spec.mlpRow (fun a => x (ix2 p a)) (fun a k => w1 (ix2 a k)) (fun k => b1 (ix2 (0 : Fin 1) k))
          (fun k q => w2 (ix2 k q)) (fun q => b2 (ix2 (0 : Fin 1) q)) q := by
  unfold k1_pay1 Cert.Spec.mlpRow
  simp only [shapeCast_self, maximumf_apply, addf_apply, broadcast_apply, mmB_apply, mmB_apply, truncf_apply,
    Cert.Spec.broadcastTo_row_apply (by decide : (64 : ℕ) ≠ 1)]
  rfl

/-- Region 2's stored value at row `p`, column `q` of the block is the row `p` of the input block through the layer's
    network (the format changes are the identity on extended reals; the biases are one-row matrices read at their row). -/
theorem pay2_apply (x : Vec Ideal S5000x64 .f32) (w1 : Vec Ideal S64x64 .f32) (b1 : Vec Ideal S1x64 .f32) (w2 : Vec Ideal S64x64 .f32)
    (b2 : Vec Ideal S1x64 .f32) (p : Fin 5000) (q : Fin 64) :
    k2_pay1 (F := Ideal) x w1 b1 w2 b2 (ix2 p q)
      = Cert.Spec.mlpRow (fun a => x (ix2 p a)) (fun a k => w1 (ix2 a k)) (fun k => b1 (ix2 (0 : Fin 1) k))
          (fun k q => w2 (ix2 k q)) (fun q => b2 (ix2 (0 : Fin 1) q)) q := by
  unfold k2_pay1 Cert.Spec.mlpRow
  simp only [shapeCast_self, maximumf_apply, addf_apply, broadcast_apply, mmB_apply, mmB_apply, truncf_apply,
    Cert.Spec.broadcastTo_row_apply (by decide : (64 : ℕ) ≠ 1)]
  rfl

/-- Region 3's stored value at row `p`, column `q` of the block is the row `p` of the input block through the layer's
    network (the format changes are the identity on extended reals; the biases are one-row matrices read at their row). -/
theorem pay3_apply (x : Vec Ideal S5000x64 .f32) (w1 : Vec Ideal S64x64 .f32) (b1 : Vec Ideal S1x64 .f32) (w2 : Vec Ideal S64x64 .f32)
    (b2 : Vec Ideal S1x64 .f32) (p : Fin 5000) (q : Fin 64) :
    k3_pay1 (F := Ideal) x w1 b1 w2 b2 (ix2 p q)
      = Cert.Spec.mlpRow (fun a => x (ix2 p a)) (fun a k => w1 (ix2 a k)) (fun k => b1 (ix2 (0 : Fin 1) k))
          (fun k q => w2 (ix2 k q)) (fun q => b2 (ix2 (0 : Fin 1) q)) q := by
  unfold k3_pay1 Cert.Spec.mlpRow
  simp only [shapeCast_self, maximumf_apply, addf_apply, broadcast_apply, mmB_apply, mmB_apply, truncf_apply,
    Cert.Spec.broadcastTo_row_apply (by decide : (64 : ℕ) ≠ 1)]
  rfl

end Cert.KernelIdeal.Val

end
-- ==== Proof.Val.Final0.lean ====
/-
  Region 0, on the extended reals: its output array after the run is ONE function of the arrays the region finds — at
  node `i 0`, feature `i 1`, the node's row of the input array through the layer's network (`Cert.Spec.layerFun`).
  Grid point `t` holds rows `5000·t … 5000·t + 4999` of the input and output arrays and the whole of the four small
  arrays; what it writes back is its block of that function, and the ten blocks cover the array.
-/
import proofs.«135148_j25074019074551_1_alg».proof.Proof.KI.Region0
import proofs.«135148_j25074019074551_1_alg».proof.Proof.Val.Pay

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

theorem hz0 : (![0, 0] : Fin 2 → Nat) = fun _ => 0 := funext fun a => by fin_cases a <;> rfl

/-- The index maps over the grid: the input and output blocks move together down the rows, the small arrays stay. -/
theorem idx_facts0 : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every block of rows is some point's. -/
theorem idx_onto0 : ∀ (q0 : Fin 10), ∃ t : Fin cfg0.N, win0_5.index t = ![q0.val, 0] :=
  (by decide +kernel : ∀ (q0 : Fin 10), ∃ t : Fin grid0.N, win0_5.index t = ![q0.val, 0])

/-- The array row that row `p` of point `t`'s block is. -/
def rowOf0 (t : Fin cfg0.N) (p : Fin 5000) : Fin 50000 :=
  ⟨win0_5.index t (0 : Fin 2) * 5000 + p.val, by have := (idx_facts0 t).2.2.2.2.2.2.2.2.2.2.2; have := p.isLt; omega⟩

/-! ## Each window's block, read -/

theorem read0_0 (t : Fin cfg0.N) (p : Fin 5000) (a : Fin 128) : iblk0 V c 0 t (ix2 p a) = V c main_v14 (ix2 (rowOf0 t p) a) := by
  obtain ⟨e00, e01, -⟩ := idx_facts0 t
  show V c main_v14 (((cfg0.win 0).blk t).view.emb (ix2 p a)) = _
  refine congrArg (V c main_v14) (funext fun d => Fin.ext ?_)
  match d with
  | ⟨0, _⟩ => show win0_0.index t (0 : Fin 2) * 5000 + 1 * p.val = win0_5.index t (0 : Fin 2) * 5000 + p.val; omega
  | ⟨1, _⟩ => show win0_0.index t (1 : Fin 2) * 128 + 1 * a.val = a.val; omega
theorem read0_1 (t : Fin cfg0.N) (a : Fin 128) (k : Fin 64) : iblk0 V c 1 t (ix2 a k) = V c main_arg3 (ix2 a k) := by
  obtain ⟨-, -, e10, e11, -⟩ := idx_facts0 t
  show V c main_arg3 (((cfg0.win 1).blk t).view.emb (ix2 a k)) = _
  refine congrArg (V c main_arg3) (funext fun d => Fin.ext ?_)
  match d with
  | ⟨0, _⟩ => show win0_1.index t (0 : Fin 2) * 128 + 1 * a.val = a.val; omega
  | ⟨1, _⟩ => show win0_1.index t (1 : Fin 2) * 64 + 1 * k.val = k.val; omega
theorem read0_2 (t : Fin cfg0.N) (u : Fin 1) (k : Fin 64) : iblk0 V c 2 t (ix2 u k) = V c main_v15 (ix2 u k) := by
  obtain ⟨-, -, -, -, e20, e21, -⟩ := idx_facts0 t
  show V c main_v15 (((cfg0.win 2).blk t).view.emb (ix2 u k)) = _
  refine congrArg (V c main_v15) (funext fun d => Fin.ext ?_)
  match d with
  | ⟨0, _⟩ => show win0_2.index t (0 : Fin 2) * 1 + 1 * u.val = u.val; omega
  | ⟨1, _⟩ => show win0_2.index t (1 : Fin 2) * 64 + 1 * k.val = k.val; omega
theorem read0_3 (t : Fin cfg0.N) (a : Fin 64) (k : Fin 64) : iblk0 V c 3 t (ix2 a k) = V c main_arg5 (ix2 a k) := by
  obtain ⟨-, -, -, -, -, -, e30, e31, -⟩ := idx_facts0 t
  show V c main_arg5 (((cfg0.win 3).blk t).view.emb (ix2 a k)) = _
  refine congrArg (V c main_arg5) (funext fun d => Fin.ext ?_)
  match d with
  | ⟨0, _⟩ => show win0_3.index t (0 : Fin 2) * 64 + 1 * a.val = a.val; omega
  | ⟨1, _⟩ => show win0_3.index t (1 : Fin 2) * 64 + 1 * k.val = k.val; omega
theorem read0_4 (t : Fin cfg0.N) (u : Fin 1) (k : Fin 64) : iblk0 V c 4 t (ix2 u k) = V c main_v16 (ix2 u k) := by
  obtain ⟨-, -, -, -, -, -, -, -, e40, e41, -⟩ := idx_facts0 t
  show V c main_v16 (((cfg0.win 4).blk t).view.emb (ix2 u k)) = _
  refine congrArg (V c main_v16) (funext fun d => Fin.ext ?_)
  match d with
  | ⟨0, _⟩ => show win0_4.index t (0 : Fin 2) * 1 + 1 * u.val = u.val; omega
  | ⟨1, _⟩ => show win0_4.index t (1 : Fin 2) * 64 + 1 * k.val = k.val; omega
/-- Where the output block's entry `(p, q)` sits in the array. -/
theorem emb0_5 (t : Fin cfg0.N) (p : Fin 5000) (q : Fin 64) : ((cfg0.win 5).blk t).view.emb (ix2 p q) = ix2 (rowOf0 t p) q := by
  obtain ⟨-, -, -, -, -, -, -, -, -, -, e51, -⟩ := idx_facts0 t
  refine funext fun d => Fin.ext ?_
  match d with
  | ⟨0, _⟩ => show win0_5.index t (0 : Fin 2) * 5000 + 1 * p.val = win0_5.index t (0 : Fin 2) * 5000 + p.val; omega
  | ⟨1, _⟩ => show win0_5.index t (1 : Fin 2) * 64 + 1 * q.val = q.val; omega

/-! ## The blocks cover the output array -/

/-- An index of the array is in point `t`'s block iff each coordinate is in the block's range on its axis. -/
theorem mem_blk0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v17).slice (win0_5.rect t)).set ↔ _
  rw [View.set_slice_whole, Rect.mem_set_unit]
  exact Iff.rfl

/-- Every index of the output array is in some flushing point's block: the point of its block of rows. -/
theorem cover0 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-! ## What a point writes back, the cover, the array after the run -/

section
variable (Z : S50000x128.Idx → EReal) (W1 : S128x64.Idx → EReal) (B1 : S64.Idx → EReal) (W2 : S64x64.Idx → EReal) (B2 : S64.Idx → EReal)
  (hsc : S64.ShapeCasts S1x64)
  (h0 : (V c main_v14 : S50000x128.Idx → EReal) = Z) (h1 : (V c main_arg3 : S128x64.Idx → EReal) = W1)
  (h2 : (V c main_v15 : S1x64.Idx → EReal) = shapeCast S1x64 B1 hsc) (h3 : (V c main_arg5 : S64x64.Idx → EReal) = W2)
  (h4 : (V c main_v16 : S1x64.Idx → EReal) = shapeCast S1x64 B2 hsc)
include h0 h1 h2 h3 h4

/-- WHAT POINT `t` WRITES BACK is block `t` of the layer's function of the arrays the region finds. -/
theorem flushed0_eq (t : Fin cfg0.N) :
    (dat0 V c).flushed 5 t = ((cfg0.win 5).blk t).view.read (Elt Ideal) (Cert.Spec.layerFun Z W1 B1 W2 B2) := by
  show (cfg0.win 5).cut (grid0.coords t) ((dat0 V c).after 5 t) = _
  rw [after0_5]
  unfold out0_5
  rw [View.canon_unit_zero hz0]
  simp only [View.ld_unit_zero (S := S5000x128) hz0, View.ld_unit_zero (S := S128x64) hz0, View.ld_unit_zero (S := S1x64) hz0,
    View.ld_unit_zero (S := S64x64) hz0]
  funext j
  obtain ⟨p, q, rfl⟩ : ∃ (p : Fin 5000) (q : Fin 64), j = ix2 p q := ⟨j 0, j 1, eq_ix2 j⟩
  refine (pay0_apply (iblk0 V c 0 t) (iblk0 V c 1 t) (iblk0 V c 2 t) (iblk0 V c 3 t) (iblk0 V c 4 t) p q).trans ?_
  show _ = Cert.Spec.layerFun Z W1 B1 W2 B2 (((cfg0.win 5).blk t).view.emb (ix2 p q))
  rw [emb0_5]
  unfold Cert.Spec.layerFun
  simp only [read0_0, read0_1, read0_2, read0_3, read0_4]
  rw [h0, h1, h2, h3, h4]
  simp only [shapeCast_a_1a_apply]

/-- THE OUTPUT ARRAY after the run is the layer's function of the arrays the region finds. -/
theorem final0 : (dat0 V c).arrAt 5 cfg0.N = Cert.Spec.layerFun Z W1 B1 W2 B2 :=
  (dat0 V c).arrAt_eq_of_cover 5 (Cert.Spec.layerFun Z W1 B1 W2 B2) (fun t _ => flushed0_eq V c Z W1 B1 W2 B2 hsc h0 h1 h2 h3 h4 t) cover0

end

end Cert.KernelIdeal.Val

end
-- ==== Proof.Val.Final1.lean ====
/-
  Region 1, on the extended reals: its output array after the run is ONE function of the arrays the region finds — at
  node `i 0`, feature `i 1`, the node's row of the input array through the layer's network (`Cert.Spec.layerFun`).
  Grid point `t` holds rows `5000·t … 5000·t + 4999` of the input and output arrays and the whole of the four small
  arrays; what it writes back is its block of that function, and the ten blocks cover the array.
-/
import proofs.«135148_j25074019074551_1_alg».proof.Proof.KI.Region1
import proofs.«135148_j25074019074551_1_alg».proof.Proof.Val.Pay

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

theorem hz1 : (![0, 0] : Fin 2 → Nat) = fun _ => 0 := funext fun a => by fin_cases a <;> rfl

/-- The index maps over the grid: the input and output blocks move together down the rows, the small arrays stay. -/
theorem idx_facts1 : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every block of rows is some point's. -/
theorem idx_onto1 : ∀ (q0 : Fin 10), ∃ t : Fin cfg1.N, win1_5.index t = ![q0.val, 0] :=
  (by decide +kernel : ∀ (q0 : Fin 10), ∃ t : Fin grid1.N, win1_5.index t = ![q0.val, 0])

/-- The array row that row `p` of point `t`'s block is. -/
def rowOf1 (t : Fin cfg1.N) (p : Fin 5000) : Fin 50000 :=
  ⟨win1_5.index t (0 : Fin 2) * 5000 + p.val, by have := (idx_facts1 t).2.2.2.2.2.2.2.2.2.2.2; have := p.isLt; omega⟩

/-! ## Each window's block, read -/

theorem read1_0 (t : Fin cfg1.N) (p : Fin 5000) (a : Fin 64) : iblk1 V c 0 t (ix2 p a) = V c main_v36 (ix2 (rowOf1 t p) a) := by
  obtain ⟨e00, e01, -⟩ := idx_facts1 t
  show V c main_v36 (((cfg1.win 0).blk t).view.emb (ix2 p a)) = _
  refine congrArg (V c main_v36) (funext fun d => Fin.ext ?_)
  match d with
  | ⟨0, _⟩ => show win1_0.index t (0 : Fin 2) * 5000 + 1 * p.val = win1_5.index t (0 : Fin 2) * 5000 + p.val; omega
  | ⟨1, _⟩ => show win1_0.index t (1 : Fin 2) * 64 + 1 * a.val = a.val; omega
theorem read1_1 (t : Fin cfg1.N) (a : Fin 64) (k : Fin 64) : iblk1 V c 1 t (ix2 a k) = V c main_v19 (ix2 a k) := by
  obtain ⟨-, -, e10, e11, -⟩ := idx_facts1 t
  show V c main_v19 (((cfg1.win 1).blk t).view.emb (ix2 a k)) = _
  refine congrArg (V c main_v19) (funext fun d => Fin.ext ?_)
  match d with
  | ⟨0, _⟩ => show win1_1.index t (0 : Fin 2) * 64 + 1 * a.val = a.val; omega
  | ⟨1, _⟩ => show win1_1.index t (1 : Fin 2) * 64 + 1 * k.val = k.val; omega
theorem read1_2 (t : Fin cfg1.N) (u : Fin 1) (k : Fin 64) : iblk1 V c 2 t (ix2 u k) = V c main_v37 (ix2 u k) := by
  obtain ⟨-, -, -, -, e20, e21, -⟩ := idx_facts1 t
  show V c main_v37 (((cfg1.win 2).blk t).view.emb (ix2 u k)) = _
  refine congrArg (V c main_v37) (funext fun d => Fin.ext ?_)
  match d with
  | ⟨0, _⟩ => show win1_2.index t (0 : Fin 2) * 1 + 1 * u.val = u.val; omega
  | ⟨1, _⟩ => show win1_2.index t (1 : Fin 2) * 64 + 1 * k.val = k.val; omega
theorem read1_3 (t : Fin cfg1.N) (a : Fin 64) (k : Fin 64) : iblk1 V c 3 t (ix2 a k) = V c main_v23 (ix2 a k) := by
  obtain ⟨-, -, -, -, -, -, e30, e31, -⟩ := idx_facts1 t
  show V c main_v23 (((cfg1.win 3).blk t).view.emb (ix2 a k)) = _
  refine congrArg (V c main_v23) (funext fun d => Fin.ext ?_)
  match d with
  | ⟨0, _⟩ => show win1_3.index t (0 : Fin 2) * 64 + 1 * a.val = a.val; omega
  | ⟨1, _⟩ => show win1_3.index t (1 : Fin 2) * 64 + 1 * k.val = k.val; omega
theorem read1_4 (t : Fin cfg1.N) (u : Fin 1) (k : Fin 64) : iblk1 V c 4 t (ix2 u k) = V c main_v38 (ix2 u k) := by
  obtain ⟨-, -, -, -, -, -, -, -, e40, e41, -⟩ := idx_facts1 t
  show V c main_v38 (((cfg1.win 4).blk t).view.emb (ix2 u k)) = _
  refine congrArg (V c main_v38) (funext fun d => Fin.ext ?_)
  match d with
  | ⟨0, _⟩ => show win1_4.index t (0 : Fin 2) * 1 + 1 * u.val = u.val; omega
  | ⟨1, _⟩ => show win1_4.index t (1 : Fin 2) * 64 + 1 * k.val = k.val; omega
/-- Where the output block's entry `(p, q)` sits in the array. -/
theorem emb1_5 (t : Fin cfg1.N) (p : Fin 5000) (q : Fin 64) : ((cfg1.win 5).blk t).view.emb (ix2 p q) = ix2 (rowOf1 t p) q := by
  obtain ⟨-, -, -, -, -, -, -, -, -, -, e51, -⟩ := idx_facts1 t
  refine funext fun d => Fin.ext ?_
  match d with
  | ⟨0, _⟩ => show win1_5.index t (0 : Fin 2) * 5000 + 1 * p.val = win1_5.index t (0 : Fin 2) * 5000 + p.val; omega
  | ⟨1, _⟩ => show win1_5.index t (1 : Fin 2) * 64 + 1 * q.val = q.val; omega

/-! ## The blocks cover the output array -/

/-- An index of the array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v39).slice (win1_5.rect t)).set ↔ _
  rw [View.set_slice_whole, Rect.mem_set_unit]
  exact Iff.rfl

/-- Every index of the output array is in some flushing point's block: the point of its block of rows. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-! ## What a point writes back, the cover, the array after the run -/

section
variable (Z : S50000x64.Idx → EReal) (W1 : S64x64.Idx → EReal) (B1 : S64.Idx → EReal) (W2 : S64x64.Idx → EReal) (B2 : S64.Idx → EReal)
  (hsc : S64.ShapeCasts S1x64)
  (h0 : (V c main_v36 : S50000x64.Idx → EReal) = Z) (h1 : (V c main_v19 : S64x64.Idx → EReal) = W1)
  (h2 : (V c main_v37 : S1x64.Idx → EReal) = shapeCast S1x64 B1 hsc) (h3 : (V c main_v23 : S64x64.Idx → EReal) = W2)
  (h4 : (V c main_v38 : S1x64.Idx → EReal) = shapeCast S1x64 B2 hsc)
include h0 h1 h2 h3 h4

/-- WHAT POINT `t` WRITES BACK is block `t` of the layer's function of the arrays the region finds. -/
theorem flushed1_eq (t : Fin cfg1.N) :
    (dat1 V c).flushed 5 t = ((cfg1.win 5).blk t).view.read (Elt Ideal) (Cert.Spec.layerFun Z W1 B1 W2 B2) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S64x64) hz1, View.ld_unit_zero (S := S1x64) hz1,
    View.ld_unit_zero (S := S64x64) hz1]
  funext j
  obtain ⟨p, q, rfl⟩ : ∃ (p : Fin 5000) (q : Fin 64), j = ix2 p q := ⟨j 0, j 1, eq_ix2 j⟩
  refine (pay1_apply (iblk1 V c 0 t) (iblk1 V c 1 t) (iblk1 V c 2 t) (iblk1 V c 3 t) (iblk1 V c 4 t) p q).trans ?_
  show _ = Cert.Spec.layerFun Z W1 B1 W2 B2 (((cfg1.win 5).blk t).view.emb (ix2 p q))
  rw [emb1_5]
  unfold Cert.Spec.layerFun
  simp only [read1_0, read1_1, read1_2, read1_3, read1_4]
  rw [h0, h1, h2, h3, h4]
  simp only [shapeCast_a_1a_apply]

/-- THE OUTPUT ARRAY after the run is the layer's function of the arrays the region finds. -/
theorem final1 : (dat1 V c).arrAt 5 cfg1.N = Cert.Spec.layerFun Z W1 B1 W2 B2 :=
  (dat1 V c).arrAt_eq_of_cover 5 (Cert.Spec.layerFun Z W1 B1 W2 B2) (fun t _ => flushed1_eq V c Z W1 B1 W2 B2 hsc h0 h1 h2 h3 h4 t) cover1

end

end Cert.KernelIdeal.Val

end
-- ==== Proof.Val.Final2.lean ====
/-
  Region 2, on the extended reals: its output array after the run is ONE function of the arrays the region finds — at
  node `i 0`, feature `i 1`, the node's row of the input array through the layer's network (`Cert.Spec.layerFun`).
  Grid point `t` holds rows `5000·t … 5000·t + 4999` of the input and output arrays and the whole of the four small
  arrays; what it writes back is its block of that function, and the ten blocks cover the array.
-/
import proofs.«135148_j25074019074551_1_alg».proof.Proof.KI.Region2
import proofs.«135148_j25074019074551_1_alg».proof.Proof.Val.Pay

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

/-- The index maps over the grid: the input and output blocks move together down the rows, the small arrays stay. -/
theorem idx_facts2 : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every block of rows is some point's. -/
theorem idx_onto2 : ∀ (q0 : Fin 10), ∃ t : Fin cfg2.N, win2_5.index t = ![q0.val, 0] :=
  (by decide +kernel : ∀ (q0 : Fin 10), ∃ t : Fin grid2.N, win2_5.index t = ![q0.val, 0])

/-- The array row that row `p` of point `t`'s block is. -/
def rowOf2 (t : Fin cfg2.N) (p : Fin 5000) : Fin 50000 :=
  ⟨win2_5.index t (0 : Fin 2) * 5000 + p.val, by have := (idx_facts2 t).2.2.2.2.2.2.2.2.2.2.2; have := p.isLt; omega⟩

/-! ## Each window's block, read -/

theorem read2_0 (t : Fin cfg2.N) (p : Fin 5000) (a : Fin 64) : iblk2 V c 0 t (ix2 p a) = V c main_v58 (ix2 (rowOf2 t p) a) := by
  obtain ⟨e00, e01, -⟩ := idx_facts2 t
  show V c main_v58 (((cfg2.win 0).blk t).view.emb (ix2 p a)) = _
  refine congrArg (V c main_v58) (funext fun d => Fin.ext ?_)
  match d with
  | ⟨0, _⟩ => show win2_0.index t (0 : Fin 2) * 5000 + 1 * p.val = win2_5.index t (0 : Fin 2) * 5000 + p.val; omega
  | ⟨1, _⟩ => show win2_0.index t (1 : Fin 2) * 64 + 1 * a.val = a.val; omega
theorem read2_1 (t : Fin cfg2.N) (a : Fin 64) (k : Fin 64) : iblk2 V c 1 t (ix2 a k) = V c main_v41 (ix2 a k) := by
  obtain ⟨-, -, e10, e11, -⟩ := idx_facts2 t
  show V c main_v41 (((cfg2.win 1).blk t).view.emb (ix2 a k)) = _
  refine congrArg (V c main_v41) (funext fun d => Fin.ext ?_)
  match d with
  | ⟨0, _⟩ => show win2_1.index t (0 : Fin 2) * 64 + 1 * a.val = a.val; omega
  | ⟨1, _⟩ => show win2_1.index t (1 : Fin 2) * 64 + 1 * k.val = k.val; omega
theorem read2_2 (t : Fin cfg2.N) (u : Fin 1) (k : Fin 64) : iblk2 V c 2 t (ix2 u k) = V c main_v59 (ix2 u k) := by
  obtain ⟨-, -, -, -, e20, e21, -⟩ := idx_facts2 t
  show V c main_v59 (((cfg2.win 2).blk t).view.emb (ix2 u k)) = _
  refine congrArg (V c main_v59) (funext fun d => Fin.ext ?_)
  match d with
  | ⟨0, _⟩ => show win2_2.index t (0 : Fin 2) * 1 + 1 * u.val = u.val; omega
  | ⟨1, _⟩ => show win2_2.index t (1 : Fin 2) * 64 + 1 * k.val = k.val; omega
theorem read2_3 (t : Fin cfg2.N) (a : Fin 64) (k : Fin 64) : iblk2 V c 3 t (ix2 a k) = V c main_v45 (ix2 a k) := by
  obtain ⟨-, -, -, -, -, -, e30, e31, -⟩ := idx_facts2 t
  show V c main_v45 (((cfg2.win 3).blk t).view.emb (ix2 a k)) = _
  refine congrArg (V c main_v45) (funext fun d => Fin.ext ?_)
  match d with
  | ⟨0, _⟩ => show win2_3.index t (0 : Fin 2) * 64 + 1 * a.val = a.val; omega
  | ⟨1, _⟩ => show win2_3.index t (1 : Fin 2) * 64 + 1 * k.val = k.val; omega
theorem read2_4 (t : Fin cfg2.N) (u : Fin 1) (k : Fin 64) : iblk2 V c 4 t (ix2 u k) = V c main_v60 (ix2 u k) := by
  obtain ⟨-, -, -, -, -, -, -, -, e40, e41, -⟩ := idx_facts2 t
  show V c main_v60 (((cfg2.win 4).blk t).view.emb (ix2 u k)) = _
  refine congrArg (V c main_v60) (funext fun d => Fin.ext ?_)
  match d with
  | ⟨0, _⟩ => show win2_4.index t (0 : Fin 2) * 1 + 1 * u.val = u.val; omega
  | ⟨1, _⟩ => show win2_4.index t (1 : Fin 2) * 64 + 1 * k.val = k.val; omega
/-- Where the output block's entry `(p, q)` sits in the array. -/
theorem emb2_5 (t : Fin cfg2.N) (p : Fin 5000) (q : Fin 64) : ((cfg2.win 5).blk t).view.emb (ix2 p q) = ix2 (rowOf2 t p) q := by
  obtain ⟨-, -, -, -, -, -, -, -, -, -, e51, -⟩ := idx_facts2 t
  refine funext fun d => Fin.ext ?_
  match d with
  | ⟨0, _⟩ => show win2_5.index t (0 : Fin 2) * 5000 + 1 * p.val = win2_5.index t (0 : Fin 2) * 5000 + p.val; omega
  | ⟨1, _⟩ => show win2_5.index t (1 : Fin 2) * 64 + 1 * q.val = q.val; omega

/-! ## The blocks cover the output array -/

/-- An index of the array is in point `t`'s block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v61).slice (win2_5.rect t)).set ↔ _
  rw [View.set_slice_whole, Rect.mem_set_unit]
  exact Iff.rfl

/-- Every index of the output array is in some flushing point's block: the point of its block of rows. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-! ## What a point writes back, the cover, the array after the run -/

section
variable (Z : S50000x64.Idx → EReal) (W1 : S64x64.Idx → EReal) (B1 : S64.Idx → EReal) (W2 : S64x64.Idx → EReal) (B2 : S64.Idx → EReal)
  (hsc : S64.ShapeCasts S1x64)
  (h0 : (V c main_v58 : S50000x64.Idx → EReal) = Z) (h1 : (V c main_v41 : S64x64.Idx → EReal) = W1)
  (h2 : (V c main_v59 : S1x64.Idx → EReal) = shapeCast S1x64 B1 hsc) (h3 : (V c main_v45 : S64x64.Idx → EReal) = W2)
  (h4 : (V c main_v60 : S1x64.Idx → EReal) = shapeCast S1x64 B2 hsc)
include h0 h1 h2 h3 h4

/-- WHAT POINT `t` WRITES BACK is block `t` of the layer's function of the arrays the region finds. -/
theorem flushed2_eq (t : Fin cfg2.N) :
    (dat2 V c).flushed 5 t = ((cfg2.win 5).blk t).view.read (Elt Ideal) (Cert.Spec.layerFun Z W1 B1 W2 B2) := by
  show (cfg2.win 5).cut (grid2.coords t) ((dat2 V c).after 5 t) = _
  rw [after2_5]
  unfold out2_5
  rw [View.canon_unit_zero hz2]
  simp only [View.ld_unit_zero (S := S5000x64) hz2, View.ld_unit_zero (S := S64x64) hz2, View.ld_unit_zero (S := S1x64) hz2,
    View.ld_unit_zero (S := S64x64) hz2]
  funext j
  obtain ⟨p, q, rfl⟩ : ∃ (p : Fin 5000) (q : Fin 64), j = ix2 p q := ⟨j 0, j 1, eq_ix2 j⟩
  refine (pay2_apply (iblk2 V c 0 t) (iblk2 V c 1 t) (iblk2 V c 2 t) (iblk2 V c 3 t) (iblk2 V c 4 t) p q).trans ?_
  show _ = Cert.Spec.layerFun Z W1 B1 W2 B2 (((cfg2.win 5).blk t).view.emb (ix2 p q))
  rw [emb2_5]
  unfold Cert.Spec.layerFun
  simp only [read2_0, read2_1, read2_2, read2_3, read2_4]
  rw [h0, h1, h2, h3, h4]
  simp only [shapeCast_a_1a_apply]

/-- THE OUTPUT ARRAY after the run is the layer's function of the arrays the region finds. -/
theorem final2 : (dat2 V c).arrAt 5 cfg2.N = Cert.Spec.layerFun Z W1 B1 W2 B2 :=
  (dat2 V c).arrAt_eq_of_cover 5 (Cert.Spec.layerFun Z W1 B1 W2 B2) (fun t _ => flushed2_eq V c Z W1 B1 W2 B2 hsc h0 h1 h2 h3 h4 t) cover2

end

end Cert.KernelIdeal.Val

end
-- ==== Proof.Val.Final3.lean ====
/-
  Region 3, on the extended reals: its output array after the run is ONE function of the arrays the region finds — at
  node `i 0`, feature `i 1`, the node's row of the input array through the layer's network (`Cert.Spec.layerFun`).
  Grid point `t` holds rows `5000·t … 5000·t + 4999` of the input and output arrays and the whole of the four small
  arrays; what it writes back is its block of that function, and the ten blocks cover the array.
-/
import proofs.«135148_j25074019074551_1_alg».proof.Proof.KI.Region3
import proofs.«135148_j25074019074551_1_alg».proof.Proof.Val.Pay

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

theorem hz3 : (![0, 0] : Fin 2 → Nat) = fun _ => 0 := funext fun a => by fin_cases a <;> rfl

/-- The index maps over the grid: the input and output blocks move together down the rows, the small arrays stay. -/
theorem idx_facts3 : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 9 :=
  (by decide +kernel : ∀ t : Fin grid3.N, _)

/-- Every block of rows is some point's. -/
theorem idx_onto3 : ∀ (q0 : Fin 10), ∃ t : Fin cfg3.N, win3_5.index t = ![q0.val, 0] :=
  (by decide +kernel : ∀ (q0 : Fin 10), ∃ t : Fin grid3.N, win3_5.index t = ![q0.val, 0])

/-- The array row that row `p` of point `t`'s block is. -/
def rowOf3 (t : Fin cfg3.N) (p : Fin 5000) : Fin 50000 :=
  ⟨win3_5.index t (0 : Fin 2) * 5000 + p.val, by have := (idx_facts3 t).2.2.2.2.2.2.2.2.2.2.2; have := p.isLt; omega⟩

/-! ## Each window's block, read -/

theorem read3_0 (t : Fin cfg3.N) (p : Fin 5000) (a : Fin 64) : iblk3 V c 0 t (ix2 p a) = V c main_v80 (ix2 (rowOf3 t p) a) := by
  obtain ⟨e00, e01, -⟩ := idx_facts3 t
  show V c main_v80 (((cfg3.win 0).blk t).view.emb (ix2 p a)) = _
  refine congrArg (V c main_v80) (funext fun d => Fin.ext ?_)
  match d with
  | ⟨0, _⟩ => show win3_0.index t (0 : Fin 2) * 5000 + 1 * p.val = win3_5.index t (0 : Fin 2) * 5000 + p.val; omega
  | ⟨1, _⟩ => show win3_0.index t (1 : Fin 2) * 64 + 1 * a.val = a.val; omega
theorem read3_1 (t : Fin cfg3.N) (a : Fin 64) (k : Fin 64) : iblk3 V c 1 t (ix2 a k) = V c main_v63 (ix2 a k) := by
  obtain ⟨-, -, e10, e11, -⟩ := idx_facts3 t
  show V c main_v63 (((cfg3.win 1).blk t).view.emb (ix2 a k)) = _
  refine congrArg (V c main_v63) (funext fun d => Fin.ext ?_)
  match d with
  | ⟨0, _⟩ => show win3_1.index t (0 : Fin 2) * 64 + 1 * a.val = a.val; omega
  | ⟨1, _⟩ => show win3_1.index t (1 : Fin 2) * 64 + 1 * k.val = k.val; omega
theorem read3_2 (t : Fin cfg3.N) (u : Fin 1) (k : Fin 64) : iblk3 V c 2 t (ix2 u k) = V c main_v81 (ix2 u k) := by
  obtain ⟨-, -, -, -, e20, e21, -⟩ := idx_facts3 t
  show V c main_v81 (((cfg3.win 2).blk t).view.emb (ix2 u k)) = _
  refine congrArg (V c main_v81) (funext fun d => Fin.ext ?_)
  match d with
  | ⟨0, _⟩ => show win3_2.index t (0 : Fin 2) * 1 + 1 * u.val = u.val; omega
  | ⟨1, _⟩ => show win3_2.index t (1 : Fin 2) * 64 + 1 * k.val = k.val; omega
theorem read3_3 (t : Fin cfg3.N) (a : Fin 64) (k : Fin 64) : iblk3 V c 3 t (ix2 a k) = V c main_v67 (ix2 a k) := by
  obtain ⟨-, -, -, -, -, -, e30, e31, -⟩ := idx_facts3 t
  show V c main_v67 (((cfg3.win 3).blk t).view.emb (ix2 a k)) = _
  refine congrArg (V c main_v67) (funext fun d => Fin.ext ?_)
  match d with
  | ⟨0, _⟩ => show win3_3.index t (0 : Fin 2) * 64 + 1 * a.val = a.val; omega
  | ⟨1, _⟩ => show win3_3.index t (1 : Fin 2) * 64 + 1 * k.val = k.val; omega
theorem read3_4 (t : Fin cfg3.N) (u : Fin 1) (k : Fin 64) : iblk3 V c 4 t (ix2 u k) = V c main_v82 (ix2 u k) := by
  obtain ⟨-, -, -, -, -, -, -, -, e40, e41, -⟩ := idx_facts3 t
  show V c main_v82 (((cfg3.win 4).blk t).view.emb (ix2 u k)) = _
  refine congrArg (V c main_v82) (funext fun d => Fin.ext ?_)
  match d with
  | ⟨0, _⟩ => show win3_4.index t (0 : Fin 2) * 1 + 1 * u.val = u.val; omega
  | ⟨1, _⟩ => show win3_4.index t (1 : Fin 2) * 64 + 1 * k.val = k.val; omega
/-- Where the output block's entry `(p, q)` sits in the array. -/
theorem emb3_5 (t : Fin cfg3.N) (p : Fin 5000) (q : Fin 64) : ((cfg3.win 5).blk t).view.emb (ix2 p q) = ix2 (rowOf3 t p) q := by
  obtain ⟨-, -, -, -, -, -, -, -, -, -, e51, -⟩ := idx_facts3 t
  refine funext fun d => Fin.ext ?_
  match d with
  | ⟨0, _⟩ => show win3_5.index t (0 : Fin 2) * 5000 + 1 * p.val = win3_5.index t (0 : Fin 2) * 5000 + p.val; omega
  | ⟨1, _⟩ => show win3_5.index t (1 : Fin 2) * 64 + 1 * q.val = q.val; omega

/-! ## The blocks cover the output array -/

/-- An index of the array is in point `t`'s block iff each coordinate is in the block's range on its axis. -/
theorem mem_blk3 (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v83).slice (win3_5.rect t)).set ↔ _
  rw [View.set_slice_whole, Rect.mem_set_unit]
  exact Iff.rfl

/-- Every index of the output array is in some flushing point's block: the point of its block of rows. -/
theorem cover3 (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  obtain ⟨t, ht⟩ := idx_onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-! ## What a point writes back, the cover, the array after the run -/

section
variable (Z : S50000x64.Idx → EReal) (W1 : S64x64.Idx → EReal) (B1 : S64.Idx → EReal) (W2 : S64x64.Idx → EReal) (B2 : S64.Idx → EReal)
  (hsc : S64.ShapeCasts S1x64)
  (h0 : (V c main_v80 : S50000x64.Idx → EReal) = Z) (h1 : (V c main_v63 : S64x64.Idx → EReal) = W1)
  (h2 : (V c main_v81 : S1x64.Idx → EReal) = shapeCast S1x64 B1 hsc) (h3 : (V c main_v67 : S64x64.Idx → EReal) = W2)
  (h4 : (V c main_v82 : S1x64.Idx → EReal) = shapeCast S1x64 B2 hsc)
include h0 h1 h2 h3 h4

/-- WHAT POINT `t` WRITES BACK is block `t` of the layer's function of the arrays the region finds. -/
theorem flushed3_eq (t : Fin cfg3.N) :
    (dat3 V c).flushed 5 t = ((cfg3.win 5).blk t).view.read (Elt Ideal) (Cert.Spec.layerFun Z W1 B1 W2 B2) := by
  show (cfg3.win 5).cut (grid3.coords t) ((dat3 V c).after 5 t) = _
  rw [after3_5]
  unfold out3_5
  rw [View.canon_unit_zero hz3]
  simp only [View.ld_unit_zero (S := S5000x64) hz3, View.ld_unit_zero (S := S64x64) hz3, View.ld_unit_zero (S := S1x64) hz3,
    View.ld_unit_zero (S := S64x64) hz3]
  funext j
  obtain ⟨p, q, rfl⟩ : ∃ (p : Fin 5000) (q : Fin 64), j = ix2 p q := ⟨j 0, j 1, eq_ix2 j⟩
  refine (pay3_apply (iblk3 V c 0 t) (iblk3 V c 1 t) (iblk3 V c 2 t) (iblk3 V c 3 t) (iblk3 V c 4 t) p q).trans ?_
  show _ = Cert.Spec.layerFun Z W1 B1 W2 B2 (((cfg3.win 5).blk t).view.emb (ix2 p q))
  rw [emb3_5]
  unfold Cert.Spec.layerFun
  simp only [read3_0, read3_1, read3_2, read3_3, read3_4]
  rw [h0, h1, h2, h3, h4]
  simp only [shapeCast_a_1a_apply]

/-- THE OUTPUT ARRAY after the run is the layer's function of the arrays the region finds. -/
theorem final3 : (dat3 V c).arrAt 5 cfg3.N = Cert.Spec.layerFun Z W1 B1 W2 B2 :=
  (dat3 V c).arrAt_eq_of_cover 5 (Cert.Spec.layerFun Z W1 B1 W2 B2) (fun t _ => flushed3_eq V c Z W1 B1 W2 B2 hsc h0 h1 h2 h3 h4 t) cover3

end

end Cert.KernelIdeal.Val

end
-- ==== Proof.Val.PayHead.lean ====
/-
  What the last region stores, read at an index, on the extended reals: graph `g`'s pooled sums times its reciprocal
  count, through the classifier, then the log-softmax of the row (`Cert.Spec.headRow`). The row maximum is the fold of
  `max` from minus infinity over the ten classes; the row sum is the plain sum over them.
-/
import proofs.«135148_j25074019074551_1_alg».proof.Proof.Gen.KernelIdeal.Skeleton
import proofs.«135148_j25074019074551_1_alg».proof.Proof.Val.Spec

set_option maxRecDepth 16384

noncomputable section

namespace Cert.KernelIdeal.Val

open Cert.KernelIdeal Cert.KernelIdeal.Gen
open Idealize.ShloMosaic Idealize.ShloMosaic.ValueIdx

theorem mmC_lhs0 (i : S512x10.Idx) (k : dot_S512x256_S256x10_S512x10_1_0_0_1_n_n.contr.Idx) : (dot_S512x256_S256x10_S512x10_1_0_0_1_n_n.lhsIdx i k 0).val = (i 0).val := by
  unfold DotDims.lhsIdx
  rw [dif_neg (show ¬(0 : Fin S512x256.rank) ∈ dot_S512x256_S256x10_S512x10_1_0_0_1_n_n.lhsBatch by decide), dif_pos (show (0 : Fin S512x256.rank) ∈ dot_S512x256_S256x10_S512x10_1_0_0_1_n_n.lhsNonContracting by decide)]
  rfl
theorem mmC_rhs1 (i : S512x10.Idx) (k : dot_S512x256_S256x10_S512x10_1_0_0_1_n_n.contr.Idx) : (dot_S512x256_S256x10_S512x10_1_0_0_1_n_n.rhsIdx i k 1).val = (i 1).val := by
  unfold DotDims.rhsIdx
  rw [dif_neg (show ¬(1 : Fin S256x10.rank) ∈ dot_S512x256_S256x10_S512x10_1_0_0_1_n_n.rhsBatch by decide), dif_pos (show (1 : Fin S256x10.rank) ∈ dot_S512x256_S256x10_S512x10_1_0_0_1_n_n.rhsNonContracting by decide)]
  rfl

/-- The matrix product into a zero accumulator, read at `(p, q)`: the sum over `k` of `x (p, k) · w (k, q)`. -/
theorem mmC_apply {φ₁ φ₂ : FTy} (x : FVec Ideal S512x256 φ₁) (w : FVec Ideal S256x10 φ₂) (p : Fin 512) (q : Fin 10) :
    matmul dot_S512x256_S256x10_S512x10_1_0_0_1_n_n none x w (constant S512x10 .f32 0x00000000#32) (ix2 p q) = ∑ k : Fin 256, x (ix2 p k) * w (ix2 k q) := by
  simp only [matmul]
  rw [Ideal.matmul_constant_zero_apply, ← Equiv.sum_comp (contrEquiv1 dot_S512x256_S256x10_S512x10_1_0_0_1_n_n 256 rfl rfl).symm]
  refine Finset.sum_congr rfl fun k _ => ?_
  have hk := contrEquiv1_symm_val dot_S512x256_S256x10_S512x10_1_0_0_1_n_n 256 rfl rfl k
  have el : dot_S512x256_S256x10_S512x10_1_0_0_1_n_n.lhsIdx (ix2 p q) ((contrEquiv1 dot_S512x256_S256x10_S512x10_1_0_0_1_n_n 256 rfl rfl).symm k) = ix2 p k := funext fun a => Fin.ext (by
    match a with
    | ⟨0, _⟩ => exact mmC_lhs0 _ _
    | ⟨1, _⟩ => exact (dot_S512x256_S256x10_S512x10_1_0_0_1_n_n.lhsIdx_val_of_single rfl _ _).trans hk)
  have er : dot_S512x256_S256x10_S512x10_1_0_0_1_n_n.rhsIdx (ix2 p q) ((contrEquiv1 dot_S512x256_S256x10_S512x10_1_0_0_1_n_n 256 rfl rfl).symm k) = ix2 k q := funext fun a => Fin.ext (by
    match a with
    | ⟨0, _⟩ => exact (dot_S512x256_S256x10_S512x10_1_0_0_1_n_n.rhsIdx_val_of_single rfl _ _).trans hk
    | ⟨1, _⟩ => exact mmC_rhs1 _ _)
  rw [el, er]

/-- A reduced index with the class coordinate put back. -/
theorem lift_row (h : S512x10.Reduces [1] S512) (g : Fin 512) (k : Fin (S512x10.size 1)) :
    h.lift (ix1 g) k = ix2 g (⟨k.val, k.isLt⟩ : Fin 10) := by
  funext d; apply Fin.ext
  fin_cases d <;> rfl

/-- The maximum over the classes, from minus infinity, read at graph `g`. -/
theorem rowMax_apply (v : FVec Ideal S512x10 .f32) (h : S512x10.Reduces [1] S512) (hφ : FKind.Formats FTy.f32)
    (hacc : (0xFF800000#32 : BitVec 32) = 0xFF800000#32) (g : Fin 512) :
    multiReduction .maximumf [1] S512 v 0xFF800000#32 h hφ hacc (ix1 g)
      = (Finset.univ : Finset (Fin 10)).fold max Cert.Spec.ninf32 (fun k => v (ix2 g k)) :=
  (Ideal.multiReduction_maximumf_single v 0xFF800000#32 h hφ hacc (ix1 g)).trans
    (congrArg (fun f : Fin 10 → EReal => (Finset.univ : Finset (Fin 10)).fold max Cert.Spec.ninf32 f)
      (funext fun k => congrArg v (lift_row h g k)))

/-- The sum over the classes, read at graph `g`. -/
theorem rowSum_apply (v : FVec Ideal S512x10 .f32) (h : S512x10.Reduces [1] S512) (hφ : FKind.Formats FTy.f32)
    (hacc : (0x00000000#32 : BitVec 32) = 0x00000000#32) (g : Fin 512) :
    multiReduction .add [1] S512 v 0x00000000#32 h hφ hacc (ix1 g) = ∑ k : Fin 10, v (ix2 g k) :=
  (Ideal.multiReduction_add_single v 0x00000000#32 h hφ hacc (ix1 g)).trans
    (Finset.sum_congr rfl fun k _ => congrArg v (lift_row h g k))

theorem expV_apply {s : Shape} (v : FVec Ideal s .f32) (i : s.Idx) : exp v i = Ideal.exp (v i) := rfl
theorem logV_apply {s : Shape} (v : FVec Ideal s .f32) (i : s.Idx) : log v i = Ideal.log (v i) := rfl

/-- The log-softmax of a logits matrix, as the region computes it (row maximum, shift, exponentials' row sum, logarithm,
    shift again), read at graph `g`, class `cls`. -/
theorem tail_apply (L : FVec Ideal S512x10 .f32) (h : S512x10.Reduces [1] S512) (hφ : FKind.Formats FTy.f32)
    (hm : (0xFF800000#32 : BitVec 32) = 0xFF800000#32) (ha : (0x00000000#32 : BitVec 32) = 0x00000000#32)
    (hsc : S512.ShapeCasts S512x1) (hbc : S512x1.Broadcasts S512x10) (g : Fin 512) (cls : Fin 10) :
    subf (subf L (broadcastTo S512x10 (shapeCast S512x1 (multiReduction .maximumf [1] S512 L 0xFF800000#32 h hφ hm) hsc) hbc))
        (broadcastTo S512x10 (log (shapeCast S512x1 (multiReduction .add [1] S512
          (exp (subf L (broadcastTo S512x10 (shapeCast S512x1 (multiReduction .maximumf [1] S512 L 0xFF800000#32 h hφ hm) hsc) hbc)))
          0x00000000#32 h hφ ha) hsc)) hbc) (ix2 g cls)
      = (L (ix2 g cls) - (Finset.univ : Finset (Fin 10)).fold max Cert.Spec.ninf32 (fun k => L (ix2 g k)))
          - Ideal.log (∑ k : Fin 10, Ideal.exp (L (ix2 g k) - (Finset.univ : Finset (Fin 10)).fold max Cert.Spec.ninf32 (fun k' => L (ix2 g k')))) := by
  simp only [subf_apply, logV_apply, Cert.Spec.broadcastTo_col_apply (by decide : (512 : ℕ) ≠ 1), Cert.Spec.shapeCast_col_apply]
  rw [rowSum_apply _ h hφ ha g]
  simp only [subf_apply, expV_apply, Cert.Spec.broadcastTo_col_apply (by decide : (512 : ℕ) ≠ 1), Cert.Spec.shapeCast_col_apply,
    rowMax_apply L h hφ hm g]

/-- Region 4's stored value at graph `g`, class `cls`. -/
theorem pay4_apply (x : Vec Ideal S512x256 .f32) (ic : Vec Ideal S512x1 .f32) (w : Vec Ideal S256x10 .f32) (b : Vec Ideal S1x10 .f32)
    (g : Fin 512) (cls : Fin 10) :
    k4_pay1 (F := Ideal) x ic w b (ix2 g cls)
      = Cert.Spec.headRow (fun f => x (ix2 g f) * ic (ix2 g (0 : Fin 1))) (fun f c' => w (ix2 f c')) (fun c' => b (ix2 (0 : Fin 1) c')) cls := by
  unfold k4_pay1
  simp only [shapeCast_self]
  refine (tail_apply _ _ _ _ _ _ _ g cls).trans ?_
  unfold Cert.Spec.headRow Cert.Spec.logitRow
  simp only [addf_apply, mulf_apply, truncf_apply, mmC_apply,
    Cert.Spec.broadcastTo_row_apply (by decide : (10 : ℕ) ≠ 1), Cert.Spec.broadcastTo_col_apply (by decide : (512 : ℕ) ≠ 1)]

end Cert.KernelIdeal.Val

end
-- ==== Proof.Val.Final4.lean ====
/-
  The last region, on the extended reals: its output array after the run is ONE function of the arrays the region finds —
  at graph `i 0`, class `i 1`, the graph's summed features times its reciprocal count through the classifier and the
  log-softmax (`Cert.Spec.headFun`). The grid has one point, whose blocks are the whole arrays.
-/
import proofs.«135148_j25074019074551_1_alg».proof.Proof.KI.Region4
import proofs.«135148_j25074019074551_1_alg».proof.Proof.Val.PayHead

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b)) (c : Dev nD)

theorem hz4 : (![0, 0] : Fin 2 → Nat) = fun _ => 0 := funext fun a => by fin_cases a <;> rfl

/-- Every window's one block starts at the array's origin. -/
theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-! ## Each window's block, read -/

theorem read4_0 (t : Fin cfg4.N) (a : Fin 512) (k : Fin 256) : iblk4 V c 0 t (ix2 a k) = V c main_v87 (ix2 a k) := by
  obtain ⟨e00, e01, e10, e11, e20, e21, e30, e31, e40, e41⟩ := idx_facts4 t
  show V c main_v87 (((cfg4.win 0).blk t).view.emb (ix2 a k)) = _
  refine congrArg (V c main_v87) (funext fun d => Fin.ext ?_)
  match d with
  | ⟨0, _⟩ => show win4_0.index t (0 : Fin 2) * 512 + 1 * a.val = a.val; omega
  | ⟨1, _⟩ => show win4_0.index t (1 : Fin 2) * 256 + 1 * k.val = k.val; omega
theorem read4_1 (t : Fin cfg4.N) (a : Fin 512) (k : Fin 1) : iblk4 V c 1 t (ix2 a k) = V c main_v95 (ix2 a k) := by
  obtain ⟨e00, e01, e10, e11, e20, e21, e30, e31, e40, e41⟩ := idx_facts4 t
  show V c main_v95 (((cfg4.win 1).blk t).view.emb (ix2 a k)) = _
  refine congrArg (V c main_v95) (funext fun d => Fin.ext ?_)
  match d with
  | ⟨0, _⟩ => show win4_1.index t (0 : Fin 2) * 512 + 1 * a.val = a.val; omega
  | ⟨1, _⟩ => show win4_1.index t (1 : Fin 2) * 1 + 1 * k.val = k.val; omega
theorem read4_2 (t : Fin cfg4.N) (a : Fin 256) (k : Fin 10) : iblk4 V c 2 t (ix2 a k) = V c main_arg11 (ix2 a k) := by
  obtain ⟨e00, e01, e10, e11, e20, e21, e30, e31, e40, e41⟩ := idx_facts4 t
  show V c main_arg11 (((cfg4.win 2).blk t).view.emb (ix2 a k)) = _
  refine congrArg (V c main_arg11) (funext fun d => Fin.ext ?_)
  match d with
  | ⟨0, _⟩ => show win4_2.index t (0 : Fin 2) * 256 + 1 * a.val = a.val; omega
  | ⟨1, _⟩ => show win4_2.index t (1 : Fin 2) * 10 + 1 * k.val = k.val; omega
theorem read4_3 (t : Fin cfg4.N) (a : Fin 1) (k : Fin 10) : iblk4 V c 3 t (ix2 a k) = V c main_v96 (ix2 a k) := by
  obtain ⟨e00, e01, e10, e11, e20, e21, e30, e31, e40, e41⟩ := idx_facts4 t
  show V c main_v96 (((cfg4.win 3).blk t).view.emb (ix2 a k)) = _
  refine congrArg (V c main_v96) (funext fun d => Fin.ext ?_)
  match d with
  | ⟨0, _⟩ => show win4_3.index t (0 : Fin 2) * 1 + 1 * a.val = a.val; omega
  | ⟨1, _⟩ => show win4_3.index t (1 : Fin 2) * 10 + 1 * k.val = k.val; omega
/-- Where the output block's entry sits in the array: where it says. -/
theorem emb4_4 (t : Fin cfg4.N) (g : Fin 512) (q : Fin 10) : ((cfg4.win 4).blk t).view.emb (ix2 g q) = ix2 g q := by
  obtain ⟨e00, e01, e10, e11, e20, e21, e30, e31, e40, e41⟩ := idx_facts4 t
  refine funext fun d => Fin.ext ?_
  match d with
  | ⟨0, _⟩ => show win4_4.index t (0 : Fin 2) * 512 + 1 * g.val = g.val; omega
  | ⟨1, _⟩ => show win4_4.index t (1 : Fin 2) * 10 + 1 * q.val = q.val; omega

/-! ## The one block covers the output array -/

theorem mem_blk4 (t : Fin cfg4.N) (i : S512x10.Idx) :
    i ∈ ((cfg4.win 4).blk t).view.set ↔ ∀ a : Fin 2, win4_4.index t a * S512x10.size a ≤ (i a).val ∧ (i a).val < win4_4.index t a * S512x10.size a + S512x10.size a := by
  show i ∈ ((View.whole main_v97).slice (win4_4.rect t)).set ↔ _
  rw [View.set_slice_whole, Rect.mem_set_unit]
  exact Iff.rfl

theorem cover4 (i : S512x10.Idx) : ∃ t : Fin cfg4.N, (cfg4.win 4).flush t = true ∧ i ∈ ((cfg4.win 4).blk t).view.set := by
  have hi0 : (i 0).val < 512 := (i 0).isLt
  have hi1 : (i 1).val < 10 := (i 1).isLt
  obtain ⟨e00, e01, e10, e11, e20, e21, e30, e31, e40, e41⟩ := idx_facts4 t4_0
  refine ⟨t4_0, flush4_4 t4_0, ?_⟩
  rw [mem_blk4]
  intro a
  match a with
  | ⟨0, _⟩ => show win4_4.index t4_0 (0 : Fin 2) * 512 ≤ (i 0).val ∧ (i 0).val < win4_4.index t4_0 (0 : Fin 2) * 512 + 512; omega
  | ⟨1, _⟩ => show win4_4.index t4_0 (1 : Fin 2) * 10 ≤ (i 1).val ∧ (i 1).val < win4_4.index t4_0 (1 : Fin 2) * 10 + 10; omega

/-! ## What the point writes back, the array after the run -/

section
variable (S : S512x256.Idx → EReal) (IC : S512x1.Idx → EReal) (W : S256x10.Idx → EReal) (B : S10.Idx → EReal)
  (hsc : S10.ShapeCasts S1x10)
  (h0 : (V c main_v87 : S512x256.Idx → EReal) = S) (h1 : (V c main_v95 : S512x1.Idx → EReal) = IC)
  (h2 : (V c main_arg11 : S256x10.Idx → EReal) = W) (h3 : (V c main_v96 : S1x10.Idx → EReal) = shapeCast S1x10 B hsc)
include h0 h1 h2 h3

theorem flushed4_eq (t : Fin cfg4.N) :
    (dat4 V c).flushed 4 t = ((cfg4.win 4).blk t).view.read (Elt Ideal) (Cert.Spec.headFun S IC W B) := by
  show (cfg4.win 4).cut (grid4.coords t) ((dat4 V c).after 4 t) = _
  rw [after4_4]
  unfold out4_4
  rw [View.canon_unit_zero hz4]
  simp only [View.ld_unit_zero (S := S512x256) hz4, View.ld_unit_zero (S := S512x1) hz4, View.ld_unit_zero (S := S256x10) hz4,
    View.ld_unit_zero (S := S1x10) hz4]
  funext j
  obtain ⟨g, q, rfl⟩ : ∃ (g : Fin 512) (q : Fin 10), j = ix2 g q := ⟨j 0, j 1, eq_ix2 j⟩
  refine (pay4_apply (iblk4 V c 0 t) (iblk4 V c 1 t) (iblk4 V c 2 t) (iblk4 V c 3 t) g q).trans ?_
  show _ = Cert.Spec.headFun S IC W B (((cfg4.win 4).blk t).view.emb (ix2 g q))
  rw [emb4_4]
  unfold Cert.Spec.headFun
  simp only [read4_0, read4_1, read4_2, read4_3]
  rw [h0, h1, h2, h3]
  simp only [shapeCast_a_1a_apply]

/-- THE RESULT ARRAY after the run is the head's function of the arrays the region finds. -/
theorem final4 : (dat4 V c).arrAt 4 cfg4.N = Cert.Spec.headFun S IC W B :=
  (dat4 V c).arrAt_eq_of_cover 4 (Cert.Spec.headFun S IC W B) (fun t _ => flushed4_eq V c S IC W B hsc h0 h1 h2 h3 t) cover4

end

end Cert.KernelIdeal.Val

end
-- ==== Proof.Val.RefLayers.lean ====
/-
  The reference's four layer outputs read at an index, on the extended reals: node `r`'s row of the layer's input
  (the previous features plus the neighbours' sum) through the layer's network — the same formula the kernel's
  regions store (`Cert.Spec.mlpRow`). Each is the chain of the reference's operations read one at a time.
-/
import proofs.«135148_j25074019074551_1_alg».proof.Proof.Gen.ReferenceIdeal.Read
import proofs.«135148_j25074019074551_1_alg».proof.Proof.Val.Spec

set_option maxRecDepth 16384

noncomputable section

namespace Cert.ReferenceIdeal.Layers

open Cert.ReferenceIdeal Cert.ReferenceIdeal.Read
open Idealize.ShloMosaic Idealize.ShloMosaic.ValueIdx

/-! ## Layer 0 -/

theorem l0_lidx2 (r : Fin 50000) (q k : Fin 64) : lidx_main_v20 (ix2 r q) k = ix2 r k :=
  funext fun a => Fin.ext (by match a with | ⟨0, _⟩ => rfl | ⟨1, _⟩ => rfl)
theorem l0_ridx2 (r : Fin 50000) (q k : Fin 64) : ridx_main_v20 (ix2 r q) k = ix2 k q :=
  funext fun a => Fin.ext (by match a with | ⟨0, _⟩ => rfl | ⟨1, _⟩ => rfl)
theorem l0_lidx1 (r : Fin 50000) (k : Fin 64) (a : Fin 128) : lidx_main_v15 (ix2 r k) a = ix2 r a :=
  funext fun d => Fin.ext (by match d with | ⟨0, _⟩ => rfl | ⟨1, _⟩ => rfl)
theorem l0_ridx1 (r : Fin 50000) (k : Fin 64) (a : Fin 128) : ridx_main_v15 (ix2 r k) a = ix2 a k :=
  funext fun d => Fin.ext (by match d with | ⟨0, _⟩ => rfl | ⟨1, _⟩ => rfl)
theorem l0_bidx1 (r : Fin 50000) (k : Fin 64) : idx_main_v16 (idx_main_v17 (ix2 r k)) = ix1 k :=
  funext fun d => Fin.ext (by match d with | ⟨0, _⟩ => rfl)
theorem l0_bidx2 (r : Fin 50000) (q : Fin 64) : idx_main_v21 (idx_main_v22 (ix2 r q)) = ix1 q :=
  funext fun d => Fin.ext (by match d with | ⟨0, _⟩ => rfl)

/-- The reference's layer-0 output at node `r`, feature `q`: row `r` of the layer's input through the layer's network. -/
theorem layer0_apply (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (r : Fin 50000) (q : Fin 64) :
    val_main_v24 (F := Ideal) x0 x1 x3 x4 x5 x6 (ix2 r q)
      = Cert.Spec.mlpRow (fun a => val_main_v14 (F := Ideal) x0 x1 (ix2 r a)) (fun a k => x3 (ix2 a k)) (fun k => x4 (ix1 k))
          (fun k q => x5 (ix2 k q)) (fun q => x6 (ix1 q)) q := by
  unfold Cert.Spec.mlpRow
  simp only [val_main_v24_apply, val_main_v23_apply, val_main_v20_apply, val_main_v19_apply, val_main_v18_apply, val_main_v15_apply,
    val_main_v17_apply, val_main_v16_apply, val_main_v22_apply, val_main_v21_apply,
    val_main_call0_v0_apply, val_main_call0_cst_apply, val_main_call1_v0_apply, val_main_call1_cst_apply,
    l0_lidx2, l0_ridx2, l0_lidx1, l0_ridx1, l0_bidx1, l0_bidx2]
  rfl

/-! ## Layer 1 -/

theorem l1_lidx2 (r : Fin 50000) (q k : Fin 64) : lidx_main_v49 (ix2 r q) k = ix2 r k :=
  funext fun a => Fin.ext (by match a with | ⟨0, _⟩ => rfl | ⟨1, _⟩ => rfl)
theorem l1_ridx2 (r : Fin 50000) (q k : Fin 64) : ridx_main_v49 (ix2 r q) k = ix2 k q :=
  funext fun a => Fin.ext (by match a with | ⟨0, _⟩ => rfl | ⟨1, _⟩ => rfl)
theorem l1_lidx1 (r : Fin 50000) (k : Fin 64) (a : Fin 64) : lidx_main_v44 (ix2 r k) a = ix2 r a :=
  funext fun d => Fin.ext (by match d with | ⟨0, _⟩ => rfl | ⟨1, _⟩ => rfl)
theorem l1_ridx1 (r : Fin 50000) (k : Fin 64) (a : Fin 64) : ridx_main_v44 (ix2 r k) a = ix2 a k :=
  funext fun d => Fin.ext (by match d with | ⟨0, _⟩ => rfl | ⟨1, _⟩ => rfl)
theorem l1_bidx1 (r : Fin 50000) (k : Fin 64) : idx_main_v45 (idx_main_v46 (ix2 r k)) = ix1 k :=
  funext fun d => Fin.ext (by match d with | ⟨0, _⟩ => rfl)
theorem l1_bidx2 (r : Fin 50000) (q : Fin 64) : idx_main_v50 (idx_main_v51 (ix2 r q)) = ix1 q :=
  funext fun d => Fin.ext (by match d with | ⟨0, _⟩ => rfl)

/-- The reference's layer-1 output at node `r`, feature `q`: row `r` of the layer's input through the layer's network. -/
theorem layer1_apply (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (r : Fin 50000) (q : Fin 64) :
    val_main_v53 (F := Ideal) x0 x1 x3 x4 x5 x6 x7 x8 x9 x10 (ix2 r q)
      = Cert.Spec.mlpRow (fun a => val_main_v43 (F := Ideal) x0 x1 x3 x4 x5 x6 (ix2 r a)) (fun a k => val_main_v26 (F := Ideal) x7 (ix2 a k)) (fun k => val_main_v28 (F := Ideal) x8 (ix1 k))
          (fun k q => val_main_v30 (F := Ideal) x9 (ix2 k q)) (fun q => val_main_v32 (F := Ideal) x10 (ix1 q)) q := by
  unfold Cert.Spec.mlpRow
  simp only [val_main_v53_apply, val_main_v52_apply, val_main_v49_apply, val_main_v48_apply, val_main_v47_apply, val_main_v44_apply,
    val_main_v46_apply, val_main_v45_apply, val_main_v51_apply, val_main_v50_apply,
    val_main_call2_v0_apply, val_main_call2_cst_apply, val_main_call3_v0_apply, val_main_call3_cst_apply,
    l1_lidx2, l1_ridx2, l1_lidx1, l1_ridx1, l1_bidx1, l1_bidx2]
  rfl

/-! ## Layer 2 -/

theorem l2_lidx2 (r : Fin 50000) (q k : Fin 64) : lidx_main_v78 (ix2 r q) k = ix2 r k :=
  funext fun a => Fin.ext (by match a with | ⟨0, _⟩ => rfl | ⟨1, _⟩ => rfl)
theorem l2_ridx2 (r : Fin 50000) (q k : Fin 64) : ridx_main_v78 (ix2 r q) k = ix2 k q :=
  funext fun a => Fin.ext (by match a with | ⟨0, _⟩ => rfl | ⟨1, _⟩ => rfl)
theorem l2_lidx1 (r : Fin 50000) (k : Fin 64) (a : Fin 64) : lidx_main_v73 (ix2 r k) a = ix2 r a :=
  funext fun d => Fin.ext (by match d with | ⟨0, _⟩ => rfl | ⟨1, _⟩ => rfl)
theorem l2_ridx1 (r : Fin 50000) (k : Fin 64) (a : Fin 64) : ridx_main_v73 (ix2 r k) a = ix2 a k :=
  funext fun d => Fin.ext (by match d with | ⟨0, _⟩ => rfl | ⟨1, _⟩ => rfl)
theorem l2_bidx1 (r : Fin 50000) (k : Fin 64) : idx_main_v74 (idx_main_v75 (ix2 r k)) = ix1 k :=
  funext fun d => Fin.ext (by match d with | ⟨0, _⟩ => rfl)
theorem l2_bidx2 (r : Fin 50000) (q : Fin 64) : idx_main_v79 (idx_main_v80 (ix2 r q)) = ix1 q :=
  funext fun d => Fin.ext (by match d with | ⟨0, _⟩ => rfl)

/-- The reference's layer-2 output at node `r`, feature `q`: row `r` of the layer's input through the layer's network. -/
theorem layer2_apply (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (r : Fin 50000) (q : Fin 64) :
    val_main_v82 (F := Ideal) x0 x1 x3 x4 x5 x6 x7 x8 x9 x10 (ix2 r q)
      = Cert.Spec.mlpRow (fun a => val_main_v72 (F := Ideal) x0 x1 x3 x4 x5 x6 x7 x8 x9 x10 (ix2 r a)) (fun a k => val_main_v55 (F := Ideal) x7 (ix2 a k)) (fun k => val_main_v57 (F := Ideal) x8 (ix1 k))
          (fun k q => val_main_v59 (F := Ideal) x9 (ix2 k q)) (fun q => val_main_v61 (F := Ideal) x10 (ix1 q)) q := by
  unfold Cert.Spec.mlpRow
  simp only [val_main_v82_apply, val_main_v81_apply, val_main_v78_apply, val_main_v77_apply, val_main_v76_apply, val_main_v73_apply,
    val_main_v75_apply, val_main_v74_apply, val_main_v80_apply, val_main_v79_apply,
    val_main_call4_v0_apply, val_main_call4_cst_apply, val_main_call5_v0_apply, val_main_call5_cst_apply,
    l2_lidx2, l2_ridx2, l2_lidx1, l2_ridx1, l2_bidx1, l2_bidx2]
  rfl

/-! ## Layer 3 -/

theorem l3_lidx2 (r : Fin 50000) (q k : Fin 64) : lidx_main_v107 (ix2 r q) k = ix2 r k :=
  funext fun a => Fin.ext (by match a with | ⟨0, _⟩ => rfl | ⟨1, _⟩ => rfl)
theorem l3_ridx2 (r : Fin 50000) (q k : Fin 64) : ridx_main_v107 (ix2 r q) k = ix2 k q :=
  funext fun a => Fin.ext (by match a with | ⟨0, _⟩ => rfl | ⟨1, _⟩ => rfl)
theorem l3_lidx1 (r : Fin 50000) (k : Fin 64) (a : Fin 64) : lidx_main_v102 (ix2 r k) a = ix2 r a :=
  funext fun d => Fin.ext (by match d with | ⟨0, _⟩ => rfl | ⟨1, _⟩ => rfl)
theorem l3_ridx1 (r : Fin 50000) (k : Fin 64) (a : Fin 64) : ridx_main_v102 (ix2 r k) a = ix2 a k :=
  funext fun d => Fin.ext (by match d with | ⟨0, _⟩ => rfl | ⟨1, _⟩ => rfl)
theorem l3_bidx1 (r : Fin 50000) (k : Fin 64) : idx_main_v103 (idx_main_v104 (ix2 r k)) = ix1 k :=
  funext fun d => Fin.ext (by match d with | ⟨0, _⟩ => rfl)
theorem l3_bidx2 (r : Fin 50000) (q : Fin 64) : idx_main_v108 (idx_main_v109 (ix2 r q)) = ix1 q :=
  funext fun d => Fin.ext (by match d with | ⟨0, _⟩ => rfl)

/-- The reference's layer-3 output at node `r`, feature `q`: row `r` of the layer's input through the layer's network. -/
theorem layer3_apply (x0 : (⟨S50000x128, .f32⟩ : BufTy).Contents (Elt Ideal)) (x1 : (⟨S2x800000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (r : Fin 50000) (q : Fin 64) :
    val_main_v111 (F := Ideal) x0 x1 x3 x4 x5 x6 x7 x8 x9 x10 (ix2 r q)
      = Cert.Spec.mlpRow (fun a => val_main_v101 (F := Ideal) x0 x1 x3 x4 x5 x6 x7 x8 x9 x10 (ix2 r a)) (fun a k => val_main_v84 (F := Ideal) x7 (ix2 a k)) (fun k => val_main_v86 (F := Ideal) x8 (ix1 k))
          (fun k q => val_main_v88 (F := Ideal) x9 (ix2 k q)) (fun q => val_main_v90 (F := Ideal) x10 (ix1 q)) q := by
  unfold Cert.Spec.mlpRow
  simp only [val_main_v111_apply, val_main_v110_apply, val_main_v107_apply, val_main_v106_apply, val_main_v105_apply, val_main_v102_apply,
    val_main_v104_apply, val_main_v103_apply, val_main_v109_apply, val_main_v108_apply,
    val_main_call6_v0_apply, val_main_call6_cst_apply, val_main_call7_v0_apply, val_main_call7_cst_apply,
    l3_lidx2, l3_ridx2, l3_lidx1, l3_ridx1, l3_bidx1, l3_bidx2]
  rfl

end Cert.ReferenceIdeal.Layers

end
-- ==== Proof.Val.RefHead.lean ====
/-
  The reference's result read at an index, on the extended reals: graph `g`'s summed features divided by its clipped node
  count, through the classifier, then the log-softmax of the row — `Cert.Spec.headRow` of that pooled row. The reference
  guards its row maximum with one more maximum against minus infinity, and starts its row sum from zero; neither changes
  the value.
-/
import proofs.«135148_j25074019074551_1_alg».proof.Proof.Gen.ReferenceIdeal.Read
import proofs.«135148_j25074019074551_1_alg».proof.Proof.Val.Spec
import Mathlib.Data.Finset.Fold

set_option maxRecDepth 16384

noncomputable section

namespace Cert.ReferenceIdeal.Head

open Cert.ReferenceIdeal Cert.ReferenceIdeal.Gen Cert.ReferenceIdeal.Read
open Idealize.ShloMosaic Idealize.ShloMosaic.ValueIdx

theorem hred : S512x10.Reduces [1] S512 := by decide

theorem lift_row (g : Fin 512) (k : Fin (S512x10.size 1)) : hred.lift (ix1 g) k = ix2 g (⟨k.val, k.isLt⟩ : Fin 10) := by
  funext d; apply Fin.ext
  fin_cases d <;> rfl

/-- The maximum of a value with a fold of maxima that starts from it is the fold. -/
theorem max_fold_self {ι : Type} (a : EReal) (f : ι → EReal) (s : Finset ι) : max a (s.fold max a f) = s.fold max a f :=
  max_eq_right ((Finset.le_fold_max (s := s) (f := f) (b := a) (c := a)).mpr (Or.inl le_rfl))

theorem h_lidx (g : Fin 512) (c' : Fin 10) (k : Fin 256) : lidx_main_v124 (ix2 g c') k = ix2 g k :=
  funext fun a => Fin.ext (by match a with | ⟨0, _⟩ => rfl | ⟨1, _⟩ => rfl)
theorem h_ridx (g : Fin 512) (c' : Fin 10) (k : Fin 256) : ridx_main_v124 (ix2 g c') k = ix2 k c' :=
  funext fun a => Fin.ext (by match a with | ⟨0, _⟩ => rfl | ⟨1, _⟩ => rfl)
theorem h_cidx (g : Fin 512) (f : Fin 256) : idx_main_v121 (idx_main_v122 (ix2 g f)) = ix1 g :=
  funext fun a => Fin.ext (by match a with | ⟨0, _⟩ => rfl)
theorem h_bidx (g : Fin 512) (c' : Fin 10) : idx_main_v125 (idx_main_v126 (ix2 g c')) = ix1 c' :=
  funext fun a => Fin.ext (by match a with | ⟨0, _⟩ => rfl)
theorem h_midx (g : Fin 512) (c' : Fin 10) : idx_main_call9_v3 (idx_main_call9_v4 (ix2 g c')) = ix1 g :=
  funext fun a => Fin.ext (by match a with | ⟨0, _⟩ => rfl)
theorem h_lidx2 (g : Fin 512) (c' : Fin 10) : idx_main_call9_v8 (idx_main_call9_v10 (ix2 g c')) = ix1 g :=
  funext fun a => Fin.ext (by match a with | ⟨0, _⟩ => rfl)
theorem h_sidx (g : Fin 512) (k : Fin 10) : idx_main_call9_v7 (ix1 g) k = ix2 g k :=
  funext fun a => Fin.ext (by match a with | ⟨0, _⟩ => rfl | ⟨1, _⟩ => rfl)

/-- The reference's logits at graph `g`, class `c'`. -/
theorem logit_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S256x10, .f32⟩ : BufTy).Contents (Elt Ideal)) (x12 : (⟨S10, .f32⟩ : BufTy).Contents (Elt Ideal)) (g : Fin 512) (c' : Fin 10) :
    val_main_v127 (F := Ideal) x0 x1 x2 x3 x4 x5 x6 x7 x8 x9 x10 x11 x12 (ix2 g c')
      = Cert.Spec.logitRow (fun f => Ideal.div (val_main_v115 (F := Ideal) x0 x1 x2 x3 x4 x5 x6 x7 x8 x9 x10 (ix2 g f)) (val_main_v120 (F := Ideal) x2 (ix1 g))) (fun f c'' => x11 (ix2 f c'')) (fun c'' => x12 (ix1 c'')) c' := by
  unfold Cert.Spec.logitRow
  simp only [val_main_v127_apply, val_main_v124_apply, val_main_v123_apply, val_main_v122_apply, val_main_v121_apply,
    val_main_v126_apply, val_main_v125_apply, h_lidx, h_ridx, h_cidx, h_bidx]
  rfl

/-- The reference's row maximum (a fold of maxima from minus infinity over the ten classes). -/
theorem rowmax_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S256x10, .f32⟩ : BufTy).Contents (Elt Ideal)) (x12 : (⟨S10, .f32⟩ : BufTy).Contents (Elt Ideal)) (g : Fin 512) :
    val_main_call9_v0 (F := Ideal) x0 x1 x2 x3 x4 x5 x6 x7 x8 x9 x10 x11 x12 (ix1 g)
      = (Finset.univ : Finset (Fin 10)).fold max Cert.Spec.ninf32 (fun k => val_main_v127 (F := Ideal) x0 x1 x2 x3 x4 x5 x6 x7 x8 x9 x10 x11 x12 (ix2 g k)) := by
  unfold val_main_call9_v0
  rw [Host.reduce_eq_fold_single FloatOps.maximumf _ _ reducesTo_S512x10_S512_d1 hred h_S_]
  exact congrArg (fun f : Fin 10 → EReal => (Finset.univ : Finset (Fin 10)).fold max Cert.Spec.ninf32 f)
    (funext fun k => congrArg (val_main_v127 (F := Ideal) x0 x1 x2 x3 x4 x5 x6 x7 x8 x9 x10 x11 x12) (lift_row g k))

/-- THE REFERENCE'S RESULT at graph `g`, class `cls`. -/
theorem head_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 : (⟨S3x64x64, .f32⟩ : BufTy).Contents (Elt Ideal)) (x10 : (⟨S3x64, .f32⟩ : BufTy).Contents (Elt Ideal)) (x11 : (⟨S256x10, .f32⟩ : BufTy).Contents (Elt Ideal)) (x12 : (⟨S10, .f32⟩ : BufTy).Contents (Elt Ideal)) (g : Fin 512) (cls : Fin 10) :
    val_main_v128 (F := Ideal) x0 x1 x2 x3 x4 x5 x6 x7 x8 x9 x10 x11 x12 (ix2 g cls)
      = Cert.Spec.headRow (fun f => Ideal.div (val_main_v115 (F := Ideal) x0 x1 x2 x3 x4 x5 x6 x7 x8 x9 x10 (ix2 g f)) (val_main_v120 (F := Ideal) x2 (ix1 g))) (fun f c' => x11 (ix2 f c')) (fun c' => x12 (ix1 c')) cls := by
  unfold Cert.Spec.headRow
  simp only [val_main_v128_apply, val_main_call9_v10_apply, val_main_call9_v9_apply, val_main_call9_v8_apply, val_main_call9_v7_apply,
    val_main_call9_v6_apply, val_main_call9_v5_apply, val_main_call9_v4_apply, val_main_call9_v3_apply, val_main_call9_v2_apply,
    val_main_call9_v1_apply, val_main_call9_cst_0_apply, val_main_call9_cst_1_apply, h_midx, h_lidx2, h_sidx, rowmax_apply, logit_apply]
  simp only [Ideal.subf_def, Ideal.maximumf_def, Ideal.hostUnary_log_def, Ideal.hostUnary_exp_def, Ideal.ofBits_def, max_fold_self,
    Ideal.ofBits_zero_f32, zero_add]

end Cert.ReferenceIdeal.Head

end
-- ==== Proof.Val.Recip.lean ====
/-
  Multiplying by a reciprocal is dividing, on the extended reals, whenever the divisor is not zero: off zero the
  quotient `s / c` is `s · c⁻¹`, and `1 / c` is `1 · c⁻¹ = c⁻¹` — at the infinities too, with no finiteness asked.
-/
import Idealize.ShloMosaic.PureOps.Ideal
import Idealize.ShloMosaic.PureOps.Ideal.Laws

noncomputable section

namespace Cert.Spec

open Idealize.ShloMosaic

/-- The word `0x3F800000` is the number one. -/
theorem one32_eq : Ideal.ofBits .f32 0x3F800000#32 = 1 := by
  simp [Ideal.ofBits, Ideal.ieee, -EReal.coe_mul]
  norm_num

/-- `s · (1 / c) = s / c` for `c ≠ 0`. -/
theorem mul_one_div (s c : EReal) (hc : c ≠ 0) : s * Ideal.div (Ideal.ofBits .f32 0x3F800000#32) c = Ideal.div s c := by
  unfold Ideal.div
  rw [if_neg hc, if_neg hc, one32_eq, one_mul]

/-- A maximum with one is not zero. -/
theorem max_one_ne_zero (x : EReal) : max (Ideal.ofBits .f32 0x3F800000#32) x ≠ 0 := by
  rw [one32_eq]
  exact ne_of_gt (lt_of_lt_of_le zero_lt_one (le_max_left _ _))

end Cert.Spec

end
-- ==== Proof.Val.RefClip.lean ====
/-
  The reference's clipped node count of a graph is the maximum of one and the count, so it is not zero.
-/
import proofs.«135148_j25074019074551_1_alg».proof.Proof.Gen.ReferenceIdeal.Read
import proofs.«135148_j25074019074551_1_alg».proof.Proof.Val.Recip

set_option maxRecDepth 16384

noncomputable section

namespace Cert.ReferenceIdeal.Head

open Cert.ReferenceIdeal Cert.ReferenceIdeal.Read
open Idealize.ShloMosaic Idealize.ShloMosaic.ValueIdx

theorem clip_ne_zero (x2 : (⟨S50000, .i32⟩ : BufTy).Contents (Elt Ideal)) (g : Fin 512) : val_main_v120 (F := Ideal) x2 (ix1 g) ≠ 0 := by
  rw [val_main_v120_apply, val_main_call8_v1_apply, val_main_call8_v0_apply, val_main_cst_13_apply]
  exact Cert.Spec.max_one_ne_zero _

end Cert.ReferenceIdeal.Head

end
-- ==== Proof.Val.Chain.lean ====
/-
  The kernel program's buffers, boundary by boundary, are the reference's stages of the same launch arguments (on the
  extended reals). A host stretch computes the same operations as the reference does, so what it leaves is the
  reference's stage once what it reads is; a region's output array is the layer's function of what the region finds,
  which is the reference's layer read at an index. A buffer nothing writes between two boundaries keeps its contents.
-/
import proofs.«135148_j25074019074551_1_alg».proof.Proof.KI.Args
import proofs.«135148_j25074019074551_1_alg».proof.Proof.Val.Final0
import proofs.«135148_j25074019074551_1_alg».proof.Proof.Val.Final1
import proofs.«135148_j25074019074551_1_alg».proof.Proof.Val.Final2
import proofs.«135148_j25074019074551_1_alg».proof.Proof.Val.Final3
import proofs.«135148_j25074019074551_1_alg».proof.Proof.Val.Final4
import proofs.«135148_j25074019074551_1_alg».proof.Proof.Val.RefLayers
import proofs.«135148_j25074019074551_1_alg».proof.Proof.Val.RefHead
import proofs.«135148_j25074019074551_1_alg».proof.Proof.Val.RefClip
import Idealize.ShloMosaic.Lib.StableHlo.Run

set_option maxRecDepth 16384

noncomputable section

namespace Cert.KernelIdeal.Val

open Cert.KernelIdeal Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ) (c : Dev nD)

/-! ## Region 0 -/

set_option maxHeartbeats 1000000 in
theorem e0_z : (V1 m c main_v14 : S50000x128.Idx → EReal) = Cert.ReferenceIdeal.Read.val_main_v14 (F := Ideal) (m ((c : Thread nD τ).loc main_arg0)) (m ((c : Thread nD τ).loc main_arg1)) := by
  show StableHlo.after Gen.hostOps0 (fun b => m (c, b)) (Proc.devRef .tc main_v14) = _
  after_results
  rfl
set_option maxHeartbeats 1000000 in
theorem e0_w1 : (V1 m c main_arg3 : S128x64.Idx → EReal) = (m ((c : Thread nD τ).loc main_arg3)) := by
  show StableHlo.after Gen.hostOps0 (fun b => m (c, b)) (Proc.devRef .tc main_arg3) = _
  after_results
set_option maxHeartbeats 1000000 in
theorem e0_b1 : (V1 m c main_v15 : S1x64.Idx → EReal) = shapeCast S1x64 (m ((c : Thread nD τ).loc main_arg4)) Gen.shapeCasts_S64_S1x64 := by
  show StableHlo.after Gen.hostOps0 (fun b => m (c, b)) (Proc.devRef .tc main_v15) = _
  after_results
  rfl
set_option maxHeartbeats 1000000 in
theorem e0_w2 : (V1 m c main_arg5 : S64x64.Idx → EReal) = (m ((c : Thread nD τ).loc main_arg5)) := by
  show StableHlo.after Gen.hostOps0 (fun b => m (c, b)) (Proc.devRef .tc main_arg5) = _
  after_results
set_option maxHeartbeats 1000000 in
theorem e0_b2 : (V1 m c main_v16 : S1x64.Idx → EReal) = shapeCast S1x64 (m ((c : Thread nD τ).loc main_arg6)) Gen.shapeCasts_S64_S1x64 := by
  show StableHlo.after Gen.hostOps0 (fun b => m (c, b)) (Proc.devRef .tc main_v16) = _
  after_results
  rfl

/-- The first layer's features: region 0's output array is the reference's first layer. -/
theorem out0 : W2 m c (Proc.devRef .tc main_v17) = Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W2_arr m c 5).trans <| (final0 (V1 m) c _ _ _ _ _ Gen.shapeCasts_S64_S1x64 (e0_z m c) (e0_w1 m c) (e0_b1 m c) (e0_w2 m c) (e0_b2 m c)).trans <|
    funext fun i => by
      obtain ⟨r, q, rfl⟩ : ∃ (r : Fin 50000) (q : Fin 64), i = ix2 r q := ⟨i 0, i 1, eq_ix2 i⟩
      exact (Cert.ReferenceIdeal.Layers.layer0_apply _ _ _ _ _ _ r q).symm

set_option maxHeartbeats 1000000 in
/-- The edge sources and targets, computed once by the first host stretch and read by the later ones. -/
theorem src1 : W1 m c (Proc.devRef .tc main_v1) = Cert.ReferenceIdeal.Read.val_main_v1 (F := Ideal) (m ((c : Thread nD τ).loc main_arg1)) := by
  show StableHlo.after Gen.hostOps0 (fun b => m (c, b)) (Proc.devRef .tc main_v1) = _
  after_results
  rfl
set_option maxHeartbeats 1000000 in
theorem dst1 : W1 m c (Proc.devRef .tc main_v3) = Cert.ReferenceIdeal.Read.val_main_v3 (F := Ideal) (m ((c : Thread nD τ).loc main_arg1)) := by
  show StableHlo.after Gen.hostOps0 (fun b => m (c, b)) (Proc.devRef .tc main_v3) = _
  after_results
  rfl

/-! ## Region 1 -/

theorem src2 : W2 m c (Proc.devRef .tc main_v1) = Cert.ReferenceIdeal.Read.val_main_v1 (F := Ideal) (m ((c : Thread nD τ).loc main_arg1)) :=
  ((W2_of_ne m c main_v1 (by decide))).trans (src1 m c)
theorem dst2 : W2 m c (Proc.devRef .tc main_v3) = Cert.ReferenceIdeal.Read.val_main_v3 (F := Ideal) (m ((c : Thread nD τ).loc main_arg1)) :=
  ((W2_of_ne m c main_v3 (by decide))).trans (dst1 m c)
theorem arg7_2 : W2 m c (Proc.devRef .tc main_arg7) = (m ((c : Thread nD τ).loc main_arg7)) :=
  ((W2_of_ne m c main_arg7 (by decide)).trans <| (StableHlo.after_of_writes_sub (r := main_arg7) Gen.hostOps0 (W0 m c) Gen.hostOps0_writes (by decide))).trans rfl
theorem arg8_2 : W2 m c (Proc.devRef .tc main_arg8) = (m ((c : Thread nD τ).loc main_arg8)) :=
  ((W2_of_ne m c main_arg8 (by decide)).trans <| (StableHlo.after_of_writes_sub (r := main_arg8) Gen.hostOps0 (W0 m c) Gen.hostOps0_writes (by decide))).trans rfl
theorem arg9_2 : W2 m c (Proc.devRef .tc main_arg9) = (m ((c : Thread nD τ).loc main_arg9)) :=
  ((W2_of_ne m c main_arg9 (by decide)).trans <| (StableHlo.after_of_writes_sub (r := main_arg9) Gen.hostOps0 (W0 m c) Gen.hostOps0_writes (by decide))).trans rfl
theorem arg10_2 : W2 m c (Proc.devRef .tc main_arg10) = (m ((c : Thread nD τ).loc main_arg10)) :=
  ((W2_of_ne m c main_arg10 (by decide)).trans <| (StableHlo.after_of_writes_sub (r := main_arg10) Gen.hostOps0 (W0 m c) Gen.hostOps0_writes (by decide))).trans rfl

set_option maxHeartbeats 1000000 in
theorem e1_z : (V3 m c main_v36 : S50000x64.Idx → EReal) = Cert.ReferenceIdeal.Read.val_main_v43 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after Gen.hostOps1 (W2 m c) (Proc.devRef .tc main_v36) = _
  after_results
  rw [out0 m c, src2 m c, dst2 m c]
  rfl
set_option maxHeartbeats 1000000 in
theorem e1_w1 : (V3 m c main_v19 : S64x64.Idx → EReal) = Cert.ReferenceIdeal.Read.val_main_v26 (F := Ideal) (m ((c : Thread nD τ).loc main_arg7)) := by
  show StableHlo.after Gen.hostOps1 (W2 m c) (Proc.devRef .tc main_v19) = _
  after_results
  rw [arg7_2 m c]
  rfl
set_option maxHeartbeats 1000000 in
theorem e1_b1 : (V3 m c main_v37 : S1x64.Idx → EReal) = shapeCast S1x64 (Cert.ReferenceIdeal.Read.val_main_v28 (F := Ideal) (m ((c : Thread nD τ).loc main_arg8))) Gen.shapeCasts_S64_S1x64 := by
  show StableHlo.after Gen.hostOps1 (W2 m c) (Proc.devRef .tc main_v37) = _
  after_results
  rw [arg8_2 m c]
  rfl
set_option maxHeartbeats 1000000 in
theorem e1_w2 : (V3 m c main_v23 : S64x64.Idx → EReal) = Cert.ReferenceIdeal.Read.val_main_v30 (F := Ideal) (m ((c : Thread nD τ).loc main_arg9)) := by
  show StableHlo.after Gen.hostOps1 (W2 m c) (Proc.devRef .tc main_v23) = _
  after_results
  rw [arg9_2 m c]
  rfl
set_option maxHeartbeats 1000000 in
theorem e1_b2 : (V3 m c main_v38 : S1x64.Idx → EReal) = shapeCast S1x64 (Cert.ReferenceIdeal.Read.val_main_v32 (F := Ideal) (m ((c : Thread nD τ).loc main_arg10))) Gen.shapeCasts_S64_S1x64 := by
  show StableHlo.after Gen.hostOps1 (W2 m c) (Proc.devRef .tc main_v38) = _
  after_results
  rw [arg10_2 m c]
  rfl

/-- Region 1's output array is the reference's layer 1. -/
theorem out1 : W4 m c (Proc.devRef .tc main_v39) = Cert.ReferenceIdeal.Read.val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m c 5).trans <| (final1 (V3 m) c _ _ _ _ _ Gen.shapeCasts_S64_S1x64 (e1_z m c) (e1_w1 m c) (e1_b1 m c) (e1_w2 m c) (e1_b2 m c)).trans <|
    funext fun i => by
      obtain ⟨r, q, rfl⟩ : ∃ (r : Fin 50000) (q : Fin 64), i = ix2 r q := ⟨i 0, i 1, eq_ix2 i⟩
      exact (Cert.ReferenceIdeal.Layers.layer1_apply _ _ _ _ _ _ _ _ _ _ r q).symm

/-! ## Region 2 -/

theorem src4 : W4 m c (Proc.devRef .tc main_v1) = Cert.ReferenceIdeal.Read.val_main_v1 (F := Ideal) (m ((c : Thread nD τ).loc main_arg1)) :=
  ((W4_of_ne m c main_v1 (by decide)).trans <| (StableHlo.after_of_writes_sub (r := main_v1) Gen.hostOps1 (W2 m c) Gen.hostOps1_writes (by decide)).trans <| (W2_of_ne m c main_v1 (by decide))).trans (src1 m c)
theorem dst4 : W4 m c (Proc.devRef .tc main_v3) = Cert.ReferenceIdeal.Read.val_main_v3 (F := Ideal) (m ((c : Thread nD τ).loc main_arg1)) :=
  ((W4_of_ne m c main_v3 (by decide)).trans <| (StableHlo.after_of_writes_sub (r := main_v3) Gen.hostOps1 (W2 m c) Gen.hostOps1_writes (by decide)).trans <| (W2_of_ne m c main_v3 (by decide))).trans (dst1 m c)
theorem arg7_4 : W4 m c (Proc.devRef .tc main_arg7) = (m ((c : Thread nD τ).loc main_arg7)) :=
  ((W4_of_ne m c main_arg7 (by decide)).trans <| (StableHlo.after_of_writes_sub (r := main_arg7) Gen.hostOps1 (W2 m c) Gen.hostOps1_writes (by decide)).trans <| (W2_of_ne m c main_arg7 (by decide)).trans <| (StableHlo.after_of_writes_sub (r := main_arg7) Gen.hostOps0 (W0 m c) Gen.hostOps0_writes (by decide))).trans rfl
theorem arg8_4 : W4 m c (Proc.devRef .tc main_arg8) = (m ((c : Thread nD τ).loc main_arg8)) :=
  ((W4_of_ne m c main_arg8 (by decide)).trans <| (StableHlo.after_of_writes_sub (r := main_arg8) Gen.hostOps1 (W2 m c) Gen.hostOps1_writes (by decide)).trans <| (W2_of_ne m c main_arg8 (by decide)).trans <| (StableHlo.after_of_writes_sub (r := main_arg8) Gen.hostOps0 (W0 m c) Gen.hostOps0_writes (by decide))).trans rfl
theorem arg9_4 : W4 m c (Proc.devRef .tc main_arg9) = (m ((c : Thread nD τ).loc main_arg9)) :=
  ((W4_of_ne m c main_arg9 (by decide)).trans <| (StableHlo.after_of_writes_sub (r := main_arg9) Gen.hostOps1 (W2 m c) Gen.hostOps1_writes (by decide)).trans <| (W2_of_ne m c main_arg9 (by decide)).trans <| (StableHlo.after_of_writes_sub (r := main_arg9) Gen.hostOps0 (W0 m c) Gen.hostOps0_writes (by decide))).trans rfl
theorem arg10_4 : W4 m c (Proc.devRef .tc main_arg10) = (m ((c : Thread nD τ).loc main_arg10)) :=
  ((W4_of_ne m c main_arg10 (by decide)).trans <| (StableHlo.after_of_writes_sub (r := main_arg10) Gen.hostOps1 (W2 m c) Gen.hostOps1_writes (by decide)).trans <| (W2_of_ne m c main_arg10 (by decide)).trans <| (StableHlo.after_of_writes_sub (r := main_arg10) Gen.hostOps0 (W0 m c) Gen.hostOps0_writes (by decide))).trans rfl

set_option maxHeartbeats 1000000 in
theorem e2_z : (V5 m c main_v58 : S50000x64.Idx → EReal) = Cert.ReferenceIdeal.Read.val_main_v72 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after Gen.hostOps2 (W4 m c) (Proc.devRef .tc main_v58) = _
  after_results
  rw [out1 m c, src4 m c, dst4 m c]
  rfl
set_option maxHeartbeats 1000000 in
theorem e2_w1 : (V5 m c main_v41 : S64x64.Idx → EReal) = Cert.ReferenceIdeal.Read.val_main_v55 (F := Ideal) (m ((c : Thread nD τ).loc main_arg7)) := by
  show StableHlo.after Gen.hostOps2 (W4 m c) (Proc.devRef .tc main_v41) = _
  after_results
  rw [arg7_4 m c]
  rfl
set_option maxHeartbeats 1000000 in
theorem e2_b1 : (V5 m c main_v59 : S1x64.Idx → EReal) = shapeCast S1x64 (Cert.ReferenceIdeal.Read.val_main_v57 (F := Ideal) (m ((c : Thread nD τ).loc main_arg8))) Gen.shapeCasts_S64_S1x64 := by
  show StableHlo.after Gen.hostOps2 (W4 m c) (Proc.devRef .tc main_v59) = _
  after_results
  rw [arg8_4 m c]
  rfl
set_option maxHeartbeats 1000000 in
theorem e2_w2 : (V5 m c main_v45 : S64x64.Idx → EReal) = Cert.ReferenceIdeal.Read.val_main_v59 (F := Ideal) (m ((c : Thread nD τ).loc main_arg9)) := by
  show StableHlo.after Gen.hostOps2 (W4 m c) (Proc.devRef .tc main_v45) = _
  after_results
  rw [arg9_4 m c]
  rfl
set_option maxHeartbeats 1000000 in
theorem e2_b2 : (V5 m c main_v60 : S1x64.Idx → EReal) = shapeCast S1x64 (Cert.ReferenceIdeal.Read.val_main_v61 (F := Ideal) (m ((c : Thread nD τ).loc main_arg10))) Gen.shapeCasts_S64_S1x64 := by
  show StableHlo.after Gen.hostOps2 (W4 m c) (Proc.devRef .tc main_v60) = _
  after_results
  rw [arg10_4 m c]
  rfl

/-- Region 2's output array is the reference's layer 2. -/
theorem out2 : W6 m c (Proc.devRef .tc main_v61) = Cert.ReferenceIdeal.Read.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m c 5).trans <| (final2 (V5 m) c _ _ _ _ _ Gen.shapeCasts_S64_S1x64 (e2_z m c) (e2_w1 m c) (e2_b1 m c) (e2_w2 m c) (e2_b2 m c)).trans <|
    funext fun i => by
      obtain ⟨r, q, rfl⟩ : ∃ (r : Fin 50000) (q : Fin 64), i = ix2 r q := ⟨i 0, i 1, eq_ix2 i⟩
      exact (Cert.ReferenceIdeal.Layers.layer2_apply _ _ _ _ _ _ _ _ _ _ r q).symm

/-! ## Region 3 -/

theorem src6 : W6 m c (Proc.devRef .tc main_v1) = Cert.ReferenceIdeal.Read.val_main_v1 (F := Ideal) (m ((c : Thread nD τ).loc main_arg1)) :=
  ((W6_of_ne m c main_v1 (by decide)).trans <| (StableHlo.after_of_writes_sub (r := main_v1) Gen.hostOps2 (W4 m c) Gen.hostOps2_writes (by decide)).trans <| (W4_of_ne m c main_v1 (by decide)).trans <| (StableHlo.after_of_writes_sub (r := main_v1) Gen.hostOps1 (W2 m c) Gen.hostOps1_writes (by decide)).trans <| (W2_of_ne m c main_v1 (by decide))).trans (src1 m c)
theorem dst6 : W6 m c (Proc.devRef .tc main_v3) = Cert.ReferenceIdeal.Read.val_main_v3 (F := Ideal) (m ((c : Thread nD τ).loc main_arg1)) :=
  ((W6_of_ne m c main_v3 (by decide)).trans <| (StableHlo.after_of_writes_sub (r := main_v3) Gen.hostOps2 (W4 m c) Gen.hostOps2_writes (by decide)).trans <| (W4_of_ne m c main_v3 (by decide)).trans <| (StableHlo.after_of_writes_sub (r := main_v3) Gen.hostOps1 (W2 m c) Gen.hostOps1_writes (by decide)).trans <| (W2_of_ne m c main_v3 (by decide))).trans (dst1 m c)
theorem arg7_6 : W6 m c (Proc.devRef .tc main_arg7) = (m ((c : Thread nD τ).loc main_arg7)) :=
  ((W6_of_ne m c main_arg7 (by decide)).trans <| (StableHlo.after_of_writes_sub (r := main_arg7) Gen.hostOps2 (W4 m c) Gen.hostOps2_writes (by decide)).trans <| (W4_of_ne m c main_arg7 (by decide)).trans <| (StableHlo.after_of_writes_sub (r := main_arg7) Gen.hostOps1 (W2 m c) Gen.hostOps1_writes (by decide)).trans <| (W2_of_ne m c main_arg7 (by decide)).trans <| (StableHlo.after_of_writes_sub (r := main_arg7) Gen.hostOps0 (W0 m c) Gen.hostOps0_writes (by decide))).trans rfl
theorem arg8_6 : W6 m c (Proc.devRef .tc main_arg8) = (m ((c : Thread nD τ).loc main_arg8)) :=
  ((W6_of_ne m c main_arg8 (by decide)).trans <| (StableHlo.after_of_writes_sub (r := main_arg8) Gen.hostOps2 (W4 m c) Gen.hostOps2_writes (by decide)).trans <| (W4_of_ne m c main_arg8 (by decide)).trans <| (StableHlo.after_of_writes_sub (r := main_arg8) Gen.hostOps1 (W2 m c) Gen.hostOps1_writes (by decide)).trans <| (W2_of_ne m c main_arg8 (by decide)).trans <| (StableHlo.after_of_writes_sub (r := main_arg8) Gen.hostOps0 (W0 m c) Gen.hostOps0_writes (by decide))).trans rfl
theorem arg9_6 : W6 m c (Proc.devRef .tc main_arg9) = (m ((c : Thread nD τ).loc main_arg9)) :=
  ((W6_of_ne m c main_arg9 (by decide)).trans <| (StableHlo.after_of_writes_sub (r := main_arg9) Gen.hostOps2 (W4 m c) Gen.hostOps2_writes (by decide)).trans <| (W4_of_ne m c main_arg9 (by decide)).trans <| (StableHlo.after_of_writes_sub (r := main_arg9) Gen.hostOps1 (W2 m c) Gen.hostOps1_writes (by decide)).trans <| (W2_of_ne m c main_arg9 (by decide)).trans <| (StableHlo.after_of_writes_sub (r := main_arg9) Gen.hostOps0 (W0 m c) Gen.hostOps0_writes (by decide))).trans rfl
theorem arg10_6 : W6 m c (Proc.devRef .tc main_arg10) = (m ((c : Thread nD τ).loc main_arg10)) :=
  ((W6_of_ne m c main_arg10 (by decide)).trans <| (StableHlo.after_of_writes_sub (r := main_arg10) Gen.hostOps2 (W4 m c) Gen.hostOps2_writes (by decide)).trans <| (W4_of_ne m c main_arg10 (by decide)).trans <| (StableHlo.after_of_writes_sub (r := main_arg10) Gen.hostOps1 (W2 m c) Gen.hostOps1_writes (by decide)).trans <| (W2_of_ne m c main_arg10 (by decide)).trans <| (StableHlo.after_of_writes_sub (r := main_arg10) Gen.hostOps0 (W0 m c) Gen.hostOps0_writes (by decide))).trans rfl

set_option maxHeartbeats 1000000 in
theorem e3_z : (V7 m c main_v80 : S50000x64.Idx → EReal) = Cert.ReferenceIdeal.Read.val_main_v101 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after Gen.hostOps3 (W6 m c) (Proc.devRef .tc main_v80) = _
  after_results
  rw [out2 m c, src6 m c, dst6 m c]
  rfl
set_option maxHeartbeats 1000000 in
theorem e3_w1 : (V7 m c main_v63 : S64x64.Idx → EReal) = Cert.ReferenceIdeal.Read.val_main_v84 (F := Ideal) (m ((c : Thread nD τ).loc main_arg7)) := by
  show StableHlo.after Gen.hostOps3 (W6 m c) (Proc.devRef .tc main_v63) = _
  after_results
  rw [arg7_6 m c]
  rfl
set_option maxHeartbeats 1000000 in
theorem e3_b1 : (V7 m c main_v81 : S1x64.Idx → EReal) = shapeCast S1x64 (Cert.ReferenceIdeal.Read.val_main_v86 (F := Ideal) (m ((c : Thread nD τ).loc main_arg8))) Gen.shapeCasts_S64_S1x64 := by
  show StableHlo.after Gen.hostOps3 (W6 m c) (Proc.devRef .tc main_v81) = _
  after_results
  rw [arg8_6 m c]
  rfl
set_option maxHeartbeats 1000000 in
theorem e3_w2 : (V7 m c main_v67 : S64x64.Idx → EReal) = Cert.ReferenceIdeal.Read.val_main_v88 (F := Ideal) (m ((c : Thread nD τ).loc main_arg9)) := by
  show StableHlo.after Gen.hostOps3 (W6 m c) (Proc.devRef .tc main_v67) = _
  after_results
  rw [arg9_6 m c]
  rfl
set_option maxHeartbeats 1000000 in
theorem e3_b2 : (V7 m c main_v82 : S1x64.Idx → EReal) = shapeCast S1x64 (Cert.ReferenceIdeal.Read.val_main_v90 (F := Ideal) (m ((c : Thread nD τ).loc main_arg10))) Gen.shapeCasts_S64_S1x64 := by
  show StableHlo.after Gen.hostOps3 (W6 m c) (Proc.devRef .tc main_v82) = _
  after_results
  rw [arg10_6 m c]
  rfl

/-- Region 3's output array is the reference's layer 3. -/
theorem out3 : W8 m c (Proc.devRef .tc main_v83) = Cert.ReferenceIdeal.Read.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m c 5).trans <| (final3 (V7 m) c _ _ _ _ _ Gen.shapeCasts_S64_S1x64 (e3_z m c) (e3_w1 m c) (e3_b1 m c) (e3_w2 m c) (e3_b2 m c)).trans <|
    funext fun i => by
      obtain ⟨r, q, rfl⟩ : ∃ (r : Fin 50000) (q : Fin 64), i = ix2 r q := ⟨i 0, i 1, eq_ix2 i⟩
      exact (Cert.ReferenceIdeal.Layers.layer3_apply _ _ _ _ _ _ _ _ _ _ r q).symm

/-! ## The tail: the four layers side by side, summed per graph; the node counts, clipped below at one; their reciprocals -/

theorem l0_8 : W8 m c (Proc.devRef .tc main_v17) = Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  ((W8_of_ne m c main_v17 (by decide)).trans <| (StableHlo.after_of_writes_sub (r := main_v17) Gen.hostOps3 (W6 m c) Gen.hostOps3_writes (by decide)).trans <| (W6_of_ne m c main_v17 (by decide)).trans <| (StableHlo.after_of_writes_sub (r := main_v17) Gen.hostOps2 (W4 m c) Gen.hostOps2_writes (by decide)).trans <| (W4_of_ne m c main_v17 (by decide)).trans <| (StableHlo.after_of_writes_sub (r := main_v17) Gen.hostOps1 (W2 m c) Gen.hostOps1_writes (by decide))).trans (out0 m c)
theorem l1_8 : W8 m c (Proc.devRef .tc main_v39) = Cert.ReferenceIdeal.Read.val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((W8_of_ne m c main_v39 (by decide)).trans <| (StableHlo.after_of_writes_sub (r := main_v39) Gen.hostOps3 (W6 m c) Gen.hostOps3_writes (by decide)).trans <| (W6_of_ne m c main_v39 (by decide)).trans <| (StableHlo.after_of_writes_sub (r := main_v39) Gen.hostOps2 (W4 m c) Gen.hostOps2_writes (by decide))).trans (out1 m c)
theorem l2_8 : W8 m c (Proc.devRef .tc main_v61) = Cert.ReferenceIdeal.Read.val_main_v82 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((W8_of_ne m c main_v61 (by decide)).trans <| (StableHlo.after_of_writes_sub (r := main_v61) Gen.hostOps3 (W6 m c) Gen.hostOps3_writes (by decide))).trans (out2 m c)
theorem arg2_8 : W8 m c (Proc.devRef .tc main_arg2) = (m ((c : Thread nD τ).loc main_arg2)) :=
  ((W8_of_ne m c main_arg2 (by decide)).trans <| (StableHlo.after_of_writes_sub (r := main_arg2) Gen.hostOps3 (W6 m c) Gen.hostOps3_writes (by decide)).trans <| (W6_of_ne m c main_arg2 (by decide)).trans <| (StableHlo.after_of_writes_sub (r := main_arg2) Gen.hostOps2 (W4 m c) Gen.hostOps2_writes (by decide)).trans <| (W4_of_ne m c main_arg2 (by decide)).trans <| (StableHlo.after_of_writes_sub (r := main_arg2) Gen.hostOps1 (W2 m c) Gen.hostOps1_writes (by decide)).trans <| (W2_of_ne m c main_arg2 (by decide)).trans <| (StableHlo.after_of_writes_sub (r := main_arg2) Gen.hostOps0 (W0 m c) Gen.hostOps0_writes (by decide))).trans rfl
theorem arg12_10 : W10 m c (Proc.devRef .tc main_arg12) = (m ((c : Thread nD τ).loc main_arg12)) :=
  ((StableHlo.after_of_writes_sub (r := main_arg12) Gen.hostOps4_1 (W9 m c) Gen.hostOps4_1_writes (by decide)).trans <| (StableHlo.after_of_writes_sub (r := main_arg12) Gen.hostOps4 (W8 m c) Gen.hostOps4_writes (by decide)).trans <| (W8_of_ne m c main_arg12 (by decide)).trans <| (StableHlo.after_of_writes_sub (r := main_arg12) Gen.hostOps3 (W6 m c) Gen.hostOps3_writes (by decide)).trans <| (W6_of_ne m c main_arg12 (by decide)).trans <| (StableHlo.after_of_writes_sub (r := main_arg12) Gen.hostOps2 (W4 m c) Gen.hostOps2_writes (by decide)).trans <| (W4_of_ne m c main_arg12 (by decide)).trans <| (StableHlo.after_of_writes_sub (r := main_arg12) Gen.hostOps1 (W2 m c) Gen.hostOps1_writes (by decide)).trans <| (W2_of_ne m c main_arg12 (by decide)).trans <| (StableHlo.after_of_writes_sub (r := main_arg12) Gen.hostOps0 (W0 m c) Gen.hostOps0_writes (by decide))).trans rfl
theorem arg11_11 : W11 m c (Proc.devRef .tc main_arg11) = (m ((c : Thread nD τ).loc main_arg11)) :=
  ((StableHlo.after_of_writes_sub (r := main_arg11) Gen.hostOps4_2 (W10 m c) Gen.hostOps4_2_writes (by decide)).trans <| (StableHlo.after_of_writes_sub (r := main_arg11) Gen.hostOps4_1 (W9 m c) Gen.hostOps4_1_writes (by decide)).trans <| (StableHlo.after_of_writes_sub (r := main_arg11) Gen.hostOps4 (W8 m c) Gen.hostOps4_writes (by decide)).trans <| (W8_of_ne m c main_arg11 (by decide)).trans <| (StableHlo.after_of_writes_sub (r := main_arg11) Gen.hostOps3 (W6 m c) Gen.hostOps3_writes (by decide)).trans <| (W6_of_ne m c main_arg11 (by decide)).trans <| (StableHlo.after_of_writes_sub (r := main_arg11) Gen.hostOps2 (W4 m c) Gen.hostOps2_writes (by decide)).trans <| (W4_of_ne m c main_arg11 (by decide)).trans <| (StableHlo.after_of_writes_sub (r := main_arg11) Gen.hostOps1 (W2 m c) Gen.hostOps1_writes (by decide)).trans <| (W2_of_ne m c main_arg11 (by decide)).trans <| (StableHlo.after_of_writes_sub (r := main_arg11) Gen.hostOps0 (W0 m c) Gen.hostOps0_writes (by decide))).trans rfl

set_option maxHeartbeats 1000000 in
/-- The per-graph sums of the four layers' features, side by side. -/
theorem h4_sums : W9 m c (Proc.devRef .tc main_v87) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after Gen.hostOps4 (W8 m c) (Proc.devRef .tc main_v87) = _
  after_results
  show Host.scatterAdd scatter_S512x256_S50000x1_S50000x256_1_0_0_1
      (broadcastInDim S512x256 ![] Gen.bcast_S_S512x256 (constant (F := Ideal) S_ .f32 0x00000000#32))
      (broadcastInDim S50000x1 ![0] Gen.bcast_S50000_S50000x1_0 (W8 m c (Proc.devRef .tc main_arg2)))
      (concatenate S50000x256 1 [⟨S50000x64, W8 m c (Proc.devRef .tc main_v17)⟩, ⟨S50000x64, W8 m c (Proc.devRef .tc main_v39)⟩,
          ⟨S50000x64, W8 m c (Proc.devRef .tc main_v61)⟩, ⟨S50000x64, W8 m c (Proc.devRef .tc main_v83)⟩]
        Gen.concatenates_S50000x64_S50000x64_S50000x64_S50000x64_S50000x256_d1) = _
  rw [l0_8 m c, l1_8 m c, l2_8 m c, out3 m c, arg2_8 m c]
  rfl
set_option maxHeartbeats 1000000 in
/-- The per-graph node counts. -/
theorem h4_cnt : W9 m c (Proc.devRef .tc main_v91) = Cert.ReferenceIdeal.Read.val_main_v119 (F := Ideal) (m ((c : Thread nD τ).loc main_arg2)) := by
  show StableHlo.after Gen.hostOps4 (W8 m c) (Proc.devRef .tc main_v91) = _
  after_results
  rw [arg2_8 m c]
  rfl
set_option maxHeartbeats 1000000 in
theorem h4_one : W9 m c (Proc.devRef .tc main_cst_13) = Cert.ReferenceIdeal.Read.val_main_cst_13 (F := Ideal) := by
  show StableHlo.after Gen.hostOps4 (W8 m c) (Proc.devRef .tc main_cst_13) = _
  after_results
  rfl

set_option maxHeartbeats 1000000 in
/-- The counts clipped below at one, from any contents holding the counts and the constant one. -/
theorem h4_clip_of (U : Valuation τ sig (Elt Ideal)) (h1 : (U (Proc.devRef .tc main_v91) : S512.Idx → EReal) = Cert.ReferenceIdeal.Read.val_main_v119 (F := Ideal) (m ((c : Thread nD τ).loc main_arg2)))
    (h2 : (U (Proc.devRef .tc main_cst_13) : S_.Idx → EReal) = Cert.ReferenceIdeal.Read.val_main_cst_13 (F := Ideal)) :
    (StableHlo.after Gen.hostOps4_1 U (Proc.devRef .tc main_v92) : S512.Idx → EReal) = Cert.ReferenceIdeal.Read.val_main_v120 (F := Ideal) (m ((c : Thread nD τ).loc main_arg2)) := by
  have e : (StableHlo.after Gen.hostOps4_1 U (Proc.devRef .tc main_v92) : FVec Ideal S512 .f32)
      = (maximumf (broadcastInDim S512 ![] Gen.bcast_S_S512 (id (U (Proc.devRef .tc main_cst_13) : FVec Ideal S_ .f32)))
          (U (Proc.devRef .tc main_v91) : FVec Ideal S512 .f32) : FVec Ideal S512 .f32) := by
    after_results
    rfl
  rw [e, h1, h2]
  rfl
set_option maxHeartbeats 1000000 in
/-- The reciprocal counts as a one-column matrix, from any contents holding the clipped counts. -/
theorem h4_inv_of (U : Valuation τ sig (Elt Ideal)) (h : (U (Proc.devRef .tc main_v92) : S512.Idx → EReal) = Cert.ReferenceIdeal.Read.val_main_v120 (F := Ideal) (m ((c : Thread nD τ).loc main_arg2))) :
    (StableHlo.after Gen.hostOps4_2 U (Proc.devRef .tc main_v95) : S512x1.Idx → EReal)
      = broadcastInDim S512x1 ![0] Gen.bcast_S512_S512x1_0
          (Host.divf (broadcastInDim S512 ![] Gen.bcast_S_S512 (constant (F := Ideal) S_ .f32 0x3F800000#32)) (Cert.ReferenceIdeal.Read.val_main_v120 (F := Ideal) (m ((c : Thread nD τ).loc main_arg2)))) := by
  after_results
  rw [h]
set_option maxHeartbeats 1000000 in
/-- The classifier's bias as a one-row matrix, from any contents holding the bias argument. -/
theorem h4_fcb_of (U : Valuation τ sig (Elt Ideal)) (h : (U (Proc.devRef .tc main_arg12) : S10.Idx → EReal) = (m ((c : Thread nD τ).loc main_arg12))) :
    (StableHlo.after Gen.hostOps4_2 U (Proc.devRef .tc main_v96) : S1x10.Idx → EReal) = shapeCast S1x10 (m ((c : Thread nD τ).loc main_arg12)) Gen.shapeCasts_S10_S1x10 := by
  after_results
  rw [h]
  rfl

/-! ## The last region -/

set_option maxHeartbeats 1000000 in
theorem e4_s : (V11 m c main_v87 : S512x256.Idx → EReal) = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((StableHlo.after_of_writes_sub (r := main_v87) Gen.hostOps4_2 (W10 m c) Gen.hostOps4_2_writes (by decide)).trans <| (StableHlo.after_of_writes_sub (r := main_v87) Gen.hostOps4_1 (W9 m c) Gen.hostOps4_1_writes (by decide))).trans (h4_sums m c)
set_option maxHeartbeats 1000000 in
theorem e4_ic : (V11 m c main_v95 : S512x1.Idx → EReal)
      = broadcastInDim S512x1 ![0] Gen.bcast_S512_S512x1_0
          (Host.divf (broadcastInDim S512 ![] Gen.bcast_S_S512 (constant (F := Ideal) S_ .f32 0x3F800000#32)) (Cert.ReferenceIdeal.Read.val_main_v120 (F := Ideal) (m ((c : Thread nD τ).loc main_arg2)))) :=
  h4_inv_of m c (W10 m c) (h4_clip_of m c (W9 m c) (h4_cnt m c) (h4_one m c))
set_option maxHeartbeats 1000000 in
theorem e4_b : (V11 m c main_v96 : S1x10.Idx → EReal) = shapeCast S1x10 (m ((c : Thread nD τ).loc main_arg12)) Gen.shapeCasts_S10_S1x10 :=
  h4_fcb_of m c (W10 m c) (arg12_10 m c)

/-- The constant one broadcast over the graphs, read at a graph. -/
theorem bcast_one (g : Fin 512) :
    broadcastInDim S512 ![] Gen.bcast_S_S512 (constant (F := Ideal) S_ .f32 0x3F800000#32) (ix1 g) = Ideal.ofBits .f32 0x3F800000#32 :=
  (broadcastInDim_apply _ Gen.bcast_S_S512 (constant (F := Ideal) S_ .f32 0x3F800000#32) (ix1 g) (fun a => a.elim0) (fun a => a.elim0)).trans rfl

/-- The host's quotient of two vectors, read at an index. -/
theorem hostDivf_at (X Y : FVec Ideal S512 .f32) (i : S512.Idx) : Host.divf X Y i = Ideal.div (X i) (Y i) := rfl

/-- Graph `g`'s reciprocal count, as the last region finds it: one divided by the clipped count. -/
theorem ic_apply (g : Fin 512) :
    V11 m c main_v95 (ix2 g (0 : Fin 1)) = Ideal.div (Ideal.ofBits .f32 0x3F800000#32) (Cert.ReferenceIdeal.Read.val_main_v120 (F := Ideal) (m ((c : Thread nD τ).loc main_arg2)) (ix1 g)) := by
  refine (congrFun (e4_ic m c) (ix2 g (0 : Fin 1))).trans ?_
  refine (broadcastInDim_apply _ Gen.bcast_S512_S512x1_0
    (Host.divf (broadcastInDim S512 ![] Gen.bcast_S_S512 (constant (F := Ideal) S_ .f32 0x3F800000#32)) (Cert.ReferenceIdeal.Read.val_main_v120 (F := Ideal) (m ((c : Thread nD τ).loc main_arg2))))
    (ix2 g (0 : Fin 1)) (ix1 g) (fun a => by
      match a with
      | ⟨0, _⟩ => show g.val = if (512 : Nat) = 1 then 0 else g.val; rw [if_neg (by decide)])).trans ?_
  refine (hostDivf_at _ _ (ix1 g)).trans ?_
  rw [bcast_one]

/-- THE RESULT: what the last region's pipeline leaves in the result array is the reference's result of the same
    arguments. The kernel multiplies each summed feature by the graph's reciprocal count where the reference divides by
    the count; the count is at least one, so the two agree. -/
theorem value : (dat4 (V11 m) c).arrAt 4 cfg4.N = Cert.ReferenceIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (final4 (V11 m) c _ _ _ _ Gen.shapeCasts_S10_S1x10 (e4_s m c) rfl (arg11_11 m c) (e4_b m c)).trans <| funext fun i => by
    obtain ⟨g, q, rfl⟩ : ∃ (g : Fin 512) (q : Fin 10), i = ix2 g q := ⟨i 0, i 1, eq_ix2 i⟩
    refine Eq.trans ?_ (Cert.ReferenceIdeal.Head.head_apply _ _ _ _ _ _ _ _ _ _ _ _ _ g q).symm
    unfold Cert.Spec.headFun
    refine congrArg (fun pl => Cert.Spec.headRow pl (fun f c' => (m ((c : Thread nD τ).loc main_arg11)) (ix2 f c')) (fun c' => (m ((c : Thread nD τ).loc main_arg12)) (ix1 c')) q) (funext fun f => ?_)
    show Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 g f) * V11 m c main_v95 (ix2 g (0 : Fin 1)) = _
    rw [ic_apply m c g]
    exact Cert.Spec.mul_one_div _ _ (Cert.ReferenceIdeal.Head.clip_ne_zero _ g)

end Cert.KernelIdeal.Val

end
-- ==== Proof.lean ====
/-
  The certificate. Kernel and reference are one function on the extended reals: four graph-convolution layers — each
  the node features plus the sum of the neighbours' features, through a two-layer network with both layers clamped
  below at zero — then the four layers' outputs side by side summed per graph, divided by the graph's node count
  (at least one), through a linear classifier, and each row minus its log-sum-exp. The kernel computes each layer's
  network and the classifier head in kernel regions, block by block, and multiplies by the reciprocal count where the
  reference divides; every other step is the same host operation in both programs.
  The three frames: the two kernel programs by the run of their twelve items, the reference by its run with the result
  dropped. The idealization rewrote nothing, so it preserves the kernel trivially. The results agree because every
  boundary's buffers in the kernel program are the reference's stages of the same arguments; the one algebraic step is
  that a product with the reciprocal of a count of at least one is the quotient by it, at the infinities too.
-/
import proofs.«135148_j25074019074551_1_alg».proof.Defs
import proofs.«135148_j25074019074551_1_alg».proof.Proof.Gen.Kernel
import proofs.«135148_j25074019074551_1_alg».proof.Proof.Gen.KernelIdeal
import proofs.«135148_j25074019074551_1_alg».proof.Proof.Gen.ReferenceIdeal
import proofs.«135148_j25074019074551_1_alg».proof.Proof.Gen.Pre_finite_inputs
import proofs.«135148_j25074019074551_1_alg».proof.Proof.Gen.ReferenceIdeal.Run
import proofs.«135148_j25074019074551_1_alg».proof.Proof.Gen.ReferenceIdeal.Read
import proofs.«135148_j25074019074551_1_alg».proof.Proof.K.Args
import proofs.«135148_j25074019074551_1_alg».proof.Proof.KI.Args
import proofs.«135148_j25074019074551_1_alg».proof.Proof.Val.Chain
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with the same result: the kernel's result array is what its last region
    leaves, which is the reference's result term of the same arguments (the chain of boundaries); the reference's is its
    generated run's term, of arguments that agree. -/
theorem algebraic : Cert.algebraic_KernelIdeal_ReferenceIdeal := by
  intro m ρ m' ρ' _ hagree
  refine ⟨fun c => Cert.ReferenceIdeal.Read.val_main_v128 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.KernelIdeal.Val.value m c), (h c).2⟩)
      (Cert.KernelIdeal.Fr.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v128_eq, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
